-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x2048 : Shape := ⟨2, ![4096, 2048]⟩
abbrev S4096 : Shape := ⟨1, ![4096]⟩
abbrev S2048x256 : Shape := ⟨2, ![2048, 256]⟩
abbrev S256 : Shape := ⟨1, ![256]⟩
abbrev S16x256x128 : Shape := ⟨3, ![16, 256, 128]⟩
abbrev S16x128 : Shape := ⟨2, ![16, 128]⟩
abbrev S64x128 : Shape := ⟨2, ![64, 128]⟩
abbrev S64 : Shape := ⟨1, ![64]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S16x256x128 : S_.BroadcastsInDim S16x256x128 (![] : Fin 0 → Fin S16x256x128.rank)
  reducesTo_S16x256x128_S_d0_1_2 : S16x256x128.ReducesTo [0, 1, 2] S_
  bcast_S_S16x128 : S_.BroadcastsInDim S16x128 (![] : Fin 0 → Fin S16x128.rank)
  reducesTo_S16x128_S_d0_1 : S16x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg1 main_v34
  let main_c_13 : IVec S_ 32 := constantI S_ 32 63#32
  let main_v36 : IVec S4096 32 := broadcastInDim S4096 ![] bcast_S_S4096 main_c_13
  let main_v37 : IVec S4096 1 := cmpi .sle main_arg1 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  main_v40

def fn_part1 {F : FTy → Type} [FloatOps F] (main_arg1 : IVec S4096 32) (main_arg5 : FVec F S16x128 .f32) (main_arg6 : FVec F S64x128 .f32) (main_arg7 : FVec F S64 .f32) (main_v13 : IVec S_ 1) (main_v16 : IVec S16x256x128 1) : IVec S_ 1 :=
  let main_c_5 : IVec S_ 1 := constantI S_ 1 1#1
  let main_v17 : IVec S_ 1 := (fun x v => Host.reduce IntOp.andi x v reducesTo_S16x256x128_S_d0_1_2 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S4096x2048 .f32) (main_arg1 : IVec S4096 32) (main_arg2 : FVec F S2048x256 .f32) (main_arg3 : FVec F S256 .f32) (main_arg4 : FVec F S16x256x128 .f32) (main_arg5 : FVec F S16x128 .f32) (main_arg6 : FVec F S64x128 .f32) (main_arg7 : FVec F S64 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x256 .f32 := Host.absf main_arg2
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S16x256x128 .f32 := Host.absf main_arg4
  let main_cst_4 : FVec F S_ .f32 := constant S_ .f32 0x7F800000#32
  let main_v15 : FVec F S16x256x128 .f32 := broadcastInDim S16x256x128 ![] bcast_S_S16x256x128 main_cst_4
  let main_v16 : IVec S16x256x128 1 := cmpf .olt main_v14 main_v15
  fn_part1 (F := F) main_arg1 main_arg5 main_arg6 main_arg7 main_v13 main_v16
-- ==== Kernel.lean ====
abbrev S4096x2048 : Shape := ⟨2, ![4096, 2048]⟩
abbrev S4096 : Shape := ⟨1, ![4096]⟩
abbrev S2048x256 : Shape := ⟨2, ![2048, 256]⟩
abbrev S256 : Shape := ⟨1, ![256]⟩
abbrev S16x256x128 : Shape := ⟨3, ![16, 256, 128]⟩
abbrev S16x128 : Shape := ⟨2, ![16, 128]⟩
abbrev S64x128 : Shape := ⟨2, ![64, 128]⟩
abbrev S64 : Shape := ⟨1, ![64]⟩
abbrev S4096x128 : Shape := ⟨2, ![4096, 128]⟩
abbrev S256x128 : Shape := ⟨2, ![256, 128]⟩
abbrev S_ : Shape := ⟨0, ![]⟩
abbrev S256x16x128 : Shape := ⟨3, ![256, 16, 128]⟩
abbrev S256x2048 : Shape := ⟨2, ![256, 2048]⟩
abbrev S1x2048 : Shape := ⟨2, ![1, 2048]⟩
abbrev S4096x1 : Shape := ⟨2, ![4096, 1]⟩
abbrev S1x256 : Shape := ⟨2, ![1, 256]⟩
abbrev S64x1 : Shape := ⟨2, ![64, 1]⟩
abbrev S4096x256 : Shape := ⟨2, ![4096, 256]⟩
abbrev S1024x2048 : Shape := ⟨2, ![1024, 2048]⟩
abbrev S1024x256 : Shape := ⟨2, ![1024, 256]⟩
abbrev S512x256 : Shape := ⟨2, ![512, 256]⟩
abbrev S512x1 : Shape := ⟨2, ![512, 1]⟩
abbrev S512x128 : Shape := ⟨2, ![512, 128]⟩
abbrev S512 : Shape := ⟨1, ![512]⟩
abbrev S512x2048 : Shape := ⟨2, ![512, 2048]⟩
abbrev S512x64 : Shape := ⟨2, ![512, 64]⟩

abbrev nBuf : Table → Nat
  | .hbm => 19
  | .local .tc .vmem => 17
  | .local .scVector .vmem => 2
  | _ => 0

abbrev bufTy : (tb : Table) → Fin (nBuf tb) → BufTy
  | .hbm, ⟨0, _⟩ => ⟨S4096x2048, .f32⟩
  | .hbm, ⟨1, _⟩ => ⟨S4096, .i32⟩
  | .hbm, ⟨2, _⟩ => ⟨S2048x256, .f32⟩
  | .hbm, ⟨3, _⟩ => ⟨S256, .f32⟩
  | .hbm, ⟨4, _⟩ => ⟨S16x256x128, .f32⟩
  | .hbm, ⟨5, _⟩ => ⟨S16x128, .f32⟩
  | .hbm, ⟨6, _⟩ => ⟨S64x128, .f32⟩
  | .hbm, ⟨7, _⟩ => ⟨S64, .f32⟩
  | .hbm, ⟨8, _⟩ => ⟨S4096x128, .f32⟩
  | .hbm, ⟨9, _⟩ => ⟨S2048x256, .bf16⟩
  | .hbm, ⟨10, _⟩ => ⟨S256x16x128, .f32⟩
  | .hbm, ⟨11, _⟩ => ⟨S256x2048, .f32⟩
  | .hbm, ⟨12, _⟩ => ⟨S256x2048, .bf16⟩
  | .hbm, ⟨13, _⟩ => ⟨S1x2048, .f32⟩
  | .hbm, ⟨14, _⟩ => ⟨S4096x1, .i32⟩
  | .hbm, ⟨15, _⟩ => ⟨S1x256, .f32⟩
  | .hbm, ⟨16, _⟩ => ⟨S64x1, .f32⟩
  | .hbm, ⟨17, _⟩ => ⟨S4096x256, .bf16⟩
  | .hbm, ⟨18, _⟩ => ⟨S4096, .f32⟩
  | .local .tc .vmem, ⟨0, _⟩ => ⟨S1024x2048, .f32⟩
  | .local .tc .vmem, ⟨1, _⟩ => ⟨S1024x2048, .f32⟩
  | .local .tc .vmem, ⟨2, _⟩ => ⟨S2048x256, .bf16⟩
  | .local .tc .vmem, ⟨3, _⟩ => ⟨S1x256, .f32⟩
  | .local .tc .vmem, ⟨4, _⟩ => ⟨S1024x256, .bf16⟩
  | .local .tc .vmem, ⟨5, _⟩ => ⟨S1024x256, .bf16⟩
  | .local .tc .vmem, ⟨6, _⟩ => ⟨S512x256, .bf16⟩
  | .local .tc .vmem, ⟨7, _⟩ => ⟨S512x256, .bf16⟩
  | .local .tc .vmem, ⟨8, _⟩ => ⟨S512x1, .i32⟩
  | .local .tc .vmem, ⟨9, _⟩ => ⟨S512x1, .i32⟩
  | .local .tc .vmem, ⟨10, _⟩ => ⟨S256x2048, .bf16⟩
  | .local .tc .vmem, ⟨11, _⟩ => ⟨S1x2048, .f32⟩
  | .local .tc .vmem, ⟨12, _⟩ => ⟨S512x128, .f32⟩
  | .local .tc .vmem, ⟨13, _⟩ => ⟨S512x128, .f32⟩
  | .local .tc .vmem, ⟨14, _⟩ => ⟨S64x1, .f32⟩
  | .local .tc .vmem, ⟨15, _⟩ => ⟨S512, .f32⟩
  | .local .tc .vmem, ⟨16, _⟩ => ⟨S512, .f32⟩
  | .local .scVector .vmem, ⟨0, _⟩ => ⟨S256, .i32⟩
  | .local .scVector .vmem, ⟨1, _⟩ => ⟨S256x128, .f32⟩
  | _, _ => ⟨S4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_arg1_scv : Ref sig .scVector := ⟨.hbm, 1, rfl⟩
abbrev main_arg6_scv : Ref sig .scVector := ⟨.hbm, 6, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg6_1 : Ref sig .tc := ⟨.vmem, 16, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem4_1 : DmaSem sig := 16
abbrev cc2_sem5_0 : DmaSem sig := 17
abbrev cc2_sem6_0 : DmaSem sig := 18
abbrev cc2_sem6_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S64x128_S64x128_0_0 : ∀ a, (![0, 0] : Fin 2 → Nat) a + S64x128.size a ≤ S64x128.size a
  gathers_S64x128_S256x128 : S64x128.Gathers 0 S256x128
  bitsLt_bf16_f32 : FTy.bits .bf16 < FTy.bits .f32
  transposes_S16x256x128_S256x16x128_1_0_2 : S16x256x128.Transposes [1, 0, 2] S256x16x128
  shapeCasts_S256x16x128_S256x2048 : S256x16x128.ShapeCasts S256x2048
  shapeCasts_S16x128_S1x2048 : S16x128.ShapeCasts S1x2048
  shapeCasts_S4096_S4096x1 : S4096.ShapeCasts S4096x1
  shapeCasts_S256_S1x256 : S256.ShapeCasts S1x256
  shapeCasts_S64_S64x1 : S64.ShapeCasts S64x1
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1 : S512x1.Broadcasts S512x1
  iota_S512x64_d1_w32 : S512x64.Iotas .tc 32 [1]
  broadcasts_S512x1_S512x64 : S512x1.Broadcasts S512x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S512x2048_d1_w32 : S512x2048.Iotas .tc 32 [1]
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S512x128_S512x128_S512x128_S512x128_S512x128_S512x128_S512x128_S512x128_S512x128_S512x128_S512x128_S512x128_S512x128_S512x128_S512x128_S512x128_S512x2048_d1 : Shape.Concatenates [S512x128, S512x128, S512x128, S512x128, S512x128, S512x128, S512x128, S512x128, S512x128, S512x128, S512x128, S512x128, S512x128, S512x128, S512x128, S512x128] S512x2048 1
  broadcasts_S512x1_S512x2048 : S512x1.Broadcasts S512x2048
  reduces_S512x2048_S512 : S512x2048.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  dot_S1024x2048_S2048x256_S1024x256_1_0_0_1_n_n_wf : DotDims.WF S1024x2048 S2048x256 S1024x256 [1] [0] [0] [1] [] []
  dot_S512x256_S256x2048_S512x2048_1_0_0_1_n_n_wf : DotDims.WF S512x256 S256x2048 S512x2048 [1] [0] [0] [1] [] []
  dot_S512x64_S64x1_S512x1_1_0_0_1_n_n_wf : DotDims.WF S512x64 S64x1 S512x1 [1] [0] [0] [1] [] []
  hcc0_scratch2 : 0 + S_.numel ≤ 20
  hcc0_scoped0 : 1 + S_.numel ≤ 20
  hcc0_scoped1 : 2 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S4096.size a
  k0_off2_inb : ∀ i : grid0.Coords, ∀ a, (k0_off2 i) a + S256x128.size a ≤ S4096x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .f32 = 32 ∨ (Rect.block (s := S4096x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .bf16 = 32 ∨ (Rect.block (s := S2048x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .bf16 = 32 ∨ (Rect.block (s := S4096x256) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .bf16 = 32 ∨ (Rect.block (s := S4096x256) S512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S4096x1.size a
  hwx2_1 : ∀ i : grid2.Coords, EltTy.bits .i32 = 32 ∨ (Rect.block (s := S4096x1) S512x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S256x2048.size a
  hwx2_2 : ∀ i : grid2.Coords, EltTy.bits .bf16 = 32 ∨ (Rect.block (s := S256x2048) S256x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S4096x128.size a
  hwx2_4 : ∀ i : grid2.Coords, EltTy.bits .f32 = 32 ∨ (Rect.block (s := S4096x128) S512x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S4096.size a
  hwx2_6 : ∀ i : grid2.Coords, EltTy.bits .f32 = 32 ∨ (Rect.block (s := S4096) S512.size (cc2_transform_6 i) (hinb2_6 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S512x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048x256 : Shape := ⟨2, ![2048, 256]⟩
abbrev S256 : Shape := ⟨1, ![256]⟩
abbrev S16x256x128 : Shape := ⟨3, ![16, 256, 128]⟩
abbrev S16x128 : Shape := ⟨2, ![16, 128]⟩
abbrev S64x128 : Shape := ⟨2, ![64, 128]⟩
abbrev S64 : Shape := ⟨1, ![64]⟩
abbrev S_ : Shape := ⟨0, ![]⟩
abbrev S4096x256 : Shape := ⟨2, ![4096, 256]⟩
abbrev S1x256 : Shape := ⟨2, ![1, 256]⟩
abbrev S4096x1 : Shape := ⟨2, ![4096, 1]⟩
abbrev S1 : Shape := ⟨1, ![1]⟩
abbrev S1x1 : Shape := ⟨2, ![1, 1]⟩
abbrev S4096x256x128 : Shape := ⟨3, ![4096, 256, 128]⟩
abbrev S4096x128 : Shape := ⟨2, ![4096, 128]⟩

abbrev nBuf : Space → Nat
  | .hbm => 147
  | .vmem => 0
  | .smem => 0
  | _ => 0

abbrev hbmTy0_0 (i : Nat) : BufTy := match i % 128 with
  | 0 => ⟨S4096x2048, .f32⟩
  | 1 => ⟨S4096, .i32⟩
  | 2 => ⟨S2048x256, .f32⟩
  | 3 => ⟨S256, .f32⟩
  | 4 => ⟨S16x256x128, .f32⟩
  | 5 => ⟨S16x128, .f32⟩
  | 6 => ⟨S64x128, .f32⟩
  | 7 => ⟨S64, .f32⟩
  | 8 => ⟨S64, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S64, .i32⟩
  | 16 => ⟨S64, .i32⟩
  | 17 => ⟨S_, .i32⟩
  | 18 => ⟨S64, .i32⟩
  | 19 => ⟨S64, .i1⟩
  | 20 => ⟨S_, .i32⟩
  | 21 => ⟨S64, .i32⟩
  | 22 => ⟨S64, .i1⟩
  | 23 => ⟨S_, .i32⟩
  | 24 => ⟨S_, .i1⟩
  | 25 => ⟨S64, .i1⟩
  | 26 => ⟨S64, .i1⟩
  | 27 => ⟨S64, .i1⟩
  | 28 => ⟨S64, .i32⟩
  | 29 => ⟨S64, .i32⟩
  | 30 => ⟨S64, .i32⟩
  | 31 => ⟨S4096x256, .f32⟩
  | 32 => ⟨S1x256, .f32⟩
  | 33 => ⟨S4096x256, .f32⟩
  | 34 => ⟨S4096x256, .f32⟩
  | 35 => ⟨S_, .f32⟩
  | 36 => ⟨S4096x256, .f32⟩
  | 37 => ⟨S4096x256, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S1, .i32⟩
  | 56 => ⟨S_, .i32⟩
  | 57 => ⟨S4096x1, .i32⟩
  | 58 => ⟨S4096x1, .i1⟩
  | 59 => ⟨S1x1, .i32⟩
  | 60 => ⟨S4096x1, .i32⟩
  | 61 => ⟨S4096x1, .i1⟩
  | 62 => ⟨S4096x1, .i1⟩
  | 63 => ⟨S_, .i1⟩
  | 64 => ⟨S4096, .i1⟩
  | 65 => ⟨S4096x256x128, .f32⟩
  | 66 => ⟨S4096x256x128, .i1⟩
  | 67 => ⟨S_, .f32⟩
  | 68 => ⟨S4096x256x128, .f32⟩
  | 69 => ⟨S4096x256x128, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S1, .i32⟩
  | 79 => ⟨S_, .i32⟩
  | 80 => ⟨S4096x1, .i32⟩
  | 81 => ⟨S4096x1, .i1⟩
  | 82 => ⟨S1x1, .i32⟩
  | 83 => ⟨S4096x1, .i32⟩
  | 84 => ⟨S4096x1, .i1⟩
  | 85 => ⟨S4096x1, .i1⟩
  | 86 => ⟨S_, .i1⟩
  | 87 => ⟨S4096, .i1⟩
  | 88 => ⟨S4096x128, .f32⟩
  | 89 => ⟨S4096x128, .i1⟩
  | 90 => ⟨S_, .f32⟩
  | 91 => ⟨S4096x128, .f32⟩
  | 92 => ⟨S4096x128, .f32⟩
  | 93 => ⟨S4096x128, .f32⟩
  | 94 => ⟨S4096x128, .f32⟩
  | 95 => ⟨S_, .f32⟩
  | 96 => ⟨S4096x128, .f32⟩
  | 97 => ⟨S4096x128, .f32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S1, .i32⟩
  | 107 => ⟨S_, .i32⟩
  | 108 => ⟨S4096x1, .i32⟩
  | 109 => ⟨S4096x1, .i1⟩
  | 110 => ⟨S1x1, .i32⟩
  | 111 => ⟨S4096x1, .i32⟩
  | 112 => ⟨S4096x1, .i1⟩
  | 113 => ⟨S4096x1, .i1⟩
  | 114 => ⟨S_, .i1⟩
  | 115 => ⟨S4096, .i1⟩
  | 116 => ⟨S4096x128, .f32⟩
  | 117 => ⟨S4096x128, .i1⟩
  | 118 => ⟨S_, .f32⟩
  | 119 => ⟨S4096x128, .f32⟩
  | 120 => ⟨S4096x128, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x2048, .f32⟩

abbrev hbmTy0_1 (i : Nat) : BufTy := match i % 128 with
  | 0 => ⟨S4096x1, .i32⟩
  | 1 => ⟨S1, .i32⟩
  | 2 => ⟨S_, .i32⟩
  | 3 => ⟨S4096x1, .i32⟩
  | 4 => ⟨S4096x1, .i1⟩
  | 5 => ⟨S1x1, .i32⟩
  | 6 => ⟨S4096x1, .i32⟩
  | 7 => ⟨S4096x1, .i1⟩
  | 8 => ⟨S4096x1, .i1⟩
  | 9 => ⟨S_, .i1⟩
  | 10 => ⟨S4096, .i1⟩
  | 11 => ⟨S4096, .f32⟩
  | 12 => ⟨S_, .f32⟩
  | 13 => ⟨S4096, .f32⟩
  | 14 => ⟨S4096, .f32⟩
  | 15 => ⟨S4096x128, .f32⟩
  | 16 => ⟨S_, .f32⟩
  | 17 => ⟨S4096, .f32⟩
  | 18 => ⟨S4096, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_c_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v14 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_call4_cst : Ref sig .tc := ⟨.hbm, 95, rfl⟩
abbrev main_call4_v0 : Ref sig .tc := ⟨.hbm, 96, rfl⟩
abbrev main_v18 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_call5_cst : Ref sig .tc := ⟨.hbm, 118, rfl⟩
abbrev main_call5_v15 : Ref sig .tc := ⟨.hbm, 119, rfl⟩
abbrev main_v19 : Ref sig .tc := ⟨.hbm, 120, rfl⟩
abbrev main_call6_c : Ref sig .tc := ⟨.hbm, 121, rfl⟩
abbrev main_call6_v0 : Ref sig .tc := ⟨.hbm, 122, rfl⟩
abbrev main_call6_v1 : Ref sig .tc := ⟨.hbm, 123, rfl⟩
abbrev main_call6_c_0 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_call6_c_1 : Ref sig .tc := ⟨.hbm, 129, rfl⟩
abbrev main_call6_c_2 : Ref sig .tc := ⟨.hbm, 130, rfl⟩
abbrev main_call6_v6 : Ref sig .tc := ⟨.hbm, 131, rfl⟩
abbrev main_call6_v7 : Ref sig .tc := ⟨.hbm, 132, rfl⟩
abbrev main_call6_v8 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_c_3 : Ref sig .tc := ⟨.hbm, 137, rfl⟩
abbrev main_call6_v12 : Ref sig .tc := ⟨.hbm, 138, rfl⟩
abbrev main_call6_v13 : Ref sig .tc := ⟨.hbm, 139, rfl⟩
abbrev main_call6_cst : Ref sig .tc := ⟨.hbm, 140, rfl⟩
abbrev main_call6_v14 : Ref sig .tc := ⟨.hbm, 141, rfl⟩
abbrev main_v20 : Ref sig .tc := ⟨.hbm, 142, rfl⟩
abbrev main_v21 : Ref sig .tc := ⟨.hbm, 143, rfl⟩
abbrev main_cst : Ref sig .tc := ⟨.hbm, 144, rfl⟩
abbrev main_v22 : Ref sig .tc := ⟨.hbm, 145, rfl⟩
abbrev main_v23 : Ref sig .tc := ⟨.hbm, 146, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x256x128_0 : S4096.BroadcastsInDim S4096x256x128 (![0] : Fin 1 → Fin S4096x256x128.rank)
  bcast_S_S4096x256x128 : S_.BroadcastsInDim S4096x256x128 (![] : Fin 0 → Fin S4096x256x128.rank)
  bcast_S4096_S4096x128_0 : S4096.BroadcastsInDim S4096x128 (![0] : Fin 1 → Fin S4096x128.rank)
  bcast_S_S4096x128 : S_.BroadcastsInDim S4096x128 (![] : Fin 0 → Fin S4096x128.rank)
  reducesTo_S4096x128_S4096_d1 : S4096x128.ReducesTo [1] S4096
  dot_S4096x2048_S2048x256_S4096x256_1_0_0_1_n_n_wf : DotDims.WF S4096x2048 S2048x256 S4096x256 [1] [0] [0] [1] [] []
  gather_S64_S4096x1_S4096_n_0_n_n_0_1_1_wf : GatherDims.WF S64 S4096x1 S4096 [] [0] [] [0] [] 1 ![1]
  gather_S16x256x128_S4096x1_S4096x256x128_12_0_n_n_0_1_1256128_wf : GatherDims.WF S16x256x128 S4096x1 S4096x256x128 [1, 2] [0] [] [0] [] 1 ![1, 256, 128]
  gather_S16x128_S4096x1_S4096x128_1_0_n_n_0_1_1128_wf : GatherDims.WF S16x128 S4096x1 S4096x128 [1] [0] [] [0] [] 1 ![1, 128]
  dot_S4096x256_S4096x256x128_S4096x128_1_1_n_2_0_0_wf : DotDims.WF S4096x256 S4096x256x128 S4096x128 [1] [1] [] [2] [0] [0]
  gather_S64x128_S4096x1_S4096x128_1_0_n_n_0_1_1128_wf : GatherDims.WF S64x128 S4096x1 S4096x128 [1] [0] [] [0] [] 1 ![1, 128]

variable [Facts₀]

def dot_S4096x2048_S2048x256_S4096x256_1_0_0_1_n_n : DotDims S4096x2048 S2048x256 S4096x256 where
  lhsContracting := [1]
  rhsContracting := [0]
  lhsNonContracting := [0]
  rhsNonContracting := [1]
  lhsBatch := []
  rhsBatch := []
  wf := dot_S4096x2048_S2048x256_S4096x256_1_0_0_1_n_n_wf
def gather_S64_S4096x1_S4096_n_0_n_n_0_1_1 : GatherDims S64 S4096x1 S4096 where
  offsetDims := []
  collapsedSliceDims := [0]
  operandBatchingDims := []
  startIndicesBatchingDims := []
  startIndexMap := [0]
  indexVectorDim := 1
  sliceSizes := ![1]
  wf := gather_S64_S4096x1_S4096_n_0_n_n_0_1_1_wf
def gather_S16x256x128_S4096x1_S4096x256x128_12_0_n_n_0_1_1256128 : GatherDims S16x256x128 S4096x1 S4096x256x128 where
  offsetDims := [1, 2]
  collapsedSliceDims := [0]
  operandBatchingDims := []
  startIndicesBatchingDims := []
  startIndexMap := [0]
  indexVectorDim := 1
  sliceSizes := ![1, 256, 128]
  wf := gather_S16x256x128_S4096x1_S4096x256x128_12_0_n_n_0_1_1256128_wf
def gather_S16x128_S4096x1_S4096x128_1_0_n_n_0_1_1128 : GatherDims S16x128 S4096x1 S4096x128 where
  offsetDims := [1]
  collapsedSliceDims := [0]
  operandBatchingDims := []
  startIndicesBatchingDims := []
  startIndexMap := [0]
  indexVectorDim := 1
  sliceSizes := ![1, 128]
  wf := gather_S16x128_S4096x1_S4096x128_1_0_n_n_0_1_1128_wf
def dot_S4096x256_S4096x256x128_S4096x128_1_1_n_2_0_0 : DotDims S4096x256 S4096x256x128 S4096x128 where
  lhsContracting := [1]
  rhsContracting := [1]
  lhsNonContracting := []
  rhsNonContracting := [2]
  lhsBatch := [0]
  rhsBatch := [0]
  wf := dot_S4096x256_S4096x256x128_S4096x128_1_1_n_2_0_0_wf
def gather_S64x128_S4096x1_S4096x128_1_0_n_n_0_1_1128 : GatherDims S64x128 S4096x1 S4096x128 where
  offsetDims := [1]
  collapsedSliceDims := [0]
  operandBatchingDims := []
  startIndicesBatchingDims := []
  startIndexMap := [0]
  indexVectorDim := 1
  sliceSizes := ![1, 128]
  wf := gather_S64x128_S4096x1_S4096x128_1_0_n_n_0_1_1128_wf

class Facts : Prop extends Facts₀ where

variable [Facts]
-- ==== Proof.KiCommon.lean ====
/-
  The idealized kernel program as the SparseCore launch theorem sees it: its labels, its one SparseCore call, the body
  table, and the resource algebra of the proof — the launch handshakes' rounds, the two TensorCore pipelines' staging
  rounds, and the counters of the vector subcores' own transfers, side by side.
-/
import proofs.«211788_g47691316855323_cont_8to1_c_563_28_alg».proof.Proof.Gen.KernelIdeal
import proofs.«211788_g47691316855323_cont_8to1_c_563_28_alg».proof.Proof.Gen.KernelIdeal.Skeleton
import proofs.«211788_g47691316855323_cont_8to1_c_563_28_alg».proof.Proof.Gen.KernelIdeal.Launch
import proofs.«211788_g47691316855323_cont_8to1_c_563_28_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic

noncomputable section

namespace Cert.KiProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

example : CountersIn UU := inferInstance

end Cert.KiProof

end
-- ==== Proof.KiBodies.lean ====
/-
  The two TensorCore kernel bodies, each run once on whole staging buffers: the encoder body reads its three input
  buffers and overwrites its output buffer with one store; the router body reads its six input buffers (five of them
  in its first part) and overwrites its output buffer with one store. What each leaves in its output buffer is the
  store's value, a pure function of what the inputs hold.
-/
import proofs.«211788_g47691316855323_cont_8to1_c_563_28_alg».proof.Proof.KiCommon

set_option maxRecDepth 16384

noncomputable section

namespace Cert.KiProof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The bodies' accesses: every one the whole buffer -/

abbrev rE0 : Rect S1024x2048 := Rect.unit (s := S1024x2048) ![0, 0] S1024x2048.size inb_S1024x2048_S1024x2048_0_0
abbrev rE1 : Rect S2048x256 := Rect.unit (s := S2048x256) ![0, 0] S2048x256.size inb_S2048x256_S2048x256_0_0
abbrev rE2 : Rect S1x256 := Rect.unit (s := S1x256) ![0, 0] S1x256.size inb_S1x256_S1x256_0_0
abbrev rE3 : Rect S1024x256 := Rect.unit (s := S1024x256) ![0, 0] S1024x256.size inb_S1024x256_S1024x256_0_0

abbrev rR0 : Rect S512x256 := Rect.unit (s := S512x256) ![0, 0] S512x256.size inb_S512x256_S512x256_0_0
abbrev rR1 : Rect S512x1 := Rect.unit (s := S512x1) ![0, 0] S512x1.size inb_S512x1_S512x1_0_0
abbrev rR2 : Rect S256x2048 := Rect.unit (s := S256x2048) ![0, 0] S256x2048.size inb_S256x2048_S256x2048_0_0
abbrev rR3 : Rect S1x2048 := Rect.unit (s := S1x2048) ![0, 0] S1x2048.size inb_S1x2048_S1x2048_0_0
abbrev rR4 : Rect S512x128 := Rect.unit (s := S512x128) ![0, 0] S512x128.size inb_S512x128_S512x128_0_0
abbrev rR5 : Rect S64x1 := Rect.unit (s := S64x1) ![0, 0] S64x1.size inb_S64x1_S64x1_0_0
abbrev rR6 : Rect S512 := Rect.unit (s := S512) ![0] S512.size inb_S512_S512_0

/-! ## What each body leaves in its output buffer -/

/-- The encoder's output buffer after the body: its one store, of the payload of the three loads. -/
def encOut (x0 : Vec F S1024x2048 .f32) (x1 : Vec F S2048x256 .bf16) (x2 : Vec F S1x256 .f32) : Vec F S1024x256 .bf16 :=
  View.canon [⟨rE3, k1_pay1 (View.ld x0 rE0) (View.ld x1 rE1) (View.ld x2 rE2)⟩]

theorem encCover (p0 : Vec F S1024x256 .bf16) (y : S1024x256.Idx) :
    ∃ pc ∈ ([⟨rE3, p0⟩] : List (View.Piece (Elt F) S1024x256 .bf16)), y ∈ pc.1.set :=
  View.cover_of_tiled [⟨rE3, p0⟩] S1024x256.size (by rfl) y

/-- The router's output buffer after the body: its one store, of the payload of the six loads. -/
def routeOut (x0 : Vec F S512x256 .bf16) (x1 : Vec F S512x1 .i32) (x2 : Vec F S256x2048 .bf16) (x3 : Vec F S1x2048 .f32)
    (x4 : Vec F S512x128 .f32) (x5 : Vec F S64x1 .f32) : Vec F S512 .f32 :=
  View.canon [⟨rR6, k2_pay1 (k2_pay2 (View.ld x0 rR0) (View.ld x2 rR2) (View.ld x3 rR3)) (k2_pay4 (View.ld x1 rR1))
    (k2_pay5 (View.ld x1 rR1) (View.ld x5 rR5)) (iota .tc S512x2048 32 [1] iota_S512x2048_d1_w32) 128#32 k2_pay6 (View.ld x4 rR4)⟩]

theorem routeCover (p0 : Vec F S512 .f32) (y : S512.Idx) :
    ∃ pc ∈ ([⟨rR6, p0⟩] : List (View.Piece (Elt F) S512 .f32)), y ∈ pc.1.set :=
  View.cover_of_tiled [⟨rR6, p0⟩] S512.size (by rfl) y

/-! ## The bodies' triples -/

set_option maxHeartbeats 1000000 in
/-- The encoder body on whole staging buffers, the inputs' at contents `x0 x1 x2` and the output's at anything, runs to
    the continuation holding the inputs' as they were and the output's at `encOut` of them. -/
theorem sound_enc (c : Dev nD) (E : Set ℕ) (i : grid1.Coords)
    (arg1 : Memref sig .tc .vmem S1024x2048 .f32) (harg1 : arg1.IsWhole) (arg2 : Memref sig .tc .vmem S2048x256 .bf16) (harg2 : arg2.IsWhole)
    (arg3 : Memref sig .tc .vmem S1x256 .f32) (harg3 : arg3.IsWhole) (arg4 : Memref sig .tc .vmem S1024x256 .bf16) (harg4 : arg4.IsWhole)
    (x0 : Vec F S1024x2048 .f32) (x1 : Vec F S2048x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (encOut x0 x1 x2)) -∗ K ⟨⟩))
      ⊢ wp frame (wpE (defs₀ (F := F)) Variants.none c none) E (cc1__enc_body i arg1 harg1 arg2 harg2 arg3 harg3 arg4 harg4) K := by
  simp only [cc1__enc_body_eq_skeleton]; unfold cc1__enc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (encCover _)

set_option maxHeartbeats 1000000 in
/-- The router body likewise: six inputs kept, the output's buffer at `routeOut` of them. -/
theorem sound_route (c : Dev nD) (E : Set ℕ) (i : grid2.Coords)
    (arg1 : Memref sig .tc .vmem S512x256 .bf16) (harg1 : arg1.IsWhole) (arg2 : Memref sig .tc .vmem S512x1 .i32) (harg2 : arg2.IsWhole)
    (arg3 : Memref sig .tc .vmem S256x2048 .bf16) (harg3 : arg3.IsWhole) (arg4 : Memref sig .tc .vmem S1x2048 .f32) (harg4 : arg4.IsWhole)
    (arg5 : Memref sig .tc .vmem S512x128 .f32) (harg5 : arg5.IsWhole) (arg6 : Memref sig .tc .vmem S64x1 .f32) (harg6 : arg6.IsWhole)
    (arg7 : Memref sig .tc .vmem S512 .f32) (harg7 : arg7.IsWhole)
    (x0 : Vec F S512x256 .bf16) (x1 : Vec F S512x1 .i32) (x2 : Vec F S256x2048 .bf16) (x3 : Vec F S1x2048 .f32)
    (x4 : Vec F S512x128 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (routeOut x0 x1 x2 x3 x4 x5)) -∗ K ⟨⟩))
      ⊢ wp frame (wpE (defs₀ (F := F)) Variants.none c none) E
          (cc2__route_body i arg1 harg1 arg2 harg2 arg3 harg3 arg4 harg4 arg5 harg5 arg6 harg6 arg7 harg7) K := by
  simp only [cc2__route_body_eq_skeleton]; unfold cc2__route_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (routeCover _)

end Cert.KiProof

end
-- ==== Proof.KiDats.lean ====
/-
  The two TensorCore pipelines' proof data, over any contents `Vb` the region finds its arrays at: after the body at a
  grid point each input's staging buffer holds its block of the array and the output's holds the body's store of the
  input blocks; the invariant is the core's scoped buffers that are no staging buffer of the pipeline, untouched; nothing
  is owed; the pairs the core's waits have recorded stay below the level the launch protocol leaves it at.
-/
import proofs.«211788_g47691316855323_cont_8to1_c_563_28_alg».proof.Proof.KiBodies

set_option maxRecDepth 16384

noncomputable section

namespace Cert.KiProof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pairs a TensorCore's waits may have recorded: those at or below the level of the launch protocol's last wait. -/
def Rec (c : Dev nD) : Set (SemLoc sig × HIx 1) := {p | (K (F := F)).lev ((c : Thread nD τ), p.1) p.2 ≤ 8}

variable (Vb : (c : Dev nD) → (b : Ref sig .tc) → Buf (Elt F) ((c : Thread nD τ).loc b))

/-! ## The encoder's pipeline -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vb c (Pipeline.arrRef spec1 w))

def dat1 (c : Dev nD) : Dat τ (Elt F) (HIx 1) ℕ UU ℕ cfg1 c where
  A w := Vb c (Pipeline.arrRef spec1 w)
  after w t := match w with
    | ⟨0, _⟩ => iblk1 Vb c 0 t
    | ⟨1, _⟩ => iblk1 Vb c 1 t
    | ⟨2, _⟩ => iblk1 Vb c 2 t
    | ⟨3, _⟩ => encOut (iblk1 Vb c 0 t) (iblk1 Vb c 1 t) (iblk1 Vb c 2 t)
  Φ _ := Pipeline.scopedRest spec1 c
  q _ := fullShare
  owed _ := 0
  recorded _ := Rec (F := F) c

theorem A1_eq (c : Dev nD) (w : Fin cfg1.W) : (dat1 Vb c).A w = Vb c (Pipeline.arrRef spec1 w) := by dsimp only [dat1]
theorem after1_0 (c : Dev nD) (t : Fin cfg1.N) : (dat1 Vb c).after 0 t = iblk1 Vb c 0 t := by dsimp only [dat1]
theorem after1_1 (c : Dev nD) (t : Fin cfg1.N) : (dat1 Vb c).after 1 t = iblk1 Vb c 1 t := by dsimp only [dat1]
theorem after1_2 (c : Dev nD) (t : Fin cfg1.N) : (dat1 Vb c).after 2 t = iblk1 Vb c 2 t := by dsimp only [dat1]
theorem after1_3 (c : Dev nD) (t : Fin cfg1.N) :
    (dat1 Vb c).after 3 t = encOut (iblk1 Vb c 0 t) (iblk1 Vb c 1 t) (iblk1 Vb c 2 t) := by dsimp only [dat1]

theorem before1_0 (c : Dev nD) (t : Fin cfg1.N) (d) : (dat1 Vb c).before 0 t d = iblk1 Vb c 0 t :=
  ((dat1 Vb c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 Vb c).before 1 t d = iblk1 Vb c 1 t :=
  ((dat1 Vb c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 Vb c).before 2 t d = iblk1 Vb c 2 t :=
  ((dat1 Vb c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)

def bodyPre1 (c : Dev nD) (t : Fin cfg1.N) : sProp 𝕄 :=
  iprop((dat1 Vb c).Φ t.castSucc ∗ (dat1 Vb c).owesAt none t.castSucc
    ∗ (∃ d, owns (c : Thread nD τ) (st1_0 t) fullShare ((dat1 Vb c).before 0 t d))
    ∗ (∃ d, owns (c : Thread nD τ) (st1_1 t) fullShare ((dat1 Vb c).before 1 t d))
    ∗ (∃ d, owns (c : Thread nD τ) (st1_2 t) fullShare ((dat1 Vb c).before 2 t d))
    ∗ (∃ d, owns (c : Thread nD τ) (st1_3 t) fullShare ((dat1 Vb c).before 3 t d)))

def bodyPost1 (c : Dev nD) (t : Fin cfg1.N) : sProp 𝕄 :=
  iprop((dat1 Vb c).Φ t.succ ∗ (dat1 Vb c).owesAt none t.succ
    ∗ owns (c : Thread nD τ) (st1_0 t) fullShare ((dat1 Vb c).after 0 t)
    ∗ owns (c : Thread nD τ) (st1_1 t) fullShare ((dat1 Vb c).after 1 t)
    ∗ owns (c : Thread nD τ) (st1_2 t) fullShare ((dat1 Vb c).after 2 t)
    ∗ owns (c : Thread nD τ) (st1_3 t) fullShare ((dat1 Vb c).after 3 t))

theorem sound_body1 (c : Dev nD) (t : Fin cfg1.N) :
    bodyPre1 Vb c t ⊢ wp frame (wpE (defs₀ (F := F)) Variants.none c none) Set.univ (bodyAt1 t) (fun _ => bodyPost1 Vb c t) := by
  unfold bodyPre1 bodyPost1 bodyAt1
  simp only [before1_0, before1_1, before1_2]
  rw [show (dat1 Vb c).Φ t.succ = (dat1 Vb c).Φ t.castSucc from rfl,
    show (dat1 Vb c).owesAt none t.succ = (dat1 Vb c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_enc c Set.univ (grid1.coords t) _ _ _ _ _ _ _ _ (iblk1 Vb c 0 t) (iblk1 Vb c 1 t) (iblk1 Vb c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) Vb c) (defs₀ (F := F)) Variants.none none Set.univ := fun t => by
  rw [bigSep_W1, bigSep_W1]
  exact sound_body1 Vb c t

/-! ## The router's pipeline -/

variable (Vc : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (Vc c (Pipeline.arrRef spec2 w))

def dat2 (c : Dev nD) : Dat τ (Elt F) (HIx 1) ℕ UU ℕ cfg2 c where
  A w := Vc c (Pipeline.arrRef spec2 w)
  after w t := match w with
    | ⟨0, _⟩ => iblk2 Vc c 0 t
    | ⟨1, _⟩ => iblk2 Vc c 1 t
    | ⟨2, _⟩ => iblk2 Vc c 2 t
    | ⟨3, _⟩ => iblk2 Vc c 3 t
    | ⟨4, _⟩ => iblk2 Vc c 4 t
    | ⟨5, _⟩ => iblk2 Vc c 5 t
    | ⟨6, _⟩ => routeOut (iblk2 Vc c 0 t) (iblk2 Vc c 1 t) (iblk2 Vc c 2 t) (iblk2 Vc c 3 t) (iblk2 Vc c 4 t) (iblk2 Vc c 5 t)
  Φ _ := Pipeline.scopedRest spec2 c
  q _ := fullShare
  owed _ := 0
  recorded _ := Rec (F := F) c

theorem A2_eq (c : Dev nD) (w : Fin cfg2.W) : (dat2 Vc c).A w = Vc c (Pipeline.arrRef spec2 w) := by dsimp only [dat2]
theorem after2_0 (c : Dev nD) (t : Fin cfg2.N) : (dat2 Vc c).after 0 t = iblk2 Vc c 0 t := by dsimp only [dat2]
theorem after2_1 (c : Dev nD) (t : Fin cfg2.N) : (dat2 Vc c).after 1 t = iblk2 Vc c 1 t := by dsimp only [dat2]
theorem after2_2 (c : Dev nD) (t : Fin cfg2.N) : (dat2 Vc c).after 2 t = iblk2 Vc c 2 t := by dsimp only [dat2]
theorem after2_3 (c : Dev nD) (t : Fin cfg2.N) : (dat2 Vc c).after 3 t = iblk2 Vc c 3 t := by dsimp only [dat2]
theorem after2_4 (c : Dev nD) (t : Fin cfg2.N) : (dat2 Vc c).after 4 t = iblk2 Vc c 4 t := by dsimp only [dat2]
theorem after2_5 (c : Dev nD) (t : Fin cfg2.N) : (dat2 Vc c).after 5 t = iblk2 Vc c 5 t := by dsimp only [dat2]
theorem after2_6 (c : Dev nD) (t : Fin cfg2.N) :
    (dat2 Vc c).after 6 t = routeOut (iblk2 Vc c 0 t) (iblk2 Vc c 1 t) (iblk2 Vc c 2 t) (iblk2 Vc c 3 t) (iblk2 Vc c 4 t) (iblk2 Vc c 5 t) := by
  dsimp only [dat2]

theorem before2_0 (c : Dev nD) (t : Fin cfg2.N) (d) : (dat2 Vc c).before 0 t d = iblk2 Vc c 0 t :=
  ((dat2 Vc c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 Vc c).before 1 t d = iblk2 Vc c 1 t :=
  ((dat2 Vc c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 Vc c).before 2 t d = iblk2 Vc c 2 t :=
  ((dat2 Vc c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 Vc c).before 3 t d = iblk2 Vc c 3 t :=
  ((dat2 Vc c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 Vc c).before 4 t d = iblk2 Vc c 4 t :=
  ((dat2 Vc c).before_in_eq_fetched 4 rfl (fun _ => rfl) (fun _ _ _ => rfl)
    (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 Vc c).before 5 t d = iblk2 Vc c 5 t :=
  ((dat2 Vc c).before_in_eq_fetched 5 rfl (fun _ => rfl) (fun _ _ _ => rfl)
    (fun t => by rw [after2_5]; unfold Dat.blockOf iblk2; rw [A2_eq]; try rfl) t d).trans
    (by unfold Dat.fetched Dat.blockOf iblk2; rw [A2_eq]; try rfl)

def bodyPre2 (c : Dev nD) (t : Fin cfg2.N) : sProp 𝕄 :=
  iprop((dat2 Vc c).Φ t.castSucc ∗ (dat2 Vc c).owesAt none t.castSucc
    ∗ (∃ d, owns (c : Thread nD τ) (st2_0 t) fullShare ((dat2 Vc c).before 0 t d))
    ∗ (∃ d, owns (c : Thread nD τ) (st2_1 t) fullShare ((dat2 Vc c).before 1 t d))
    ∗ (∃ d, owns (c : Thread nD τ) (st2_2 t) fullShare ((dat2 Vc c).before 2 t d))
    ∗ (∃ d, owns (c : Thread nD τ) (st2_3 t) fullShare ((dat2 Vc c).before 3 t d))
    ∗ (∃ d, owns (c : Thread nD τ) (st2_4 t) fullShare ((dat2 Vc c).before 4 t d))
    ∗ (∃ d, owns (c : Thread nD τ) (st2_5 t) fullShare ((dat2 Vc c).before 5 t d))
    ∗ (∃ d, owns (c : Thread nD τ) (st2_6 t) fullShare ((dat2 Vc c).before 6 t d)))

def bodyPost2 (c : Dev nD) (t : Fin cfg2.N) : sProp 𝕄 :=
  iprop((dat2 Vc c).Φ t.succ ∗ (dat2 Vc c).owesAt none t.succ
    ∗ owns (c : Thread nD τ) (st2_0 t) fullShare ((dat2 Vc c).after 0 t)
    ∗ owns (c : Thread nD τ) (st2_1 t) fullShare ((dat2 Vc c).after 1 t)
    ∗ owns (c : Thread nD τ) (st2_2 t) fullShare ((dat2 Vc c).after 2 t)
    ∗ owns (c : Thread nD τ) (st2_3 t) fullShare ((dat2 Vc c).after 3 t)
    ∗ owns (c : Thread nD τ) (st2_4 t) fullShare ((dat2 Vc c).after 4 t)
    ∗ owns (c : Thread nD τ) (st2_5 t) fullShare ((dat2 Vc c).after 5 t)
    ∗ owns (c : Thread nD τ) (st2_6 t) fullShare ((dat2 Vc c).after 6 t))

theorem sound_body2 (c : Dev nD) (t : Fin cfg2.N) :
    bodyPre2 Vc c t ⊢ wp frame (wpE (defs₀ (F := F)) Variants.none c none) Set.univ (bodyAt2 t) (fun _ => bodyPost2 Vc c t) := by
  unfold bodyPre2 bodyPost2 bodyAt2
  simp only [before2_0, before2_1, before2_2, before2_3, before2_4, before2_5]
  rw [show (dat2 Vc c).Φ t.succ = (dat2 Vc c).Φ t.castSucc from rfl,
    show (dat2 Vc c).owesAt none t.succ = (dat2 Vc c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_route c Set.univ (grid2.coords t) _ _ _ _ _ _ _ _ _ _ _ _ _ _
    (iblk2 Vc c 0 t) (iblk2 Vc c 1 t) (iblk2 Vc c 2 t) (iblk2 Vc c 3 t) (iblk2 Vc c 4 t) (iblk2 Vc c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) Vc c) (defs₀ (F := F)) Variants.none none Set.univ := fun t => by
  rw [bigSep_W2, bigSep_W2]
  exact sound_body2 Vc c t

/-! ## The two as the program's family of proof data -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => dat1 Vb
  | ⟨1, _⟩ => dat2 Vc

end Cert.KiProof

end
-- ==== Proof.KiTileDefs.lean ====
/-
  The SparseCore call: sixteen vector subcores, each fetching its 256 drug indices into its index scratch, transferring
  the rows of the drug head those indices name into its row scratch by one indexed copy, and copying the row scratch out
  to its 256 rows of the call's result. Every subcore reads all of the drug head at once, so the call's split hands each
  a read share of it. After the call the result holds, at row `b`, row `drug b` of the drug head.
-/
import proofs.«211788_g47691316855323_cont_8to1_c_563_28_alg».proof.Proof.KiCommon
import Idealize.ShloMosaic.Lib.ValueIdx

noncomputable section

namespace Cert.KiProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch memory and the buffers -/

variable (m : (ℓ : Loc nD τ sig) → Buf (Elt F) ℓ) (ρ : Dev nD → PrngReg)

abbrev iLoc (d : Dev nD) : Loc nD τ sig := (SparseCore.T d).loc main_arg1
abbrev wLoc (d : Dev nD) : Loc nD τ sig := (SparseCore.T d).loc main_arg6
abbrev oLoc (d : Dev nD) : Loc nD τ sig := (SparseCore.T d).loc main_v0

local notation "iV" => (Memref.whole Cert.KernelIdeal.main_arg1_scv : Memref Cert.KernelIdeal.sig Kind.scVector Space.hbm Cert.KernelIdeal.S4096 EltTy.i32)
local notation "wV" => (Memref.whole Cert.KernelIdeal.main_arg6_scv : Memref Cert.KernelIdeal.sig Kind.scVector Space.hbm Cert.KernelIdeal.S64x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

theorem idiv : 16 ∣ S4096.size 0 := ⟨256, rfl⟩
theorem odiv : 16 ∣ S4096x128.size 0 := ⟨256, rfl⟩
abbrev irow (i : Fin 16) : Rect S4096 := Rect.part (s := S4096) (a₀ := 0) idiv i
abbrev orow (i : Fin 16) : Rect S4096x128 := Rect.part (s := S4096x128) (a₀ := 0) odiv i
abbrev iRowSet (i : Fin 16) : Finset S4096.Idx := ((iV).view.slice (irow i)).set
abbrev oRowSet (i : Fin 16) : Finset S4096x128.Idx := ((oV).view.slice (orow i)).set

/-- What the proof asks of the launch memory: every drug index names a row of the drug head. -/
def PreOK : Prop := ∀ (d : Dev nD) (j : S4096.Idx), (m (iLoc d) j).toNat < 64

/-- The call's result: at row `b`, the row of the drug head that sample `b`'s drug index names. -/
def gathered (d : Dev nD) : Buf (Elt F) (oLoc d) :=
  fun j => m (wLoc d) (ValueIdx.ix2 (⟨(m (iLoc d) (ValueIdx.ix1 (j 0 : Fin 4096))).toNat % 64, Nat.mod_lt _ (by decide)⟩ : Fin 64) (j 1 : Fin 128))

/-- Task `i`'s read share of the drug head. -/
abbrev wq (i : Fin 16) : PosShare TreeShare := Transfers.shareTok fullShare 16 i

variable [FloatOps F]

/-! ## What the handshakes carry -/

abbrev iPts (d : Dev nD) : sProp 𝕄 := iLoc d ↦{fullShare} m (iLoc d)
abbrev wPts (d : Dev nD) : sProp 𝕄 := wLoc d ↦{fullShare} m (wLoc d)
abbrev oPts (d : Dev nD) (f : Buf (Elt F) (oLoc d)) : sProp 𝕄 := oLoc d ↦{fullShare} f
abbrev iRowPts (d : Dev nD) (i : Fin 16) : sProp 𝕄 := iLoc d ↦[iRowSet i]{fullShare} m (iLoc d)
abbrev wShPts (d : Dev nD) (i : Fin 16) : sProp 𝕄 := wLoc d ↦{wq i} m (wLoc d)
abbrev oRowPts (d : Dev nD) (i : Fin 16) (f : Buf (Elt F) (oLoc d)) : sProp 𝕄 := oLoc d ↦[oRowSet i]{fullShare} f

/-- The one call takes the drug indices, the drug head and the result array whole; each task its 256 indices, its share
    of the drug head and its 256 rows of the result, and brings them back, the result's rows at the gathered rows. -/
def P : (K (F := F)).Pay (nD := nD) (Val := Elt F) (Name := ℕ) (U := UU) where
  st := fun q d _ => match q with | 0 => iprop(iPts m d ∗ wPts m d ∗ oPts d (m (oLoc d)))
  dn := fun q d _ => match q with | 0 => iprop(iPts m d ∗ wPts m d ∗ oPts d (gathered m d))
  go := fun q d _ i => match q with
    | 0 => iprop(iRowPts m d (Fin.cast nSub_zero i) ∗ wShPts m d (Fin.cast nSub_zero i) ∗ oRowPts d (Fin.cast nSub_zero i) (m (oLoc d)))
  td := fun q d _ i => match q with
    | 0 => iprop(iRowPts m d (Fin.cast nSub_zero i) ∗ wShPts m d (Fin.cast nSub_zero i) ∗ oRowPts d (Fin.cast nSub_zero i) (gathered m d))
  x := fun _ _ => iprop(emp)

instance P_storable : (P (F := F) m).IsStorable where
  st q d _ := match q with
    | 0 => (inferInstance : BI.Storable (upEmb : UEmb _ 𝕄) iprop(iPts m d ∗ wPts m d ∗ oPts d (m (oLoc d))))
  dn q d _ := match q with
    | 0 => (inferInstance : BI.Storable (upEmb : UEmb _ 𝕄) iprop(iPts m d ∗ wPts m d ∗ oPts d (gathered m d)))
  go q d _ i := match q with
    | 0 => (inferInstance : BI.Storable (upEmb : UEmb _ 𝕄)
      iprop(iRowPts m d (Fin.cast nSub_zero i) ∗ wShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ wShPts m d (Fin.cast nSub_zero i) ∗ oRowPts d (Fin.cast nSub_zero i) (gathered m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev irowK (L : grid0.Coords) : Rect S4096 := Rect.unit (s := S4096) (k0_off1 L) S256.size (k0_off1_inb L)
abbrev orowK (L : grid0.Coords) : Rect S4096x128 := Rect.unit (s := S4096x128) (k0_off2 L) S256x128.size (k0_off2_inb L)
/-- The task's 256 drug indices and its 256 rows of the result, and all of the drug head, as the task addresses them. -/
abbrev iRowK (L : grid0.Coords) : Memref sig .scVector .hbm S256 .i32 := (iV).slice (irowK L) (fun _ => rfl)
abbrev oRowK (L : grid0.Coords) : Memref sig .scVector .hbm S256x128 .f32 := (oV).slice (orowK L) (fun _ => rfl)
abbrev wAllK : Memref sig .scVector .hbm S64x128 .f32 := (wV).slice (Rect.unit (s := S64x128) ![0, 0] S64x128.size inb_S64x128_S64x128_0_0) (fun _ => rfl)

omit [FloatOps F] in
theorem L0_zero : (L 0).val = 0 := Nat.lt_one_iff.mp (L 0).isLt

omit [FloatOps F] in
theorem irowK_eq : irowK L = irow (jL L) := by
  unfold irowK irow Rect.part Rect.block
  congr 1 <;> funext a
  · rw [k0_off1_eq]
    match a with
    | 0 => simp [Shape.partIx, Shape.partSize, L0_zero L]; omega
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, L0_zero L]; omega
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  rw [irowK_eq]
omit [FloatOps F] in
theorem set_oRowK : (oRowK L).view.set = oRowSet (jL L) := by
  show ((oV).view.slice (orowK L)).set = ((oV).view.slice (orow (jL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

end Tile

section Tile2

variable (d : Dev nD) (L : grid0.Coords)

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The offsets the indexed copy reads are in range: what the index fetch landed in the index scratch is the task's 256
    drug indices, each below 64. -/
theorem inb_of_pre (hpre : PreOK m) (fs : Buf (Elt F) ((V d (cV L) (jV L)).loc cc0_scratch0)) (pay : S256.Idx → Elt F .i32)
    (hpay : pay = (iRowK L).view.read (Elt F) (m (iLoc d))) :
    ∀ x, ((sV).view.read (Elt F) (View.write (Elt F) (sV).view fs pay Finset.univ) x).toNat < S64x128.size gathers_S64x128_S256x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

end Tile2

end Cert.KiProof

end
-- ==== Proof.KiSegs.lean ====
/-
  @main after the SparseCore call, as segments: the eight host operations that re-lay the weights (one host segment),
  then the encoder's and the router's pipeline regions. The buffers' contents are followed from segment to segment: the
  launch contents with the call's result at the gathered rows; after the host line; after the encoder's region (its
  result array at what its grid points wrote); after the router's region.
-/
import proofs.«211788_g47691316855323_cont_8to1_c_563_28_alg».proof.Proof.KiDats
import proofs.«211788_g47691316855323_cont_8to1_c_563_28_alg».proof.Proof.KiTileDefs

set_option maxRecDepth 16384

noncomputable section

namespace Cert.KiProof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The contents, segment by segment -/

/-- The launch contents, the call's result at the gathered rows. -/
def W0 (c : Dev nD) : Valuation τ sig (Elt F) := Function.update (fun b => m (c, b)) (Proc.devRef .tc main_v0) (gathered m c)

/-- The host line: the shared weights and the experts' weights re-typed, the experts' weights laid side by side, the
    biases and the drug indices given their unit axes. -/
abbrev hostOps : List (HloOp τ sig (Elt F)) :=
  [ StableHlo.unary main_arg2 main_v1 ((truncf .bf16 · bitsLt_bf16_f32) : (⟨S2048x256, .f32⟩ : BufTy).Contents (Elt F) → (⟨S2048x256, .bf16⟩ : BufTy).Contents (Elt F)),
    StableHlo.unary main_arg4 main_v2 ((transpose S256x16x128 [1, 0, 2] · transposes_S16x256x128_S256x16x128_1_0_2) : (⟨S16x256x128, .f32⟩ : BufTy).Contents (Elt F) → (⟨S256x16x128, .f32⟩ : BufTy).Contents (Elt F)),
    StableHlo.reshape main_v2 main_v3 rfl shapeCasts_S256x16x128_S256x2048,
    StableHlo.unary main_v3 main_v4 ((truncf .bf16 · bitsLt_bf16_f32) : (⟨S256x2048, .f32⟩ : BufTy).Contents (Elt F) → (⟨S256x2048, .bf16⟩ : BufTy).Contents (Elt F)),
    StableHlo.reshape main_arg5 main_v5 rfl shapeCasts_S16x128_S1x2048,
    StableHlo.reshape main_arg1 main_v6 rfl shapeCasts_S4096_S4096x1,
    StableHlo.reshape main_arg3 main_v7 rfl shapeCasts_S256_S1x256,
    StableHlo.reshape main_arg7 main_v8 rfl shapeCasts_S64_S64x1 ]

theorem hostOps_sub : (hostOps : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..,
    StableHlo.reshape_bufs_sub .., StableHlo.reshape_bufs_sub .., StableHlo.reshape_bufs_sub .., StableHlo.reshape_bufs_sub ..⟩

theorem ops_sub : ∀ op ∈ (hostOps : List (HloOp τ sig (Elt F))), op.bufs ⊆ Pipeline.ucRefs τ sig := fun op h =>
  Pipeline.sub_ucRefs op ((List.forall_iff_forall_mem.mp hostOps_sub) op h)

theorem ops_fresh : ∀ op ∈ (hostOps : List (HloOp τ sig (Elt F))), op.fresh = ∅ := fun op h => by
  simp only [List.mem_cons, List.not_mem_nil, or_false] at h
  rcases h with rfl | rfl | rfl | rfl | rfl | rfl | rfl | rfl <;> rfl

/-- After the host line. -/
def W1 (c : Dev nD) : Valuation τ sig (Elt F) := StableHlo.after hostOps (W0 m c)

/-- What the encoder's region finds its arrays at; -/
abbrev B1 (c : Dev nD) : (b : Ref sig .tc) → Buf (Elt F) ((c : Thread nD τ).loc b) := fun b => W1 m c b

/-- what the router's region finds: the encoder's result array at what its grid points wrote; -/
def B2 (c : Dev nD) : (b : Ref sig .tc) → Buf (Elt F) ((c : Thread nD τ).loc b) :=
  Function.update (B1 m c) main_v9 ((dat1 (B1 m) c).arrAt 3 cfg1.N)

/-- and what the program ends at. -/
def B3 (c : Dev nD) : (b : Ref sig .tc) → Buf (Elt F) ((c : Thread nD τ).loc b) :=
  Function.update (B2 m c) main_v10 ((dat2 (B2 m) c).arrAt 6 cfg2.N)

/-- The two pipelines' proof data at those contents. -/
abbrev pd : (p : Fin 2) → (c : Dev nD) → Dat τ (Elt F) (HIx 1) ℕ UU ℕ (Pipeline.pin (pcfgs (F := F)) adm p) c :=
  pdats (B1 m) (B2 m)

/-- What rides beside the buffers through the segments: the core owing nothing. -/
def Rst (c : Dev nD) : sProp 𝕄 := iprop(∃ W, owes (c : Thread nD τ) (0 : CellTallies nD τ sig (HIx 1)) W)

/-- The launch protocol's recorded pairs and levels. -/
abbrev KL : GSem nD τ sig → Finset (HIx 1) := (K (F := F)).L
abbrev Klv : GSem nD τ sig → HIx 1 → ℕ := (K (F := F)).lev

local notation "ℍ" => Pipeline.HostSeg (Name := ℕ) (U := UU) (pcfgs (F := F)) defs₀ 𝒱₀ (KL (F := F)) (Klv (F := F))
local notation "ℝ𝕊" => Pipeline.RegionSeg (pcfgs (F := F)) adm (pd m) none defs₀ 𝒱₀ (KL (F := F)) (Klv (F := F))

/-- THE HOST LINE. -/
def segH : ℍ := Pipeline.HostSeg.ofOps _ _ _ _ _ (Pipeline.ucRefs τ sig) (hostOps (F := F)) ops_sub ops_fresh (W0 m) Rst

/-- Every pair is within the recorded bound: with one SparseCore call no level exceeds 7. -/
theorem mem_Rec (c : Dev nD) (p : SemLoc sig × HIx 1) : p ∈ Rec (F := F) c := by
  show (K (F := F)).lev ((c : Thread nD τ), p.1) p.2 ≤ 8
  rcases p with ⟨s, _ | q⟩
  · exact Nat.zero_le _
  · exact ((K (F := F)).lev_some_le _ q).trans (by have := q.isLt; omega)

theorem Rst_owesAt1 (c : Dev nD) (t) : Rst c ⊢ ((dat1 (F := F) (B1 m) c).owesAt none t : sProp 𝕄) := by
  unfold Rst Pipeline.Dat.owesAt Pipeline.owesWithin
  iintro ⟨%W, HO⟩; iexists W; isplitr; · ipureintro; exact fun p _ => Or.inl (mem_Rec c p)
  iexact HO
theorem Rst_owesAt2 (c : Dev nD) (t) : Rst c ⊢ ((dat2 (F := F) (B2 m) c).owesAt none t : sProp 𝕄) := by
  unfold Rst Pipeline.Dat.owesAt Pipeline.owesWithin
  iintro ⟨%W, HO⟩; iexists W; isplitr; · ipureintro; exact fun p _ => Or.inl (mem_Rec c p)
  iexact HO
theorem owesAt1_Rst (c : Dev nD) (t) : ((dat1 (F := F) (B1 m) c).owesAt none t : sProp 𝕄) ⊢ Rst c := by
  unfold Rst Pipeline.Dat.owesAt Pipeline.owesWithin
  iintro ⟨%W, -, HO⟩; iexists W; iexact HO
theorem owesAt2_Rst (c : Dev nD) (t) : ((dat2 (F := F) (B2 m) c).owesAt none t : sProp 𝕄) ⊢ Rst c := by
  unfold Rst Pipeline.Dat.owesAt Pipeline.owesWithin
  iintro ⟨%W, -, HO⟩; iexists W; iexact HO

omit [FloatOps F] in
/-- The unscoped buffers that are no window's array are read only off those buffers. -/
theorem rest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V b = V' b) :
    (Pipeline.unscopedRest win c V : sProp 𝕄) = Pipeline.unscopedRest win c V' := by
  unfold Pipeline.unscopedRest
  exact bigSep_congr fun b hb => by rw [h b (Finset.mem_sdiff.mp hb).2]

/-! ## The encoder's region -/

theorem B2_of_ne (c : Dev nD) {b : Ref sig .tc} (h : b ≠ main_v9) : B2 m c b = B1 m c b := Function.update_of_ne h _ _
theorem B2_v9 (c : Dev nD) : B2 m c main_v9 = (dat1 (B1 m) c).arrAt 3 cfg1.N := Function.update_self ..

omit [FloatOps F] in
theorem prefHeld_none (c : Dev nD) (v) : (Pipeline.prefHeld (pcfgs (F := F) 0).pre c (fun _ => fullShare) v : sProp 𝕄) = iprop(emp) := by
  unfold Pipeline.prefHeld; rw [show (Finset.univ : Finset (Fin 0)) = ∅ from rfl, BI.bigSep_empty]; rfl

theorem arr1_final (c : Dev nD) : ∀ w : Fin 4, (dat1 (B1 m) c).arrAt w cfg1.N = B2 m c (Pipeline.arrRef spec1 w)
  | 0 => ((dat1 (B1 m) c).arrAt_in 0 rfl _).trans (B2_of_ne m c (b := main_arg0) (by decide)).symm
  | 1 => ((dat1 (B1 m) c).arrAt_in 1 rfl _).trans (B2_of_ne m c (b := main_v1) (by decide)).symm
  | 2 => ((dat1 (B1 m) c).arrAt_in 2 rfl _).trans (B2_of_ne m c (b := main_v7) (by decide)).symm
  | 3 => (B2_v9 m c).symm

def reg0 : ℝ𝕊 0 where
  win := launch1.win.to₀
  block_pos := launch1.block_pos
  stage_whole := launch1.stage_whole
  K := PEmpty
  osem k := k.elim
  ho := Pipeline.OwnSemFacts.none _
  hbody c := (body_obligation1 (B1 m) c).loose
  hwaits c := Pipeline.hwaits_of_owed_zero (pcfgs (F := F)) adm (pd m) none _ _ 0 (fun _ _ => rfl) c
  pre c := iprop(StableHlo.held (c : Thread nD τ) (Pipeline.ucRefs τ sig) (W1 m c) ∗ Rst c)
  post c := iprop(unscopedBufs c (B2 m c) ∗ Rst c)
  X _ := iprop(emp)
  Y _ := iprop(emp)
  Z c := Pipeline.unscopedRest (Pipeline.pin (pcfgs (F := F)) adm 0).spec c (B1 m c)
  hentry c := by
    rw [Pipeline.ownSems0_none]
    have hsplit := Pipeline.arrays_of_unscopedBufs (pcfgs (F := F)) adm (pd m) (p := 0) launch1.win launch1.arr_whole c
      ((pd m 0 c).share_full fun _ => rfl) (B1 m c) fun _ => rfl
    iintro ⟨⟨Hub, HO⟩, -, -⟩
    ihave Hub' := (Entails.of_eq (Pipeline.unscopedBufs_held c (W1 m c)).symm) $$ Hub
    ihave H := hsplit $$ Hub'
    icases H with ⟨Ha, Hr⟩
    imodintro
    isplitl [Ha]; · iexact Ha
    isplitr; · rw [prefHeld_none]; iempintro
    isplitl [HO]; · iapply (Rst_owesAt1 m c 0); iexact HO
    isplitr; · iempintro
    iexact Hr
  hin c := by
    show iprop(_ ∗ _ ∗ Pipeline.scopedRest spec1 c) ⊢ (Pipeline.scopedRest spec1 c : sProp 𝕄)
    iintro ⟨-, -, H⟩; iexact H
  hout c := by
    rw [Pipeline.ownSems0_none]
    show (Pipeline.scopedRest spec1 c : sProp 𝕄) ⊢ iprop(_ ∗ _ ∗ Pipeline.scopedRest spec1 c)
    iintro H; isplitr; · iempintro
    isplitr; · iempintro
    iexact H
  hexit c := by
    have harr : ∀ w, (pd m 0 c).arrAt w (Pipeline.pin (pcfgs (F := F)) adm 0).N = B2 m c (Pipeline.arrRef (Pipeline.pin (pcfgs (F := F)) adm 0).spec w) := arr1_final m c
    have hrest : (Pipeline.unscopedRest (Pipeline.pin (pcfgs (F := F)) adm 0).spec c (B1 m c) : sProp 𝕄) ⊢ Pipeline.unscopedRest (Pipeline.pin (pcfgs (F := F)) adm 0).spec c (B2 m c) :=
      Entails.of_eq (rest_congr _ c _ _ fun b hb => (B2_of_ne m c (fun e => hb (Finset.mem_image.mpr ⟨3, Finset.mem_univ _, e.symm⟩))).symm)
    rw [Pipeline.unscopedBufs_split (Pipeline.pin (pcfgs (F := F)) adm) 0 launch1.win.arr_unscoped launch1.win.arr_inj c (B2 m c),
      Pipeline.arrays_eq (Pipeline.pin (pcfgs (F := F)) adm) (pd m) 0 c launch1.arr_whole ((pd m 0 c).share_full fun _ => rfl)]
    simp only [harr]
    iintro ⟨Ha, HO, -, Hr⟩
    imodintro
    isplitl [Ha Hr]
    · isplitl [Ha]; · iexact Ha
      iapply hrest; iexact Hr
    iapply (owesAt1_Rst m c _); iexact HO

end Cert.KiProof

end
-- ==== Proof.KiSegs2.lean ====
/-
  The router's pipeline region as a segment of @main, and the chain of the three segments.
-/
import proofs.«211788_g47691316855323_cont_8to1_c_563_28_alg».proof.Proof.KiSegs

set_option maxRecDepth 16384

noncomputable section

namespace Cert.KiProof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

local notation "ℍ" => Pipeline.HostSeg (Name := ℕ) (U := UU) (pcfgs (F := F)) defs₀ 𝒱₀ (KL (F := F)) (Klv (F := F))
local notation "ℝ𝕊" => Pipeline.RegionSeg (pcfgs (F := F)) adm (pd m) none defs₀ 𝒱₀ (KL (F := F)) (Klv (F := F))

/-! ## The router's region -/

theorem B3_of_ne (c : Dev nD) {b : Ref sig .tc} (h : b ≠ main_v10) : B3 m c b = B2 m c b := Function.update_of_ne h _ _
theorem B3_v10 (c : Dev nD) : B3 m c main_v10 = (dat2 (B2 m) c).arrAt 6 cfg2.N := Function.update_self ..

theorem arr2_final (c : Dev nD) : ∀ w : Fin 7, (dat2 (B2 m) c).arrAt w cfg2.N = B3 m c (Pipeline.arrRef spec2 w)
  | 0 => ((dat2 (B2 m) c).arrAt_in 0 rfl _).trans (B3_of_ne m c (b := main_v9) (by decide)).symm
  | 1 => ((dat2 (B2 m) c).arrAt_in 1 rfl _).trans (B3_of_ne m c (b := main_v6) (by decide)).symm
  | 2 => ((dat2 (B2 m) c).arrAt_in 2 rfl _).trans (B3_of_ne m c (b := main_v4) (by decide)).symm
  | 3 => ((dat2 (B2 m) c).arrAt_in 3 rfl _).trans (B3_of_ne m c (b := main_v5) (by decide)).symm
  | 4 => ((dat2 (B2 m) c).arrAt_in 4 rfl _).trans (B3_of_ne m c (b := main_v0) (by decide)).symm
  | 5 => ((dat2 (B2 m) c).arrAt_in 5 rfl _).trans (B3_of_ne m c (b := main_v8) (by decide)).symm
  | 6 => (B3_v10 m c).symm

omit [FloatOps F] in
theorem prefHeld_none1 (c : Dev nD) (v) : (Pipeline.prefHeld (pcfgs (F := F) 1).pre c (fun _ => fullShare) v : sProp 𝕄) = iprop(emp) := by
  unfold Pipeline.prefHeld; rw [show (Finset.univ : Finset (Fin 0)) = ∅ from rfl, BI.bigSep_empty]; rfl

set_option maxHeartbeats 400000 in
theorem arrRef2_6 : Pipeline.arrRef (Pipeline.pin (pcfgs (F := F)) adm 1).spec 6 = main_v10 := rfl

set_option maxHeartbeats 400000 in
theorem rest2 (c : Dev nD) : (Pipeline.unscopedRest (Pipeline.pin (pcfgs (F := F)) adm 1).spec c (B2 m c) : sProp 𝕄) ⊢ Pipeline.unscopedRest (Pipeline.pin (pcfgs (F := F)) adm 1).spec c (B3 m c) :=
  Entails.of_eq (rest_congr _ c _ _ fun b hb => (B3_of_ne m c (fun e => hb (Finset.mem_image.mpr ⟨6, Finset.mem_univ _, (arrRef2_6 (F := F)).trans e.symm⟩))).symm)

set_option maxHeartbeats 4000000 in
def reg1 : ℝ𝕊 1 where
  win := launch2.win.to₀
  block_pos := launch2.block_pos
  stage_whole := launch2.stage_whole
  K := PEmpty
  osem k := k.elim
  ho := Pipeline.OwnSemFacts.none _
  hbody c := (body_obligation2 (B2 m) c).loose
  hwaits c := Pipeline.hwaits_of_owed_zero (pcfgs (F := F)) adm (pd m) none _ _ 1 (fun _ _ => rfl) c
  pre c := iprop(unscopedBufs c (B2 m c) ∗ Rst c)
  post c := iprop(unscopedBufs c (B3 m c) ∗ Rst c)
  X _ := iprop(emp)
  Y _ := iprop(emp)
  Z c := Pipeline.unscopedRest (Pipeline.pin (pcfgs (F := F)) adm 1).spec c (B2 m c)
  hentry c := by
    rw [Pipeline.ownSems0_none]
    have hsplit := Pipeline.arrays_of_unscopedBufs (pcfgs (F := F)) adm (pd m) (p := 1) launch2.win launch2.arr_whole c
      ((pd m 1 c).share_full fun _ => rfl) (B2 m c) fun _ => rfl
    iintro ⟨⟨Hub, HO⟩, -, -⟩
    ihave H := hsplit $$ Hub
    icases H with ⟨Ha, Hr⟩
    imodintro
    isplitl [Ha]; · iexact Ha
    isplitr; · rw [prefHeld_none1]; iempintro
    isplitl [HO]; · iapply (Rst_owesAt2 m c 0); iexact HO
    isplitr; · iempintro
    iexact Hr
  hin c := by
    show iprop(_ ∗ _ ∗ Pipeline.scopedRest spec2 c) ⊢ (Pipeline.scopedRest spec2 c : sProp 𝕄)
    iintro ⟨-, -, H⟩; iexact H
  hout c := by
    rw [Pipeline.ownSems0_none]
    show (Pipeline.scopedRest spec2 c : sProp 𝕄) ⊢ iprop(_ ∗ _ ∗ Pipeline.scopedRest spec2 c)
    iintro H; isplitr; · iempintro
    isplitr; · iempintro
    iexact H
  hexit c := by
    have harr : ∀ w, (pd m 1 c).arrAt w (Pipeline.pin (pcfgs (F := F)) adm 1).N = B3 m c (Pipeline.arrRef (Pipeline.pin (pcfgs (F := F)) adm 1).spec w) := arr2_final m c
    have hrest := rest2 m c
    rw [Pipeline.unscopedBufs_split (Pipeline.pin (pcfgs (F := F)) adm) 1 launch2.win.arr_unscoped launch2.win.arr_inj c (B3 m c),
      Pipeline.arrays_eq (Pipeline.pin (pcfgs (F := F)) adm) (pd m) 1 c launch2.arr_whole ((pd m 1 c).share_full fun _ => rfl)]
    simp only [harr]
    iintro ⟨Ha, HO, -, Hr⟩
    imodintro
    isplitl [Ha Hr]
    · isplitl [Ha]; · iexact Ha
      iapply hrest; iexact Hr
    iapply (owesAt2_Rst m c _); iexact HO

/-! ## The segments chain -/

/-- The thread state the segments start from: the buffers at the launch contents with the call's result gathered, the
    core owing nothing. -/
def Tseg0 (c : Dev nD) : sProp 𝕄 := iprop(StableHlo.held (c : Thread nD τ) (Pipeline.ucRefs τ sig) (W0 m c) ∗ Rst c)
/-- The one they end at. -/
def Tseg3 (c : Dev nD) : sProp 𝕄 := iprop(unscopedBufs c (B3 m c) ∗ Rst c)

abbrev segs : List (Pipeline.Seg (pcfgs (F := F)) adm (pd m) none defs₀ 𝒱₀ (KL (F := F)) (Klv (F := F))) :=
  [.host (segH m), .region (reg0 m), .region (reg1 m)]

theorem segs_chain : Pipeline.Seg.Chains (Tseg0 m) (segs m) (Tseg3 m) := by
  refine ⟨fun _ => Entails.refl _, fun _ => Entails.refl _, fun _ => Entails.refl _, fun _ => Entails.refl _⟩

end Cert.KiProof

end
-- ==== Proof.KiTileValue.lean ====
/-
  What a task's rows of the call's result hold once the task has run: on the task's rows, the rows of the drug head its
  drug indices name.
-/
import proofs.«211788_g47691316855323_cont_8to1_c_563_28_alg».proof.Proof.KiTileDefs

noncomputable section

namespace Cert.KiProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg1_scv : Memref Cert.KernelIdeal.sig Kind.scVector Space.hbm Cert.KernelIdeal.S4096 EltTy.i32)
local notation "wV" => (Memref.whole Cert.KernelIdeal.main_arg6_scv : Memref Cert.KernelIdeal.sig Kind.scVector Space.hbm Cert.KernelIdeal.S64x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

variable (m : (ℓ : Loc nD τ sig) → Buf (Elt F) ℓ) [FloatOps F] (d : Dev nD) (L : grid0.Coords)

omit [FloatOps F] in
/-- At rank one an index's position in row-major order is its one coordinate, so the index at position `k` has
    coordinate `k`. -/
theorem rowMajor_symm_one (n : ℕ) (k : Fin (⟨1, ![n]⟩ : Shape).numel) :
    (((⟨1, ![n]⟩ : Shape).rowMajor.symm k) 0).val = k.val := by
  have h := Shape.rowMajor_val_one (d := ![n]) ((⟨1, ![n]⟩ : Shape).rowMajor.symm k)
  rw [Equiv.apply_symm_apply] at h
  exact h.symm

omit [FloatOps F] in
/-- Row `y 0` of the task's rows of the result is row `256 * L 1 + y 0` of the result, -/
theorem oRowK_emb0 (y : S256x128.Idx) : (((oRowK L).view.emb y) 0).val = 256 * (L 1).val + (y 0).val := by
  show k0_off2 L 0 + 1 * (y 0).val = _
  rw [k0_off2_eq]
  simp [L0_zero L]

omit [FloatOps F] in
/-- at the same lane; -/
theorem oRowK_emb1 (y : S256x128.Idx) : (((oRowK L).view.emb y) 1).val = (y 1).val := by
  show k0_off2 L 1 + 1 * (y 1).val = _
  rw [k0_off2_eq]
  simp

omit [FloatOps F] in
/-- and entry `z 0` of the task's drug indices is entry `256 * L 1 + z 0` of the drug indices: the same offset. -/
theorem iRowK_emb0 (z : S256.Idx) : (((iRowK L).view.emb z) 0).val = 256 * (L 1).val + (z 0).val := by
  show k0_off1 L 0 + 1 * (z 0).val = _
  rw [k0_off1_eq]
  simp [L0_zero L]

/-- On the task's rows the result holds the gathered rows. At the element `y` of the task's rows the copy out wrote the
    row scratch there, which the indexed copy filled with the drug head at row `r`, lane `y 1`, where `r` is the word
    at position `y 0` of the index scratch, that is drug index `256 * L 1 + y 0`; the gathered rows hold there the drug
    head at row `r mod 64`, lane `y 1`, and `r` is below 64. -/
theorem written_rows (hpre : PreOK m) (fs : Buf (Elt F) ((V d (cV L) (jV L)).loc cc0_scratch0)) (fr : Buf (Elt F) ((V d (cV L) (jV L)).loc cc0_scratch1))
    (pay : S256x128.Idx → Elt F .f32) (hn : S256.numel = S256x128.size gathers_S64x128_S256x128.axis')
    (hpay : pay = ReadAs.same.apply ((rV).view.read (Elt F) (View.write (Elt F) (rV).view fr
        (SparseCore.gatherPayload gathers_S64x128_S256x128 ((wAllK).view.read (Elt F) (m (wLoc d)))
          (SparseCore.rows ((sV).view.read (Elt F) (View.write (Elt F) (sV).view fs ((iRowK L).view.read (Elt F) (m (iLoc d))) Finset.univ)) hn
            (inb_of_pre m d L hpre fs _ rfl))) Finset.univ))) :
    ∀ i ∈ (oRowK L).view.set, (oRowK L).view.writes (Elt F) (m (oLoc d)) [⟨Rect.whole S256x128, pay⟩] i = gathered m d i := by
  intro i hi
  obtain ⟨y, -, rfl⟩ := Finset.mem_map.mp hi
  -- the one write is through the whole of the task's rows: at the element under `y` it leaves `pay y`
  rw [View.writes_singleton]
  have e : (oRowK L).view.emb y = ((oRowK L).view.slice (Rect.whole S256x128)).emb y := by
    rw [View.emb_slice]
    show _ = (oRowK L).view.emb ((Rect.whole S256x128).emb y)
    rw [Rect.emb_whole_apply]
  rw [e, View.write_emb_of_mem _ _ (Finset.mem_univ _), ← e]
  refine (cast_eq _ _).trans ?_
  -- `pay y` is the drug head at the source index the gather names for `y`
  subst hpay
  rw [ReadAs.apply_same, View.read_write_univ]
  unfold SparseCore.gatherPayload
  have hw : (wAllK).view.read (Elt F) (m (wLoc d)) = m (wLoc d) :=
    Memref.read_access_unit_zero (Elt F) main_arg6_scv (by funext a; fin_cases a <;> rfl) inb_S64x128_S64x128_0_0 (m (wLoc d))
  rw [hw]
  unfold gathered
  -- the two source indices agree coordinate by coordinate
  refine congrArg (m (wLoc d)) ?_
  funext b
  apply Fin.ext
  match b with
  | ⟨0, _⟩ =>
    -- the row: the word at position `y 0` of the index scratch, which is drug index `256 * L 1 + y 0`, below 64
    refine (congrArg Fin.val (Shape.Gathers.idx_axis gathers_S64x128_S256x128 _ y)).trans ?_
    show _ = BitVec.toNat (m (iLoc d) (ValueIdx.ix1 ((oRowK L).view.emb y 0))) % 64
    rw [Nat.mod_eq_of_lt (hpre d _)]
    unfold SparseCore.rows
    dsimp only
    rw [View.write_whole_univ]
    simp only [Memref.view_whole, View.read_whole]
    rw [show ∀ j, (iRowK L).view.read (Elt F) (m (iLoc d)) j = m (iLoc d) ((iRowK L).view.emb j) from fun j => (View.read_apply _ _).trans (cast_eq _ _)]
    refine congrArg (fun t => BitVec.toNat (m (iLoc d) t)) ?_
    funext a
    apply Fin.ext
    match a with
    | ⟨0, _⟩ =>
      refine (iRowK_emb0 L _).trans ?_
      refine Eq.trans ?_ (oRowK_emb0 L y).symm
      refine congrArg (256 * (L 1).val + ·) ?_
      exact rowMajor_symm_one 256 _
  | ⟨1, _⟩ =>
    -- the lane: `y`'s own
    refine (Shape.Gathers.idx_of_ne gathers_S64x128_S256x128 _ y ⟨1, _⟩ Nat.one_ne_zero).trans ?_
    show (y 1).val = ((oRowK L).view.emb y 1).val
    exact (oRowK_emb1 L y).symm

end Cert.KiProof

end
-- ==== Proof.KiTile.lean ====
/-
  The vector subcore's task run, its obligation to the launch theorem, and how the call's operands split into the
  sixteen tasks' and the results gather from theirs.
-/
import proofs.«211788_g47691316855323_cont_8to1_c_563_28_alg».proof.Proof.KiTileValue

noncomputable section

namespace Cert.KiProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg1_scv : Memref Cert.KernelIdeal.sig Kind.scVector Space.hbm Cert.KernelIdeal.S4096 EltTy.i32)
local notation "wV" => (Memref.whole Cert.KernelIdeal.main_arg6_scv : Memref Cert.KernelIdeal.sig Kind.scVector Space.hbm Cert.KernelIdeal.S64x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

variable (m : (ℓ : Loc nD τ sig) → Buf (Elt F) ℓ) (ρ : Dev nD → PrngReg) [FloatOps F]

section Task

variable (d : Dev nD) (L : grid0.Coords)

set_option maxHeartbeats 4000000 in
/-- The task on vector subcore `(L 0, L 1)` of device `d`: the index fetch and its wait, the indexed copy of the named rows
    and its wait, the copy out and its wait; its rows of the result end at the gathered rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ wShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L iV (Memref.isWhole_whole _) wV (Memref.isWhole_whole _) oV (Memref.isWhole_whole _)
            sV (Memref.isWhole_whole _) rV (Memref.isWhole_whole _) cc0_scratch2 cc0_scoped0 cc0_scoped1)
          fun _ => iprop((iRowPts m d (jL L) ∗ wShPts m d (jL L) ∗ oRowPts d (jL L) (gathered m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hw' := (Entails.of_eq (pts_wV (F := F) d L _ _).symm) $$ Hw
  ihave Hs' := (Entails.of_eq (pts_sV (F := F) d L _).symm) $$ Hs
  ihave Hr' := (Entails.of_eq (pts_rV (F := F) d L _).symm) $$ Hr
  sl_exec
  -- the indexed copy: a share of the drug head (its slice's elements), the row scratch, the index scratch whole and the
  -- cell at zero go in; the offsets are in range by the precondition
  ihave Hws := (pointsTo_split_subset (q := wq (jL L)) (f := m (wLoc d)) (S := Finset.univ) (Finset.subset_univ (wAllK).view.set)).1 $$ Hw'
  icases Hws with ⟨Hws, Hwr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S64x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S64x128_S256x128) (default : HIx 1)
      (rV).view.dmaCredit (hN _) (by decide) (inb_of_pre m d L hpre fs _ rfl)) $$ [Hws Hr'' Hs'' HsemB]
  · isplitl [Hws]; · iexact Hws
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hws, Hs'⟩, HsemB, HO⟩
  ihave Hw' := (pointsTo_split_subset (q := wq (jL L)) (f := m (wLoc d)) (S := Finset.univ) (Finset.subset_univ (wAllK).view.set)).2 $$ [Hws Hwr]; · isplitl [Hws] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hw' Ho']
  · isplitl [Hi']; · iapply (Entails.of_eq (pts_iRowK (F := F) d L _)); iexact Hi'
    isplitl [Hw']; · iexact Hw'
    -- the rows written out are, on the task's rows, the gathered rows
    iapply (Entails.of_eq ((pointsTo_congr (written_rows m d L hpre fs fr _ rfl rfl)).trans (pts_oRowK (F := F) d L _))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          iV (Memref.isWhole_whole _) wV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

end Cert.KiProof

end
-- ==== Proof.KiSplit.lean ====
/-
  How the SparseCore call's operands split among its sixteen tasks and its results gather from theirs: the drug indices
  and the result array by rows (sixteen blocks of 256), the drug head as sixteen read tokens beside a remainder that
  stays with the call until the tokens come back.
-/
import proofs.«211788_g47691316855323_cont_8to1_c_563_28_alg».proof.Proof.KiTileDefs

noncomputable section

namespace Cert.KiProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg1_scv : Memref Cert.KernelIdeal.sig Kind.scVector Space.hbm Cert.KernelIdeal.S4096 EltTy.i32)
local notation "wV" => (Memref.whole Cert.KernelIdeal.main_arg6_scv : Memref Cert.KernelIdeal.sig Kind.scVector Space.hbm Cert.KernelIdeal.S64x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

variable (m : (ℓ : Loc nD τ sig) → Buf (Elt F) ℓ) [FloatOps F]

omit [FloatOps F] in
theorem iRowSet_eq (i : Fin 16) : iRowSet i = (irow i).set := by
  show ((View.whole (main_arg1_scv : Ref sig .scVector)).slice (irow i)).set = _
  rw [View.set_slice]; exact Finset.map_refl
omit [FloatOps F] in
theorem oRowSet_eq (i : Fin 16) : oRowSet i = (orow i).set := by
  show ((View.whole (main_v0_scv : Ref sig .scVector)).slice (orow i)).set = _
  rw [View.set_slice]; exact Finset.map_refl
omit [FloatOps F] in
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem irows_cover : (Finset.univ : Finset (Fin 16)).biUnion iRowSet = Finset.univ :=
  (Finset.biUnion_congr rfl fun i _ => iRowSet_eq i).trans (Rect.biUnion_part idiv)
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(iPts m d ∗ wPts m d ∗ oPts d (m (oLoc d))) ⊢ |={Set.univ}=> iprop(
      (bigSep Finset.univ fun i : Fin ((K (F := F)).nSub 0) =>
        iprop(iRowPts m d (Fin.cast nSub_zero i) ∗ wShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ wShPts m d (Fin.cast nSub_zero i) ∗ oRowPts d (Fin.cast nSub_zero i) (gathered m d)))
          -∗ iprop(iPts m d ∗ wPts m d ∗ oPts d (gathered m d))))
  rw [bigSep_tasks (F := F) (fun i => iprop(iRowPts m d i ∗ wShPts m d i ∗ oRowPts d i (m (oLoc d)))),
    bigSep_tasks (F := F) (fun i => iprop(iRowPts m d i ∗ wShPts m d i ∗ oRowPts d i (gathered m d))), bigSep_sep', bigSep_sep', bigSep_sep', bigSep_sep']
  unfold iPts oPts iRowPts oRowPts
  rw [iPts_rows, oPts_rows d (m (oLoc d)), oPts_rows d (gathered m d)]
  iintro ⟨Hi, Hw, Ho⟩
  ihave Hw' := (Transfers.pointsTo_toks_split (ℓ := wLoc d) (S := Finset.univ) (f := m (wLoc d)) fullShare 16) $$ Hw
  icases Hw' with ⟨Hrem, Htoks⟩
  imodintro
  isplitl [Hi Htoks Ho]
  · isplitl [Hi]; · iexact Hi
    isplitl [Htoks]; · iexact Htoks
    iexact Ho
  iintro ⟨Hi, Hx, Ho⟩
  isplitl [Hi]; · iexact Hi
  isplitl [Hx Hrem]
  · iapply (Transfers.pointsTo_toks_join (ℓ := wLoc d) (S := Finset.univ) (f := m (wLoc d)) fullShare 16)
    isplitl [Hrem]; · iexact Hrem
    iexact Hx
  iexact Ho

end Cert.KiProof

end
-- ==== Proof.KiMain.lean ====
/-
  The launch of the whole program: the launch element of the ghost state (the handshakes' rounds, the two pipelines'
  staging rounds, the transfer counters), @main on the TensorCore — the SparseCore call, then the host line and the two
  pipeline regions —, how the final memory reads the result, and the run.
-/
import proofs.«211788_g47691316855323_cont_8to1_c_563_28_alg».proof.Proof.KiSegs2
import proofs.«211788_g47691316855323_cont_8to1_c_563_28_alg».proof.Proof.KiTile
import proofs.«211788_g47691316855323_cont_8to1_c_563_28_alg».proof.Proof.KiSplit

set_option maxRecDepth 16384

noncomputable section

namespace Cert.KiProof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What @main's proof starts from on each device: the two pipelines' rounds ghost state. -/
def G (d : Dev nD) : sProp 𝕄 := Pipeline.ghostOn (pcfgs (F := F)) adm EP Finset.univ d

omit [FloatOps F] in
theorem bigSep_emp' {I : Type} (s : Finset I) : (bigSep s fun _ => iprop(emp)) = (iprop(emp) : sProp 𝕄) := bigSep_emp_const s

omit [FloatOps F] in
theorem G_eq (c : Dev nD) :
    (bigSep Finset.univ fun p : Fin 2 => iprop(Pipeline.cellsGhost (Pipeline.pin (pcfgs (F := F)) adm) (EP (F := F)) p c
        ∗ Pipeline.toksInit (Pipeline.pin (pcfgs (F := F)) adm) (EP (F := F)) p c) : sProp 𝕄) = G c := rfl

omit [FloatOps F] in
theorem ghost_deal :
    iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => (Pipeline.toksInit (Pipeline.pin (pcfgs (F := F)) adm) (EP (F := F)) p c : sProp 𝕄)))
      ⊢ bigSep Finset.univ (G (F := F)) := by
  rw [← bigSep_sep']
  refine bigSep_mono fun c _ => ?_
  rw [← bigSep_sep']
  exact Entails.of_eq (G_eq c)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · iapply (ghost_deal (F := F))
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  try iempintro

/-! ## @main on the TensorCore -/

/-- The launch contents as a valuation. -/
abbrev Vm (d : Dev nD) : Valuation τ sig (Elt F) := fun b => m (d, b)

/-- The three buffers the SparseCore call takes. -/
def S3 : Finset (DevRef τ sig) := {Proc.devRef .tc main_arg1, Proc.devRef .tc main_arg6, Proc.devRef .tc main_v0}

omit [FloatOps F] in
theorem S3_sub : S3 ⊆ Pipeline.ucRefs τ sig := by decide

omit [FloatOps F] in
theorem held_S3 (d : Dev nD) (W : Valuation τ sig (Elt F)) :
    (StableHlo.held (SparseCore.T d) S3 W : sProp 𝕄)
      = iprop((iLoc d ↦{fullShare} W (Proc.devRef .tc main_arg1)) ∗ (wLoc d ↦{fullShare} W (Proc.devRef .tc main_arg6))
          ∗ oLoc d ↦{fullShare} W (Proc.devRef .tc main_v0)) := by
  unfold StableHlo.held S3
  rw [SparseCore.bigSep_insert' (by decide), SparseCore.bigSep_insert' (by decide), bigSep_singleton]

omit [FloatOps F] in
theorem hub (d : Dev nD) :
    (unscopedBufs d (fun b => m ((SparseCore.T d).loc b)) : sProp 𝕄) = StableHlo.held (SparseCore.T d) (Pipeline.ucRefs τ sig) (Vm m d) :=
  Pipeline.unscopedBufs_held d (Vm m d)

/-- Off the three buffers the gathered contents are the launch contents. -/
theorem held_rest_W0 (d : Dev nD) :
    (StableHlo.held (SparseCore.T d) (Pipeline.ucRefs τ sig \ S3) (Vm m d) : sProp 𝕄) = StableHlo.held (SparseCore.T d) (Pipeline.ucRefs τ sig \ S3) (W0 m d) :=
  StableHlo.held_congr (SparseCore.T d) fun b hb => by
    have hne : b ≠ Proc.devRef .tc main_v0 := fun e => (Finset.mem_sdiff.mp hb).2 (by rw [e]; decide)
    exact (Function.update_of_ne hne _ _).symm

theorem W0_at_arg1 (d : Dev nD) : W0 m d (Proc.devRef .tc main_arg1) = m (iLoc d) := Function.update_of_ne (by decide) _ _
theorem W0_at_arg6 (d : Dev nD) : W0 m d (Proc.devRef .tc main_arg6) = m (wLoc d) := Function.update_of_ne (by decide) _ _
theorem W0_at_v0 (d : Dev nD) : W0 m d (Proc.devRef .tc main_v0) = gathered m d := Function.update_self ..

theorem st0_eq (d : Dev nD) : (bigSep Finset.univ fun c : Fin ((K (F := F)).nCore 0) => (P m).st 0 d c) = iprop(iPts m d ∗ wPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ wPts m d ∗ oPts d (gathered m d)) :=
  bigSep_univ_of_subsingleton (0 : Fin 1)

/-- With one SparseCore call every recorded pair sits at or below level 8. -/
theorem wbelow_any (d : Dev nD) (W : Waits sig (HIx 1)) : (K (F := F)).WBelow (SparseCore.T d) W (8 * 1) := fun p _ => by
  rcases p with ⟨s, _ | q⟩
  · exact Nat.zero_le _
  · exact ((K (F := F)).lev_some_le _ q).trans (by have := q.isLt; omega)

/-- After the call the TensorCore owes nothing: its state opens into that and closes again around any such. -/
theorem tcSt_open (d : Dev nD) :
    ((K (F := F)).tcSt EH d 1 : sProp 𝕄) ⊢ iprop(Rst d ∗ (Rst d -∗ (K (F := F)).tcSt EH d 1)) := by
  unfold SparseCore.Cfg.tcSt Rst
  rw [(K (F := F)).Otc_end d (le_refl 1)]
  iintro ⟨⟨%W, -, HO⟩, Hr⟩
  isplitl [HO]; · iexists W; iexact HO
  iintro ⟨%W', HO'⟩
  isplitl [HO']
  · iexists W'; isplitr; · ipureintro; exact wbelow_any d W'
    iexact HO'
  iexact Hr

/-- @main: the SparseCore call, then the segments. -/
theorem main_eq (d : Dev nD) :
    main (F := F) d = ((K (F := F)).run d 0 >>= fun _ => SparseCore.liftProg (Pipeline.Seg.run (segs m))) := rfl

/-- What the TensorCore ends holding: every unscoped buffer at the final contents. -/
abbrev FIN (d : Dev nD) : sProp 𝕄 := unscopedBufs d (B3 m d)

theorem segs_nodup : (Pipeline.Seg.pipes (segs m)).Nodup := by
  simp only [segs, Pipeline.Seg.pipes_host, Pipeline.Seg.pipes_region, Pipeline.Seg.pipes_nil]; decide

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [hub m d, StableHlo.held_sub_split (SparseCore.T d) S3_sub, held_S3, main_eq m d, wp_bind]
  iintro ⟨#Hctx, Hst, ⟨Hb, ⟨⟨Hi, Hw, Ho⟩, Hrest⟩, -, -⟩, HG⟩
  ihave #Hlev := ((K (F := F)).ctx_levAts (EH := EH) (P := P m) κ) $$ Hctx
  iapply ((K (F := F)).wp_run (D (F := F)) 𝒱 (EH := EH) (P := P m) κ d 0) $$ [Hst Hi Hw Ho Hb Hrest HG]
  isplitr; · iexact Hctx
  isplitl [Hst]; · iexact Hst
  isplitl [Hi Hw Ho]
  · rw [st0_eq]
    isplitl [Hi]; · iexact Hi
    isplitl [Hw]; · iexact Hw
    iexact Ho
  iintro ⟨Hst, Hdn⟩
  ihave Hdn' := (Entails.of_eq (dn0_eq m d)) $$ Hdn
  icases Hdn' with ⟨Hi, Hw, Ho⟩
  -- the buffers again, the call's result at the gathered rows
  ihave Hheld := (show iprop((iLoc d ↦{fullShare} m (iLoc d)) ∗ (wLoc d ↦{fullShare} m (wLoc d)) ∗ (oLoc d ↦{fullShare} gathered m d)
        ∗ StableHlo.held (SparseCore.T d) (Pipeline.ucRefs τ sig \ S3) (Vm m d))
      ⊢ (StableHlo.held (SparseCore.T d) (Pipeline.ucRefs τ sig) (W0 m d) : sProp 𝕄) from by
    rw [StableHlo.held_sub_split (SparseCore.T d) S3_sub (W0 m d), held_S3, W0_at_arg1, W0_at_arg6, W0_at_v0, held_rest_W0]
    iintro ⟨Hi, Hw, Ho, Hr⟩
    isplitl [Hi Hw Ho]
    · isplitl [Hi]; · iexact Hi
      isplitl [Hw] <;> iassumption
    iexact Hr) $$ [Hi Hw Ho Hrest]
  · isplitl [Hi]; · iexact Hi
    isplitl [Hw]; · iexact Hw
    isplitl [Ho] <;> iassumption
  ihave Hst1 := (show ((K (F := F)).tcSt EH d ((0 : Fin 1).val + 1) : sProp 𝕄) ⊢ (K (F := F)).tcSt EH d 1 from Entails.refl _) $$ Hst
  ihave Hopen := (tcSt_open d) $$ Hst1
  icases Hopen with ⟨HR, Hclose⟩
  iapply ((K (F := F)).wp_liftProg (D (F := F)) 𝒱 (SparseCore.T d) Set.univ none _ _)
  iapply (Pipeline.wp_segs (pcfgs (F := F)) adm (pd m) none cellOf_inj (EP (F := F)) defs₀ 𝒱₀ (KL (F := F)) (Klv (F := F)) d
      (segs m) Finset.univ (Tseg0 m) (Tseg3 m) (segs_nodup m) (fun p _ => Finset.mem_univ p) (segs_chain m)) $$ [Hb Hheld HR Hclose HG]
  unfold Tseg0 Tseg3 G
  isplitl [Hclose]
  · iintro ⟨-, Hub, HR⟩
    isplitl [HR Hclose]; · iapply Hclose; iexact HR
    iexact Hub
  isplitl [Hb]; · iexact Hb
  isplitl [Hheld HR]
  · isplitl [Hheld]; · iexact Hheld
    iexact HR
  isplitr; · iexact Hlev
  iexact HG

/-! ## The final memory -/

def fq (d : Dev nD) (s' : Phys nD τ sig (Elt F)) : Prop :=
  ∀ b : Ref sig .tc, b.isScoped = false → s'.mem.mem ((SparseCore.T d).loc b) = B3 m d b

theorem hfin (d : Dev nD) (s' : Phys nD τ sig (Elt F)) : iprop(FIN m d ∗ SI s') ⊢ (⌜fq m d s'⌝ : sProp 𝕄) := by
  unfold FIN unscopedBufs
  iintro ⟨Ha, HSI⟩
  ihave Hr := (pointsTo_read_all (Finset.univ.filter fun b : Ref sig .tc => ¬ b.isScoped) (fun b => (SparseCore.T d).loc b) (B3 m d) s') $$ [Ha HSI]
  · isplitl [Ha] <;> iassumption
  icases Hr with ⟨%ha, -⟩
  ipureintro; exact fun b hb => ha b (Finset.mem_filter.mpr ⟨Finset.mem_univ b, by simp [hb]⟩)

/-! ## The run -/

/-- Every unscoped TensorCore buffer ends at the final contents. -/
def QC : PUnit × MemSt nD τ sig (Elt F) → Prop := fun r =>
  ∀ (c : Dev nD) (b : Ref sig .tc), b.isScoped = false → r.2.mem ((SparseCore.T c).loc b) = B3 m c b

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.KiProof

end
-- ==== Proof.KbCommon.lean ====
/-
  The kernel program as the SparseCore launch theorem sees it: its labels, its one SparseCore call, the body
  table, and the resource algebra of the proof — the launch handshakes' rounds, the two TensorCore pipelines' staging
  rounds, and the counters of the vector subcores' own transfers, side by side.
-/
import proofs.«211788_g47691316855323_cont_8to1_c_563_28_alg».proof.Proof.Gen.Kernel
import proofs.«211788_g47691316855323_cont_8to1_c_563_28_alg».proof.Proof.Gen.Kernel.Skeleton
import proofs.«211788_g47691316855323_cont_8to1_c_563_28_alg».proof.Proof.Gen.Kernel.Launch
import proofs.«211788_g47691316855323_cont_8to1_c_563_28_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic

noncomputable section

namespace Cert.KbProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

example : CountersIn UU := inferInstance

end Cert.KbProof

end
-- ==== Proof.KbBodies.lean ====
/-
  The two TensorCore kernel bodies, each run once on whole staging buffers: the encoder body reads its three input
  buffers and overwrites its output buffer with one store; the router body reads its six input buffers (five of them
  in its first part) and overwrites its output buffer with one store. What each leaves in its output buffer is the
  store's value, a pure function of what the inputs hold.
-/
import proofs.«211788_g47691316855323_cont_8to1_c_563_28_alg».proof.Proof.KbCommon

set_option maxRecDepth 16384

noncomputable section

namespace Cert.KbProof

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The bodies' accesses: every one the whole buffer -/

abbrev rE0 : Rect S1024x2048 := Rect.unit (s := S1024x2048) ![0, 0] S1024x2048.size inb_S1024x2048_S1024x2048_0_0
abbrev rE1 : Rect S2048x256 := Rect.unit (s := S2048x256) ![0, 0] S2048x256.size inb_S2048x256_S2048x256_0_0
abbrev rE2 : Rect S1x256 := Rect.unit (s := S1x256) ![0, 0] S1x256.size inb_S1x256_S1x256_0_0
abbrev rE3 : Rect S1024x256 := Rect.unit (s := S1024x256) ![0, 0] S1024x256.size inb_S1024x256_S1024x256_0_0

abbrev rR0 : Rect S512x256 := Rect.unit (s := S512x256) ![0, 0] S512x256.size inb_S512x256_S512x256_0_0
abbrev rR1 : Rect S512x1 := Rect.unit (s := S512x1) ![0, 0] S512x1.size inb_S512x1_S512x1_0_0
abbrev rR2 : Rect S256x2048 := Rect.unit (s := S256x2048) ![0, 0] S256x2048.size inb_S256x2048_S256x2048_0_0
abbrev rR3 : Rect S1x2048 := Rect.unit (s := S1x2048) ![0, 0] S1x2048.size inb_S1x2048_S1x2048_0_0
abbrev rR4 : Rect S512x128 := Rect.unit (s := S512x128) ![0, 0] S512x128.size inb_S512x128_S512x128_0_0
abbrev rR5 : Rect S64x1 := Rect.unit (s := S64x1) ![0, 0] S64x1.size inb_S64x1_S64x1_0_0
abbrev rR6 : Rect S512 := Rect.unit (s := S512) ![0] S512.size inb_S512_S512_0

/-! ## What each body leaves in its output buffer -/

/-- The encoder's output buffer after the body: its one store, of the payload of the three loads. -/
def encOut (x0 : Vec F S1024x2048 .f32) (x1 : Vec F S2048x256 .bf16) (x2 : Vec F S1x256 .f32) : Vec F S1024x256 .bf16 :=
  View.canon [⟨rE3, k1_pay1 (View.ld x0 rE0) (View.ld x1 rE1) (View.ld x2 rE2)⟩]

theorem encCover (p0 : Vec F S1024x256 .bf16) (y : S1024x256.Idx) :
    ∃ pc ∈ ([⟨rE3, p0⟩] : List (View.Piece (Elt F) S1024x256 .bf16)), y ∈ pc.1.set :=
  View.cover_of_tiled [⟨rE3, p0⟩] S1024x256.size (by rfl) y

/-- The router's output buffer after the body: its one store, of the payload of the six loads. -/
def routeOut (x0 : Vec F S512x256 .bf16) (x1 : Vec F S512x1 .i32) (x2 : Vec F S256x2048 .bf16) (x3 : Vec F S1x2048 .f32)
    (x4 : Vec F S512x128 .f32) (x5 : Vec F S64x1 .f32) : Vec F S512 .f32 :=
  View.canon [⟨rR6, k2_pay1 (k2_pay2 (View.ld x0 rR0) (View.ld x2 rR2) (View.ld x3 rR3)) (k2_pay4 (View.ld x1 rR1))
    (k2_pay5 (View.ld x1 rR1) (View.ld x5 rR5)) (iota .tc S512x2048 32 [1] iota_S512x2048_d1_w32) 128#32 k2_pay6 (View.ld x4 rR4)⟩]

theorem routeCover (p0 : Vec F S512 .f32) (y : S512.Idx) :
    ∃ pc ∈ ([⟨rR6, p0⟩] : List (View.Piece (Elt F) S512 .f32)), y ∈ pc.1.set :=
  View.cover_of_tiled [⟨rR6, p0⟩] S512.size (by rfl) y

/-! ## The bodies' triples -/

set_option maxHeartbeats 1000000 in
/-- The encoder body on whole staging buffers, the inputs' at contents `x0 x1 x2` and the output's at anything, runs to
    the continuation holding the inputs' as they were and the output's at `encOut` of them. -/
theorem sound_enc (c : Dev nD) (E : Set ℕ) (i : grid1.Coords)
    (arg1 : Memref sig .tc .vmem S1024x2048 .f32) (harg1 : arg1.IsWhole) (arg2 : Memref sig .tc .vmem S2048x256 .bf16) (harg2 : arg2.IsWhole)
    (arg3 : Memref sig .tc .vmem S1x256 .f32) (harg3 : arg3.IsWhole) (arg4 : Memref sig .tc .vmem S1024x256 .bf16) (harg4 : arg4.IsWhole)
    (x0 : Vec F S1024x2048 .f32) (x1 : Vec F S2048x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (encOut x0 x1 x2)) -∗ K ⟨⟩))
      ⊢ wp frame (wpE (defs₀ (F := F)) Variants.none c none) E (cc1__enc_body i arg1 harg1 arg2 harg2 arg3 harg3 arg4 harg4) K := by
  simp only [cc1__enc_body_eq_skeleton]; unfold cc1__enc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (encCover _)

set_option maxHeartbeats 1000000 in
/-- The router body likewise: six inputs kept, the output's buffer at `routeOut` of them. -/
theorem sound_route (c : Dev nD) (E : Set ℕ) (i : grid2.Coords)
    (arg1 : Memref sig .tc .vmem S512x256 .bf16) (harg1 : arg1.IsWhole) (arg2 : Memref sig .tc .vmem S512x1 .i32) (harg2 : arg2.IsWhole)
    (arg3 : Memref sig .tc .vmem S256x2048 .bf16) (harg3 : arg3.IsWhole) (arg4 : Memref sig .tc .vmem S1x2048 .f32) (harg4 : arg4.IsWhole)
    (arg5 : Memref sig .tc .vmem S512x128 .f32) (harg5 : arg5.IsWhole) (arg6 : Memref sig .tc .vmem S64x1 .f32) (harg6 : arg6.IsWhole)
    (arg7 : Memref sig .tc .vmem S512 .f32) (harg7 : arg7.IsWhole)
    (x0 : Vec F S512x256 .bf16) (x1 : Vec F S512x1 .i32) (x2 : Vec F S256x2048 .bf16) (x3 : Vec F S1x2048 .f32)
    (x4 : Vec F S512x128 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (routeOut x0 x1 x2 x3 x4 x5)) -∗ K ⟨⟩))
      ⊢ wp frame (wpE (defs₀ (F := F)) Variants.none c none) E
          (cc2__route_body i arg1 harg1 arg2 harg2 arg3 harg3 arg4 harg4 arg5 harg5 arg6 harg6 arg7 harg7) K := by
  simp only [cc2__route_body_eq_skeleton]; unfold cc2__route_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (routeCover _)

end Cert.KbProof

end
-- ==== Proof.KbDats.lean ====
/-
  The two TensorCore pipelines' proof data, over any contents `Vb` the region finds its arrays at: after the body at a
  grid point each input's staging buffer holds its block of the array and the output's holds the body's store of the
  input blocks; the invariant is the core's scoped buffers that are no staging buffer of the pipeline, untouched; nothing
  is owed; the pairs the core's waits have recorded stay below the level the launch protocol leaves it at.
-/
import proofs.«211788_g47691316855323_cont_8to1_c_563_28_alg».proof.Proof.KbBodies

set_option maxRecDepth 16384

noncomputable section

namespace Cert.KbProof

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pairs a TensorCore's waits may have recorded: those at or below the level of the launch protocol's last wait. -/
def Rec (c : Dev nD) : Set (SemLoc sig × HIx 1) := {p | (K (F := F)).lev ((c : Thread nD τ), p.1) p.2 ≤ 8}

variable (Vb : (c : Dev nD) → (b : Ref sig .tc) → Buf (Elt F) ((c : Thread nD τ).loc b))

/-! ## The encoder's pipeline -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vb c (Pipeline.arrRef spec1 w))

def dat1 (c : Dev nD) : Dat τ (Elt F) (HIx 1) ℕ UU ℕ cfg1 c where
  A w := Vb c (Pipeline.arrRef spec1 w)
  after w t := match w with
    | ⟨0, _⟩ => iblk1 Vb c 0 t
    | ⟨1, _⟩ => iblk1 Vb c 1 t
    | ⟨2, _⟩ => iblk1 Vb c 2 t
    | ⟨3, _⟩ => encOut (iblk1 Vb c 0 t) (iblk1 Vb c 1 t) (iblk1 Vb c 2 t)
  Φ _ := Pipeline.scopedRest spec1 c
  q _ := fullShare
  owed _ := 0
  recorded _ := Rec (F := F) c

theorem A1_eq (c : Dev nD) (w : Fin cfg1.W) : (dat1 Vb c).A w = Vb c (Pipeline.arrRef spec1 w) := by dsimp only [dat1]
theorem after1_0 (c : Dev nD) (t : Fin cfg1.N) : (dat1 Vb c).after 0 t = iblk1 Vb c 0 t := by dsimp only [dat1]
theorem after1_1 (c : Dev nD) (t : Fin cfg1.N) : (dat1 Vb c).after 1 t = iblk1 Vb c 1 t := by dsimp only [dat1]
theorem after1_2 (c : Dev nD) (t : Fin cfg1.N) : (dat1 Vb c).after 2 t = iblk1 Vb c 2 t := by dsimp only [dat1]
theorem after1_3 (c : Dev nD) (t : Fin cfg1.N) :
    (dat1 Vb c).after 3 t = encOut (iblk1 Vb c 0 t) (iblk1 Vb c 1 t) (iblk1 Vb c 2 t) := by dsimp only [dat1]

theorem before1_0 (c : Dev nD) (t : Fin cfg1.N) (d) : (dat1 Vb c).before 0 t d = iblk1 Vb c 0 t :=
  ((dat1 Vb c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 Vb c).before 1 t d = iblk1 Vb c 1 t :=
  ((dat1 Vb c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 Vb c).before 2 t d = iblk1 Vb c 2 t :=
  ((dat1 Vb c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)

def bodyPre1 (c : Dev nD) (t : Fin cfg1.N) : sProp 𝕄 :=
  iprop((dat1 Vb c).Φ t.castSucc ∗ (dat1 Vb c).owesAt none t.castSucc
    ∗ (∃ d, owns (c : Thread nD τ) (st1_0 t) fullShare ((dat1 Vb c).before 0 t d))
    ∗ (∃ d, owns (c : Thread nD τ) (st1_1 t) fullShare ((dat1 Vb c).before 1 t d))
    ∗ (∃ d, owns (c : Thread nD τ) (st1_2 t) fullShare ((dat1 Vb c).before 2 t d))
    ∗ (∃ d, owns (c : Thread nD τ) (st1_3 t) fullShare ((dat1 Vb c).before 3 t d)))

def bodyPost1 (c : Dev nD) (t : Fin cfg1.N) : sProp 𝕄 :=
  iprop((dat1 Vb c).Φ t.succ ∗ (dat1 Vb c).owesAt none t.succ
    ∗ owns (c : Thread nD τ) (st1_0 t) fullShare ((dat1 Vb c).after 0 t)
    ∗ owns (c : Thread nD τ) (st1_1 t) fullShare ((dat1 Vb c).after 1 t)
    ∗ owns (c : Thread nD τ) (st1_2 t) fullShare ((dat1 Vb c).after 2 t)
    ∗ owns (c : Thread nD τ) (st1_3 t) fullShare ((dat1 Vb c).after 3 t))

theorem sound_body1 (c : Dev nD) (t : Fin cfg1.N) :
    bodyPre1 Vb c t ⊢ wp frame (wpE (defs₀ (F := F)) Variants.none c none) Set.univ (bodyAt1 t) (fun _ => bodyPost1 Vb c t) := by
  unfold bodyPre1 bodyPost1 bodyAt1
  simp only [before1_0, before1_1, before1_2]
  rw [show (dat1 Vb c).Φ t.succ = (dat1 Vb c).Φ t.castSucc from rfl,
    show (dat1 Vb c).owesAt none t.succ = (dat1 Vb c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_enc c Set.univ (grid1.coords t) _ _ _ _ _ _ _ _ (iblk1 Vb c 0 t) (iblk1 Vb c 1 t) (iblk1 Vb c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) Vb c) (defs₀ (F := F)) Variants.none none Set.univ := fun t => by
  rw [bigSep_W1, bigSep_W1]
  exact sound_body1 Vb c t

/-! ## The router's pipeline -/

variable (Vc : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (Vc c (Pipeline.arrRef spec2 w))

def dat2 (c : Dev nD) : Dat τ (Elt F) (HIx 1) ℕ UU ℕ cfg2 c where
  A w := Vc c (Pipeline.arrRef spec2 w)
  after w t := match w with
    | ⟨0, _⟩ => iblk2 Vc c 0 t
    | ⟨1, _⟩ => iblk2 Vc c 1 t
    | ⟨2, _⟩ => iblk2 Vc c 2 t
    | ⟨3, _⟩ => iblk2 Vc c 3 t
    | ⟨4, _⟩ => iblk2 Vc c 4 t
    | ⟨5, _⟩ => iblk2 Vc c 5 t
    | ⟨6, _⟩ => routeOut (iblk2 Vc c 0 t) (iblk2 Vc c 1 t) (iblk2 Vc c 2 t) (iblk2 Vc c 3 t) (iblk2 Vc c 4 t) (iblk2 Vc c 5 t)
  Φ _ := Pipeline.scopedRest spec2 c
  q _ := fullShare
  owed _ := 0
  recorded _ := Rec (F := F) c

theorem A2_eq (c : Dev nD) (w : Fin cfg2.W) : (dat2 Vc c).A w = Vc c (Pipeline.arrRef spec2 w) := by dsimp only [dat2]
theorem after2_0 (c : Dev nD) (t : Fin cfg2.N) : (dat2 Vc c).after 0 t = iblk2 Vc c 0 t := by dsimp only [dat2]
theorem after2_1 (c : Dev nD) (t : Fin cfg2.N) : (dat2 Vc c).after 1 t = iblk2 Vc c 1 t := by dsimp only [dat2]
theorem after2_2 (c : Dev nD) (t : Fin cfg2.N) : (dat2 Vc c).after 2 t = iblk2 Vc c 2 t := by dsimp only [dat2]
theorem after2_3 (c : Dev nD) (t : Fin cfg2.N) : (dat2 Vc c).after 3 t = iblk2 Vc c 3 t := by dsimp only [dat2]
theorem after2_4 (c : Dev nD) (t : Fin cfg2.N) : (dat2 Vc c).after 4 t = iblk2 Vc c 4 t := by dsimp only [dat2]
theorem after2_5 (c : Dev nD) (t : Fin cfg2.N) : (dat2 Vc c).after 5 t = iblk2 Vc c 5 t := by dsimp only [dat2]
theorem after2_6 (c : Dev nD) (t : Fin cfg2.N) :
    (dat2 Vc c).after 6 t = routeOut (iblk2 Vc c 0 t) (iblk2 Vc c 1 t) (iblk2 Vc c 2 t) (iblk2 Vc c 3 t) (iblk2 Vc c 4 t) (iblk2 Vc c 5 t) := by
  dsimp only [dat2]

theorem before2_0 (c : Dev nD) (t : Fin cfg2.N) (d) : (dat2 Vc c).before 0 t d = iblk2 Vc c 0 t :=
  ((dat2 Vc c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 Vc c).before 1 t d = iblk2 Vc c 1 t :=
  ((dat2 Vc c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 Vc c).before 2 t d = iblk2 Vc c 2 t :=
  ((dat2 Vc c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 Vc c).before 3 t d = iblk2 Vc c 3 t :=
  ((dat2 Vc c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 Vc c).before 4 t d = iblk2 Vc c 4 t :=
  ((dat2 Vc c).before_in_eq_fetched 4 rfl (fun _ => rfl) (fun _ _ _ => rfl)
    (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 Vc c).before 5 t d = iblk2 Vc c 5 t :=
  ((dat2 Vc c).before_in_eq_fetched 5 rfl (fun _ => rfl) (fun _ _ _ => rfl)
    (fun t => by rw [after2_5]; unfold Dat.blockOf iblk2; rw [A2_eq]; try rfl) t d).trans
    (by unfold Dat.fetched Dat.blockOf iblk2; rw [A2_eq]; try rfl)

def bodyPre2 (c : Dev nD) (t : Fin cfg2.N) : sProp 𝕄 :=
  iprop((dat2 Vc c).Φ t.castSucc ∗ (dat2 Vc c).owesAt none t.castSucc
    ∗ (∃ d, owns (c : Thread nD τ) (st2_0 t) fullShare ((dat2 Vc c).before 0 t d))
    ∗ (∃ d, owns (c : Thread nD τ) (st2_1 t) fullShare ((dat2 Vc c).before 1 t d))
    ∗ (∃ d, owns (c : Thread nD τ) (st2_2 t) fullShare ((dat2 Vc c).before 2 t d))
    ∗ (∃ d, owns (c : Thread nD τ) (st2_3 t) fullShare ((dat2 Vc c).before 3 t d))
    ∗ (∃ d, owns (c : Thread nD τ) (st2_4 t) fullShare ((dat2 Vc c).before 4 t d))
    ∗ (∃ d, owns (c : Thread nD τ) (st2_5 t) fullShare ((dat2 Vc c).before 5 t d))
    ∗ (∃ d, owns (c : Thread nD τ) (st2_6 t) fullShare ((dat2 Vc c).before 6 t d)))

def bodyPost2 (c : Dev nD) (t : Fin cfg2.N) : sProp 𝕄 :=
  iprop((dat2 Vc c).Φ t.succ ∗ (dat2 Vc c).owesAt none t.succ
    ∗ owns (c : Thread nD τ) (st2_0 t) fullShare ((dat2 Vc c).after 0 t)
    ∗ owns (c : Thread nD τ) (st2_1 t) fullShare ((dat2 Vc c).after 1 t)
    ∗ owns (c : Thread nD τ) (st2_2 t) fullShare ((dat2 Vc c).after 2 t)
    ∗ owns (c : Thread nD τ) (st2_3 t) fullShare ((dat2 Vc c).after 3 t)
    ∗ owns (c : Thread nD τ) (st2_4 t) fullShare ((dat2 Vc c).after 4 t)
    ∗ owns (c : Thread nD τ) (st2_5 t) fullShare ((dat2 Vc c).after 5 t)
    ∗ owns (c : Thread nD τ) (st2_6 t) fullShare ((dat2 Vc c).after 6 t))

theorem sound_body2 (c : Dev nD) (t : Fin cfg2.N) :
    bodyPre2 Vc c t ⊢ wp frame (wpE (defs₀ (F := F)) Variants.none c none) Set.univ (bodyAt2 t) (fun _ => bodyPost2 Vc c t) := by
  unfold bodyPre2 bodyPost2 bodyAt2
  simp only [before2_0, before2_1, before2_2, before2_3, before2_4, before2_5]
  rw [show (dat2 Vc c).Φ t.succ = (dat2 Vc c).Φ t.castSucc from rfl,
    show (dat2 Vc c).owesAt none t.succ = (dat2 Vc c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_route c Set.univ (grid2.coords t) _ _ _ _ _ _ _ _ _ _ _ _ _ _
    (iblk2 Vc c 0 t) (iblk2 Vc c 1 t) (iblk2 Vc c 2 t) (iblk2 Vc c 3 t) (iblk2 Vc c 4 t) (iblk2 Vc c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) Vc c) (defs₀ (F := F)) Variants.none none Set.univ := fun t => by
  rw [bigSep_W2, bigSep_W2]
  exact sound_body2 Vc c t

/-! ## The two as the program's family of proof data -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => dat1 Vb
  | ⟨1, _⟩ => dat2 Vc

end Cert.KbProof

end
-- ==== Proof.KbTileDefs.lean ====
/-
  The SparseCore call: sixteen vector subcores, each fetching its 256 drug indices into its index scratch, transferring
  the rows of the drug head those indices name into its row scratch by one indexed copy, and copying the row scratch out
  to its 256 rows of the call's result. Every subcore reads all of the drug head at once, so the call's split hands each
  a read share of it. After the call the result holds, at row `b`, row `drug b` of the drug head.
-/
import proofs.«211788_g47691316855323_cont_8to1_c_563_28_alg».proof.Proof.KbCommon
import Idealize.ShloMosaic.Lib.ValueIdx

noncomputable section

namespace Cert.KbProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch memory and the buffers -/

variable (m : (ℓ : Loc nD τ sig) → Buf (Elt F) ℓ) (ρ : Dev nD → PrngReg)

abbrev iLoc (d : Dev nD) : Loc nD τ sig := (SparseCore.T d).loc main_arg1
abbrev wLoc (d : Dev nD) : Loc nD τ sig := (SparseCore.T d).loc main_arg6
abbrev oLoc (d : Dev nD) : Loc nD τ sig := (SparseCore.T d).loc main_v0

local notation "iV" => (Memref.whole Cert.Kernel.main_arg1_scv : Memref Cert.Kernel.sig Kind.scVector Space.hbm Cert.Kernel.S4096 EltTy.i32)
local notation "wV" => (Memref.whole Cert.Kernel.main_arg6_scv : Memref Cert.Kernel.sig Kind.scVector Space.hbm Cert.Kernel.S64x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

theorem idiv : 16 ∣ S4096.size 0 := ⟨256, rfl⟩
theorem odiv : 16 ∣ S4096x128.size 0 := ⟨256, rfl⟩
abbrev irow (i : Fin 16) : Rect S4096 := Rect.part (s := S4096) (a₀ := 0) idiv i
abbrev orow (i : Fin 16) : Rect S4096x128 := Rect.part (s := S4096x128) (a₀ := 0) odiv i
abbrev iRowSet (i : Fin 16) : Finset S4096.Idx := ((iV).view.slice (irow i)).set
abbrev oRowSet (i : Fin 16) : Finset S4096x128.Idx := ((oV).view.slice (orow i)).set

/-- What the proof asks of the launch memory: every drug index names a row of the drug head. -/
def PreOK : Prop := ∀ (d : Dev nD) (j : S4096.Idx), (m (iLoc d) j).toNat < 64

/-- The call's result: at row `b`, the row of the drug head that sample `b`'s drug index names. -/
def gathered (d : Dev nD) : Buf (Elt F) (oLoc d) :=
  fun j => m (wLoc d) (ValueIdx.ix2 (⟨(m (iLoc d) (ValueIdx.ix1 (j 0 : Fin 4096))).toNat % 64, Nat.mod_lt _ (by decide)⟩ : Fin 64) (j 1 : Fin 128))

/-- Task `i`'s read share of the drug head. -/
abbrev wq (i : Fin 16) : PosShare TreeShare := Transfers.shareTok fullShare 16 i

variable [FloatOps F]

/-! ## What the handshakes carry -/

abbrev iPts (d : Dev nD) : sProp 𝕄 := iLoc d ↦{fullShare} m (iLoc d)
abbrev wPts (d : Dev nD) : sProp 𝕄 := wLoc d ↦{fullShare} m (wLoc d)
abbrev oPts (d : Dev nD) (f : Buf (Elt F) (oLoc d)) : sProp 𝕄 := oLoc d ↦{fullShare} f
abbrev iRowPts (d : Dev nD) (i : Fin 16) : sProp 𝕄 := iLoc d ↦[iRowSet i]{fullShare} m (iLoc d)
abbrev wShPts (d : Dev nD) (i : Fin 16) : sProp 𝕄 := wLoc d ↦{wq i} m (wLoc d)
abbrev oRowPts (d : Dev nD) (i : Fin 16) (f : Buf (Elt F) (oLoc d)) : sProp 𝕄 := oLoc d ↦[oRowSet i]{fullShare} f

/-- The one call takes the drug indices, the drug head and the result array whole; each task its 256 indices, its share
    of the drug head and its 256 rows of the result, and brings them back, the result's rows at the gathered rows. -/
def P : (K (F := F)).Pay (nD := nD) (Val := Elt F) (Name := ℕ) (U := UU) where
  st := fun q d _ => match q with | 0 => iprop(iPts m d ∗ wPts m d ∗ oPts d (m (oLoc d)))
  dn := fun q d _ => match q with | 0 => iprop(iPts m d ∗ wPts m d ∗ oPts d (gathered m d))
  go := fun q d _ i => match q with
    | 0 => iprop(iRowPts m d (Fin.cast nSub_zero i) ∗ wShPts m d (Fin.cast nSub_zero i) ∗ oRowPts d (Fin.cast nSub_zero i) (m (oLoc d)))
  td := fun q d _ i => match q with
    | 0 => iprop(iRowPts m d (Fin.cast nSub_zero i) ∗ wShPts m d (Fin.cast nSub_zero i) ∗ oRowPts d (Fin.cast nSub_zero i) (gathered m d))
  x := fun _ _ => iprop(emp)

instance P_storable : (P (F := F) m).IsStorable where
  st q d _ := match q with
    | 0 => (inferInstance : BI.Storable (upEmb : UEmb _ 𝕄) iprop(iPts m d ∗ wPts m d ∗ oPts d (m (oLoc d))))
  dn q d _ := match q with
    | 0 => (inferInstance : BI.Storable (upEmb : UEmb _ 𝕄) iprop(iPts m d ∗ wPts m d ∗ oPts d (gathered m d)))
  go q d _ i := match q with
    | 0 => (inferInstance : BI.Storable (upEmb : UEmb _ 𝕄)
      iprop(iRowPts m d (Fin.cast nSub_zero i) ∗ wShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ wShPts m d (Fin.cast nSub_zero i) ∗ oRowPts d (Fin.cast nSub_zero i) (gathered m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev irowK (L : grid0.Coords) : Rect S4096 := Rect.unit (s := S4096) (k0_off1 L) S256.size (k0_off1_inb L)
abbrev orowK (L : grid0.Coords) : Rect S4096x128 := Rect.unit (s := S4096x128) (k0_off2 L) S256x128.size (k0_off2_inb L)
/-- The task's 256 drug indices and its 256 rows of the result, and all of the drug head, as the task addresses them. -/
abbrev iRowK (L : grid0.Coords) : Memref sig .scVector .hbm S256 .i32 := (iV).slice (irowK L) (fun _ => rfl)
abbrev oRowK (L : grid0.Coords) : Memref sig .scVector .hbm S256x128 .f32 := (oV).slice (orowK L) (fun _ => rfl)
abbrev wAllK : Memref sig .scVector .hbm S64x128 .f32 := (wV).slice (Rect.unit (s := S64x128) ![0, 0] S64x128.size inb_S64x128_S64x128_0_0) (fun _ => rfl)

omit [FloatOps F] in
theorem L0_zero : (L 0).val = 0 := Nat.lt_one_iff.mp (L 0).isLt

omit [FloatOps F] in
theorem irowK_eq : irowK L = irow (jL L) := by
  unfold irowK irow Rect.part Rect.block
  congr 1 <;> funext a
  · rw [k0_off1_eq]
    match a with
    | 0 => simp [Shape.partIx, Shape.partSize, L0_zero L]; omega
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, L0_zero L]; omega
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  rw [irowK_eq]
omit [FloatOps F] in
theorem set_oRowK : (oRowK L).view.set = oRowSet (jL L) := by
  show ((oV).view.slice (orowK L)).set = ((oV).view.slice (orow (jL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

end Tile

section Tile2

variable (d : Dev nD) (L : grid0.Coords)

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The offsets the indexed copy reads are in range: what the index fetch landed in the index scratch is the task's 256
    drug indices, each below 64. -/
theorem inb_of_pre (hpre : PreOK m) (fs : Buf (Elt F) ((V d (cV L) (jV L)).loc cc0_scratch0)) (pay : S256.Idx → Elt F .i32)
    (hpay : pay = (iRowK L).view.read (Elt F) (m (iLoc d))) :
    ∀ x, ((sV).view.read (Elt F) (View.write (Elt F) (sV).view fs pay Finset.univ) x).toNat < S64x128.size gathers_S64x128_S256x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

end Tile2

end Cert.KbProof

end
-- ==== Proof.KbSegs.lean ====
/-
  @main after the SparseCore call, as segments: the eight host operations that re-lay the weights (one host segment),
  then the encoder's and the router's pipeline regions. The buffers' contents are followed from segment to segment: the
  launch contents with the call's result at the gathered rows; after the host line; after the encoder's region (its
  result array at what its grid points wrote); after the router's region.
-/
import proofs.«211788_g47691316855323_cont_8to1_c_563_28_alg».proof.Proof.KbDats
import proofs.«211788_g47691316855323_cont_8to1_c_563_28_alg».proof.Proof.KbTileDefs

set_option maxRecDepth 16384

noncomputable section

namespace Cert.KbProof

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The contents, segment by segment -/

/-- The launch contents, the call's result at the gathered rows. -/
def W0 (c : Dev nD) : Valuation τ sig (Elt F) := Function.update (fun b => m (c, b)) (Proc.devRef .tc main_v0) (gathered m c)

/-- The host line: the shared weights and the experts' weights re-typed, the experts' weights laid side by side, the
    biases and the drug indices given their unit axes. -/
abbrev hostOps : List (HloOp τ sig (Elt F)) :=
  [ StableHlo.unary main_arg2 main_v1 ((truncf .bf16 · bitsLt_bf16_f32) : (⟨S2048x256, .f32⟩ : BufTy).Contents (Elt F) → (⟨S2048x256, .bf16⟩ : BufTy).Contents (Elt F)),
    StableHlo.unary main_arg4 main_v2 ((transpose S256x16x128 [1, 0, 2] · transposes_S16x256x128_S256x16x128_1_0_2) : (⟨S16x256x128, .f32⟩ : BufTy).Contents (Elt F) → (⟨S256x16x128, .f32⟩ : BufTy).Contents (Elt F)),
    StableHlo.reshape main_v2 main_v3 rfl shapeCasts_S256x16x128_S256x2048,
    StableHlo.unary main_v3 main_v4 ((truncf .bf16 · bitsLt_bf16_f32) : (⟨S256x2048, .f32⟩ : BufTy).Contents (Elt F) → (⟨S256x2048, .bf16⟩ : BufTy).Contents (Elt F)),
    StableHlo.reshape main_arg5 main_v5 rfl shapeCasts_S16x128_S1x2048,
    StableHlo.reshape main_arg1 main_v6 rfl shapeCasts_S4096_S4096x1,
    StableHlo.reshape main_arg3 main_v7 rfl shapeCasts_S256_S1x256,
    StableHlo.reshape main_arg7 main_v8 rfl shapeCasts_S64_S64x1 ]

theorem hostOps_sub : (hostOps : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..,
    StableHlo.reshape_bufs_sub .., StableHlo.reshape_bufs_sub .., StableHlo.reshape_bufs_sub .., StableHlo.reshape_bufs_sub ..⟩

theorem ops_sub : ∀ op ∈ (hostOps : List (HloOp τ sig (Elt F))), op.bufs ⊆ Pipeline.ucRefs τ sig := fun op h =>
  Pipeline.sub_ucRefs op ((List.forall_iff_forall_mem.mp hostOps_sub) op h)

theorem ops_fresh : ∀ op ∈ (hostOps : List (HloOp τ sig (Elt F))), op.fresh = ∅ := fun op h => by
  simp only [List.mem_cons, List.not_mem_nil, or_false] at h
  rcases h with rfl | rfl | rfl | rfl | rfl | rfl | rfl | rfl <;> rfl

/-- After the host line. -/
def W1 (c : Dev nD) : Valuation τ sig (Elt F) := StableHlo.after hostOps (W0 m c)

/-- What the encoder's region finds its arrays at; -/
abbrev B1 (c : Dev nD) : (b : Ref sig .tc) → Buf (Elt F) ((c : Thread nD τ).loc b) := fun b => W1 m c b

/-- what the router's region finds: the encoder's result array at what its grid points wrote; -/
def B2 (c : Dev nD) : (b : Ref sig .tc) → Buf (Elt F) ((c : Thread nD τ).loc b) :=
  Function.update (B1 m c) main_v9 ((dat1 (B1 m) c).arrAt 3 cfg1.N)

/-- and what the program ends at. -/
def B3 (c : Dev nD) : (b : Ref sig .tc) → Buf (Elt F) ((c : Thread nD τ).loc b) :=
  Function.update (B2 m c) main_v10 ((dat2 (B2 m) c).arrAt 6 cfg2.N)

/-- The two pipelines' proof data at those contents. -/
abbrev pd : (p : Fin 2) → (c : Dev nD) → Dat τ (Elt F) (HIx 1) ℕ UU ℕ (Pipeline.pin (pcfgs (F := F)) adm p) c :=
  pdats (B1 m) (B2 m)

/-- What rides beside the buffers through the segments: the core owing nothing. -/
def Rst (c : Dev nD) : sProp 𝕄 := iprop(∃ W, owes (c : Thread nD τ) (0 : CellTallies nD τ sig (HIx 1)) W)

/-- The launch protocol's recorded pairs and levels. -/
abbrev KL : GSem nD τ sig → Finset (HIx 1) := (K (F := F)).L
abbrev Klv : GSem nD τ sig → HIx 1 → ℕ := (K (F := F)).lev

local notation "ℍ" => Pipeline.HostSeg (Name := ℕ) (U := UU) (pcfgs (F := F)) defs₀ 𝒱₀ (KL (F := F)) (Klv (F := F))
local notation "ℝ𝕊" => Pipeline.RegionSeg (pcfgs (F := F)) adm (pd m) none defs₀ 𝒱₀ (KL (F := F)) (Klv (F := F))

/-- THE HOST LINE. -/
def segH : ℍ := Pipeline.HostSeg.ofOps _ _ _ _ _ (Pipeline.ucRefs τ sig) (hostOps (F := F)) ops_sub ops_fresh (W0 m) Rst

/-- Every pair is within the recorded bound: with one SparseCore call no level exceeds 7. -/
theorem mem_Rec (c : Dev nD) (p : SemLoc sig × HIx 1) : p ∈ Rec (F := F) c := by
  show (K (F := F)).lev ((c : Thread nD τ), p.1) p.2 ≤ 8
  rcases p with ⟨s, _ | q⟩
  · exact Nat.zero_le _
  · exact ((K (F := F)).lev_some_le _ q).trans (by have := q.isLt; omega)

theorem Rst_owesAt1 (c : Dev nD) (t) : Rst c ⊢ ((dat1 (F := F) (B1 m) c).owesAt none t : sProp 𝕄) := by
  unfold Rst Pipeline.Dat.owesAt Pipeline.owesWithin
  iintro ⟨%W, HO⟩; iexists W; isplitr; · ipureintro; exact fun p _ => Or.inl (mem_Rec c p)
  iexact HO
theorem Rst_owesAt2 (c : Dev nD) (t) : Rst c ⊢ ((dat2 (F := F) (B2 m) c).owesAt none t : sProp 𝕄) := by
  unfold Rst Pipeline.Dat.owesAt Pipeline.owesWithin
  iintro ⟨%W, HO⟩; iexists W; isplitr; · ipureintro; exact fun p _ => Or.inl (mem_Rec c p)
  iexact HO
theorem owesAt1_Rst (c : Dev nD) (t) : ((dat1 (F := F) (B1 m) c).owesAt none t : sProp 𝕄) ⊢ Rst c := by
  unfold Rst Pipeline.Dat.owesAt Pipeline.owesWithin
  iintro ⟨%W, -, HO⟩; iexists W; iexact HO
theorem owesAt2_Rst (c : Dev nD) (t) : ((dat2 (F := F) (B2 m) c).owesAt none t : sProp 𝕄) ⊢ Rst c := by
  unfold Rst Pipeline.Dat.owesAt Pipeline.owesWithin
  iintro ⟨%W, -, HO⟩; iexists W; iexact HO

omit [FloatOps F] in
/-- The unscoped buffers that are no window's array are read only off those buffers. -/
theorem rest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V b = V' b) :
    (Pipeline.unscopedRest win c V : sProp 𝕄) = Pipeline.unscopedRest win c V' := by
  unfold Pipeline.unscopedRest
  exact bigSep_congr fun b hb => by rw [h b (Finset.mem_sdiff.mp hb).2]

/-! ## The encoder's region -/

theorem B2_of_ne (c : Dev nD) {b : Ref sig .tc} (h : b ≠ main_v9) : B2 m c b = B1 m c b := Function.update_of_ne h _ _
theorem B2_v9 (c : Dev nD) : B2 m c main_v9 = (dat1 (B1 m) c).arrAt 3 cfg1.N := Function.update_self ..

omit [FloatOps F] in
theorem prefHeld_none (c : Dev nD) (v) : (Pipeline.prefHeld (pcfgs (F := F) 0).pre c (fun _ => fullShare) v : sProp 𝕄) = iprop(emp) := by
  unfold Pipeline.prefHeld; rw [show (Finset.univ : Finset (Fin 0)) = ∅ from rfl, BI.bigSep_empty]; rfl

theorem arr1_final (c : Dev nD) : ∀ w : Fin 4, (dat1 (B1 m) c).arrAt w cfg1.N = B2 m c (Pipeline.arrRef spec1 w)
  | 0 => ((dat1 (B1 m) c).arrAt_in 0 rfl _).trans (B2_of_ne m c (b := main_arg0) (by decide)).symm
  | 1 => ((dat1 (B1 m) c).arrAt_in 1 rfl _).trans (B2_of_ne m c (b := main_v1) (by decide)).symm
  | 2 => ((dat1 (B1 m) c).arrAt_in 2 rfl _).trans (B2_of_ne m c (b := main_v7) (by decide)).symm
  | 3 => (B2_v9 m c).symm

def reg0 : ℝ𝕊 0 where
  win := launch1.win.to₀
  block_pos := launch1.block_pos
  stage_whole := launch1.stage_whole
  K := PEmpty
  osem k := k.elim
  ho := Pipeline.OwnSemFacts.none _
  hbody c := (body_obligation1 (B1 m) c).loose
  hwaits c := Pipeline.hwaits_of_owed_zero (pcfgs (F := F)) adm (pd m) none _ _ 0 (fun _ _ => rfl) c
  pre c := iprop(StableHlo.held (c : Thread nD τ) (Pipeline.ucRefs τ sig) (W1 m c) ∗ Rst c)
  post c := iprop(unscopedBufs c (B2 m c) ∗ Rst c)
  X _ := iprop(emp)
  Y _ := iprop(emp)
  Z c := Pipeline.unscopedRest (Pipeline.pin (pcfgs (F := F)) adm 0).spec c (B1 m c)
  hentry c := by
    rw [Pipeline.ownSems0_none]
    have hsplit := Pipeline.arrays_of_unscopedBufs (pcfgs (F := F)) adm (pd m) (p := 0) launch1.win launch1.arr_whole c
      ((pd m 0 c).share_full fun _ => rfl) (B1 m c) fun _ => rfl
    iintro ⟨⟨Hub, HO⟩, -, -⟩
    ihave Hub' := (Entails.of_eq (Pipeline.unscopedBufs_held c (W1 m c)).symm) $$ Hub
    ihave H := hsplit $$ Hub'
    icases H with ⟨Ha, Hr⟩
    imodintro
    isplitl [Ha]; · iexact Ha
    isplitr; · rw [prefHeld_none]; iempintro
    isplitl [HO]; · iapply (Rst_owesAt1 m c 0); iexact HO
    isplitr; · iempintro
    iexact Hr
  hin c := by
    show iprop(_ ∗ _ ∗ Pipeline.scopedRest spec1 c) ⊢ (Pipeline.scopedRest spec1 c : sProp 𝕄)
    iintro ⟨-, -, H⟩; iexact H
  hout c := by
    rw [Pipeline.ownSems0_none]
    show (Pipeline.scopedRest spec1 c : sProp 𝕄) ⊢ iprop(_ ∗ _ ∗ Pipeline.scopedRest spec1 c)
    iintro H; isplitr; · iempintro
    isplitr; · iempintro
    iexact H
  hexit c := by
    have harr : ∀ w, (pd m 0 c).arrAt w (Pipeline.pin (pcfgs (F := F)) adm 0).N = B2 m c (Pipeline.arrRef (Pipeline.pin (pcfgs (F := F)) adm 0).spec w) := arr1_final m c
    have hrest : (Pipeline.unscopedRest (Pipeline.pin (pcfgs (F := F)) adm 0).spec c (B1 m c) : sProp 𝕄) ⊢ Pipeline.unscopedRest (Pipeline.pin (pcfgs (F := F)) adm 0).spec c (B2 m c) :=
      Entails.of_eq (rest_congr _ c _ _ fun b hb => (B2_of_ne m c (fun e => hb (Finset.mem_image.mpr ⟨3, Finset.mem_univ _, e.symm⟩))).symm)
    rw [Pipeline.unscopedBufs_split (Pipeline.pin (pcfgs (F := F)) adm) 0 launch1.win.arr_unscoped launch1.win.arr_inj c (B2 m c),
      Pipeline.arrays_eq (Pipeline.pin (pcfgs (F := F)) adm) (pd m) 0 c launch1.arr_whole ((pd m 0 c).share_full fun _ => rfl)]
    simp only [harr]
    iintro ⟨Ha, HO, -, Hr⟩
    imodintro
    isplitl [Ha Hr]
    · isplitl [Ha]; · iexact Ha
      iapply hrest; iexact Hr
    iapply (owesAt1_Rst m c _); iexact HO

end Cert.KbProof

end
-- ==== Proof.KbSegs2.lean ====
/-
  The router's pipeline region as a segment of @main, and the chain of the three segments.
-/
import proofs.«211788_g47691316855323_cont_8to1_c_563_28_alg».proof.Proof.KbSegs

set_option maxRecDepth 16384

noncomputable section

namespace Cert.KbProof

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

local notation "ℍ" => Pipeline.HostSeg (Name := ℕ) (U := UU) (pcfgs (F := F)) defs₀ 𝒱₀ (KL (F := F)) (Klv (F := F))
local notation "ℝ𝕊" => Pipeline.RegionSeg (pcfgs (F := F)) adm (pd m) none defs₀ 𝒱₀ (KL (F := F)) (Klv (F := F))

/-! ## The router's region -/

theorem B3_of_ne (c : Dev nD) {b : Ref sig .tc} (h : b ≠ main_v10) : B3 m c b = B2 m c b := Function.update_of_ne h _ _
theorem B3_v10 (c : Dev nD) : B3 m c main_v10 = (dat2 (B2 m) c).arrAt 6 cfg2.N := Function.update_self ..

theorem arr2_final (c : Dev nD) : ∀ w : Fin 7, (dat2 (B2 m) c).arrAt w cfg2.N = B3 m c (Pipeline.arrRef spec2 w)
  | 0 => ((dat2 (B2 m) c).arrAt_in 0 rfl _).trans (B3_of_ne m c (b := main_v9) (by decide)).symm
  | 1 => ((dat2 (B2 m) c).arrAt_in 1 rfl _).trans (B3_of_ne m c (b := main_v6) (by decide)).symm
  | 2 => ((dat2 (B2 m) c).arrAt_in 2 rfl _).trans (B3_of_ne m c (b := main_v4) (by decide)).symm
  | 3 => ((dat2 (B2 m) c).arrAt_in 3 rfl _).trans (B3_of_ne m c (b := main_v5) (by decide)).symm
  | 4 => ((dat2 (B2 m) c).arrAt_in 4 rfl _).trans (B3_of_ne m c (b := main_v0) (by decide)).symm
  | 5 => ((dat2 (B2 m) c).arrAt_in 5 rfl _).trans (B3_of_ne m c (b := main_v8) (by decide)).symm
  | 6 => (B3_v10 m c).symm

omit [FloatOps F] in
theorem prefHeld_none1 (c : Dev nD) (v) : (Pipeline.prefHeld (pcfgs (F := F) 1).pre c (fun _ => fullShare) v : sProp 𝕄) = iprop(emp) := by
  unfold Pipeline.prefHeld; rw [show (Finset.univ : Finset (Fin 0)) = ∅ from rfl, BI.bigSep_empty]; rfl

set_option maxHeartbeats 400000 in
theorem arrRef2_6 : Pipeline.arrRef (Pipeline.pin (pcfgs (F := F)) adm 1).spec 6 = main_v10 := rfl

set_option maxHeartbeats 400000 in
theorem rest2 (c : Dev nD) : (Pipeline.unscopedRest (Pipeline.pin (pcfgs (F := F)) adm 1).spec c (B2 m c) : sProp 𝕄) ⊢ Pipeline.unscopedRest (Pipeline.pin (pcfgs (F := F)) adm 1).spec c (B3 m c) :=
  Entails.of_eq (rest_congr _ c _ _ fun b hb => (B3_of_ne m c (fun e => hb (Finset.mem_image.mpr ⟨6, Finset.mem_univ _, (arrRef2_6 (F := F)).trans e.symm⟩))).symm)

set_option maxHeartbeats 4000000 in
def reg1 : ℝ𝕊 1 where
  win := launch2.win.to₀
  block_pos := launch2.block_pos
  stage_whole := launch2.stage_whole
  K := PEmpty
  osem k := k.elim
  ho := Pipeline.OwnSemFacts.none _
  hbody c := (body_obligation2 (B2 m) c).loose
  hwaits c := Pipeline.hwaits_of_owed_zero (pcfgs (F := F)) adm (pd m) none _ _ 1 (fun _ _ => rfl) c
  pre c := iprop(unscopedBufs c (B2 m c) ∗ Rst c)
  post c := iprop(unscopedBufs c (B3 m c) ∗ Rst c)
  X _ := iprop(emp)
  Y _ := iprop(emp)
  Z c := Pipeline.unscopedRest (Pipeline.pin (pcfgs (F := F)) adm 1).spec c (B2 m c)
  hentry c := by
    rw [Pipeline.ownSems0_none]
    have hsplit := Pipeline.arrays_of_unscopedBufs (pcfgs (F := F)) adm (pd m) (p := 1) launch2.win launch2.arr_whole c
      ((pd m 1 c).share_full fun _ => rfl) (B2 m c) fun _ => rfl
    iintro ⟨⟨Hub, HO⟩, -, -⟩
    ihave H := hsplit $$ Hub
    icases H with ⟨Ha, Hr⟩
    imodintro
    isplitl [Ha]; · iexact Ha
    isplitr; · rw [prefHeld_none1]; iempintro
    isplitl [HO]; · iapply (Rst_owesAt2 m c 0); iexact HO
    isplitr; · iempintro
    iexact Hr
  hin c := by
    show iprop(_ ∗ _ ∗ Pipeline.scopedRest spec2 c) ⊢ (Pipeline.scopedRest spec2 c : sProp 𝕄)
    iintro ⟨-, -, H⟩; iexact H
  hout c := by
    rw [Pipeline.ownSems0_none]
    show (Pipeline.scopedRest spec2 c : sProp 𝕄) ⊢ iprop(_ ∗ _ ∗ Pipeline.scopedRest spec2 c)
    iintro H; isplitr; · iempintro
    isplitr; · iempintro
    iexact H
  hexit c := by
    have harr : ∀ w, (pd m 1 c).arrAt w (Pipeline.pin (pcfgs (F := F)) adm 1).N = B3 m c (Pipeline.arrRef (Pipeline.pin (pcfgs (F := F)) adm 1).spec w) := arr2_final m c
    have hrest := rest2 m c
    rw [Pipeline.unscopedBufs_split (Pipeline.pin (pcfgs (F := F)) adm) 1 launch2.win.arr_unscoped launch2.win.arr_inj c (B3 m c),
      Pipeline.arrays_eq (Pipeline.pin (pcfgs (F := F)) adm) (pd m) 1 c launch2.arr_whole ((pd m 1 c).share_full fun _ => rfl)]
    simp only [harr]
    iintro ⟨Ha, HO, -, Hr⟩
    imodintro
    isplitl [Ha Hr]
    · isplitl [Ha]; · iexact Ha
      iapply hrest; iexact Hr
    iapply (owesAt2_Rst m c _); iexact HO

/-! ## The segments chain -/

/-- The thread state the segments start from: the buffers at the launch contents with the call's result gathered, the
    core owing nothing. -/
def Tseg0 (c : Dev nD) : sProp 𝕄 := iprop(StableHlo.held (c : Thread nD τ) (Pipeline.ucRefs τ sig) (W0 m c) ∗ Rst c)
/-- The one they end at. -/
def Tseg3 (c : Dev nD) : sProp 𝕄 := iprop(unscopedBufs c (B3 m c) ∗ Rst c)

abbrev segs : List (Pipeline.Seg (pcfgs (F := F)) adm (pd m) none defs₀ 𝒱₀ (KL (F := F)) (Klv (F := F))) :=
  [.host (segH m), .region (reg0 m), .region (reg1 m)]

theorem segs_chain : Pipeline.Seg.Chains (Tseg0 m) (segs m) (Tseg3 m) := by
  refine ⟨fun _ => Entails.refl _, fun _ => Entails.refl _, fun _ => Entails.refl _, fun _ => Entails.refl _⟩

end Cert.KbProof

end
-- ==== Proof.KbTileValue.lean ====
/-
  What a task's rows of the call's result hold once the task has run: on the task's rows, the rows of the drug head its
  drug indices name.
-/
import proofs.«211788_g47691316855323_cont_8to1_c_563_28_alg».proof.Proof.KbTileDefs

noncomputable section

namespace Cert.KbProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_arg1_scv : Memref Cert.Kernel.sig Kind.scVector Space.hbm Cert.Kernel.S4096 EltTy.i32)
local notation "wV" => (Memref.whole Cert.Kernel.main_arg6_scv : Memref Cert.Kernel.sig Kind.scVector Space.hbm Cert.Kernel.S64x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

variable (m : (ℓ : Loc nD τ sig) → Buf (Elt F) ℓ) [FloatOps F] (d : Dev nD) (L : grid0.Coords)

omit [FloatOps F] in
/-- At rank one an index's position in row-major order is its one coordinate, so the index at position `k` has
    coordinate `k`. -/
theorem rowMajor_symm_one (n : ℕ) (k : Fin (⟨1, ![n]⟩ : Shape).numel) :
    (((⟨1, ![n]⟩ : Shape).rowMajor.symm k) 0).val = k.val := by
  have h := Shape.rowMajor_val_one (d := ![n]) ((⟨1, ![n]⟩ : Shape).rowMajor.symm k)
  rw [Equiv.apply_symm_apply] at h
  exact h.symm

omit [FloatOps F] in
/-- Row `y 0` of the task's rows of the result is row `256 * L 1 + y 0` of the result, -/
theorem oRowK_emb0 (y : S256x128.Idx) : (((oRowK L).view.emb y) 0).val = 256 * (L 1).val + (y 0).val := by
  show k0_off2 L 0 + 1 * (y 0).val = _
  rw [k0_off2_eq]
  simp [L0_zero L]

omit [FloatOps F] in
/-- at the same lane; -/
theorem oRowK_emb1 (y : S256x128.Idx) : (((oRowK L).view.emb y) 1).val = (y 1).val := by
  show k0_off2 L 1 + 1 * (y 1).val = _
  rw [k0_off2_eq]
  simp

omit [FloatOps F] in
/-- and entry `z 0` of the task's drug indices is entry `256 * L 1 + z 0` of the drug indices: the same offset. -/
theorem iRowK_emb0 (z : S256.Idx) : (((iRowK L).view.emb z) 0).val = 256 * (L 1).val + (z 0).val := by
  show k0_off1 L 0 + 1 * (z 0).val = _
  rw [k0_off1_eq]
  simp [L0_zero L]

/-- On the task's rows the result holds the gathered rows. At the element `y` of the task's rows the copy out wrote the
    row scratch there, which the indexed copy filled with the drug head at row `r`, lane `y 1`, where `r` is the word
    at position `y 0` of the index scratch, that is drug index `256 * L 1 + y 0`; the gathered rows hold there the drug
    head at row `r mod 64`, lane `y 1`, and `r` is below 64. -/
theorem written_rows (hpre : PreOK m) (fs : Buf (Elt F) ((V d (cV L) (jV L)).loc cc0_scratch0)) (fr : Buf (Elt F) ((V d (cV L) (jV L)).loc cc0_scratch1))
    (pay : S256x128.Idx → Elt F .f32) (hn : S256.numel = S256x128.size gathers_S64x128_S256x128.axis')
    (hpay : pay = ReadAs.same.apply ((rV).view.read (Elt F) (View.write (Elt F) (rV).view fr
        (SparseCore.gatherPayload gathers_S64x128_S256x128 ((wAllK).view.read (Elt F) (m (wLoc d)))
          (SparseCore.rows ((sV).view.read (Elt F) (View.write (Elt F) (sV).view fs ((iRowK L).view.read (Elt F) (m (iLoc d))) Finset.univ)) hn
            (inb_of_pre m d L hpre fs _ rfl))) Finset.univ))) :
    ∀ i ∈ (oRowK L).view.set, (oRowK L).view.writes (Elt F) (m (oLoc d)) [⟨Rect.whole S256x128, pay⟩] i = gathered m d i := by
  intro i hi
  obtain ⟨y, -, rfl⟩ := Finset.mem_map.mp hi
  -- the one write is through the whole of the task's rows: at the element under `y` it leaves `pay y`
  rw [View.writes_singleton]
  have e : (oRowK L).view.emb y = ((oRowK L).view.slice (Rect.whole S256x128)).emb y := by
    rw [View.emb_slice]
    show _ = (oRowK L).view.emb ((Rect.whole S256x128).emb y)
    rw [Rect.emb_whole_apply]
  rw [e, View.write_emb_of_mem _ _ (Finset.mem_univ _), ← e]
  refine (cast_eq _ _).trans ?_
  -- `pay y` is the drug head at the source index the gather names for `y`
  subst hpay
  rw [ReadAs.apply_same, View.read_write_univ]
  unfold SparseCore.gatherPayload
  have hw : (wAllK).view.read (Elt F) (m (wLoc d)) = m (wLoc d) :=
    Memref.read_access_unit_zero (Elt F) main_arg6_scv (by funext a; fin_cases a <;> rfl) inb_S64x128_S64x128_0_0 (m (wLoc d))
  rw [hw]
  unfold gathered
  -- the two source indices agree coordinate by coordinate
  refine congrArg (m (wLoc d)) ?_
  funext b
  apply Fin.ext
  match b with
  | ⟨0, _⟩ =>
    -- the row: the word at position `y 0` of the index scratch, which is drug index `256 * L 1 + y 0`, below 64
    refine (congrArg Fin.val (Shape.Gathers.idx_axis gathers_S64x128_S256x128 _ y)).trans ?_
    show _ = BitVec.toNat (m (iLoc d) (ValueIdx.ix1 ((oRowK L).view.emb y 0))) % 64
    rw [Nat.mod_eq_of_lt (hpre d _)]
    unfold SparseCore.rows
    dsimp only
    rw [View.write_whole_univ]
    simp only [Memref.view_whole, View.read_whole]
    rw [show ∀ j, (iRowK L).view.read (Elt F) (m (iLoc d)) j = m (iLoc d) ((iRowK L).view.emb j) from fun j => (View.read_apply _ _).trans (cast_eq _ _)]
    refine congrArg (fun t => BitVec.toNat (m (iLoc d) t)) ?_
    funext a
    apply Fin.ext
    match a with
    | ⟨0, _⟩ =>
      refine (iRowK_emb0 L _).trans ?_
      refine Eq.trans ?_ (oRowK_emb0 L y).symm
      refine congrArg (256 * (L 1).val + ·) ?_
      exact rowMajor_symm_one 256 _
  | ⟨1, _⟩ =>
    -- the lane: `y`'s own
    refine (Shape.Gathers.idx_of_ne gathers_S64x128_S256x128 _ y ⟨1, _⟩ Nat.one_ne_zero).trans ?_
    show (y 1).val = ((oRowK L).view.emb y 1).val
    exact (oRowK_emb1 L y).symm

end Cert.KbProof

end
-- ==== Proof.KbTile.lean ====
/-
  The vector subcore's task run, its obligation to the launch theorem, and how the call's operands split into the
  sixteen tasks' and the results gather from theirs.
-/
import proofs.«211788_g47691316855323_cont_8to1_c_563_28_alg».proof.Proof.KbTileValue

noncomputable section

namespace Cert.KbProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_arg1_scv : Memref Cert.Kernel.sig Kind.scVector Space.hbm Cert.Kernel.S4096 EltTy.i32)
local notation "wV" => (Memref.whole Cert.Kernel.main_arg6_scv : Memref Cert.Kernel.sig Kind.scVector Space.hbm Cert.Kernel.S64x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

variable (m : (ℓ : Loc nD τ sig) → Buf (Elt F) ℓ) (ρ : Dev nD → PrngReg) [FloatOps F]

section Task

variable (d : Dev nD) (L : grid0.Coords)

set_option maxHeartbeats 4000000 in
/-- The task on vector subcore `(L 0, L 1)` of device `d`: the index fetch and its wait, the indexed copy of the named rows
    and its wait, the copy out and its wait; its rows of the result end at the gathered rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ wShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L iV (Memref.isWhole_whole _) wV (Memref.isWhole_whole _) oV (Memref.isWhole_whole _)
            sV (Memref.isWhole_whole _) rV (Memref.isWhole_whole _) cc0_scratch2 cc0_scoped0 cc0_scoped1)
          fun _ => iprop((iRowPts m d (jL L) ∗ wShPts m d (jL L) ∗ oRowPts d (jL L) (gathered m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hw' := (Entails.of_eq (pts_wV (F := F) d L _ _).symm) $$ Hw
  ihave Hs' := (Entails.of_eq (pts_sV (F := F) d L _).symm) $$ Hs
  ihave Hr' := (Entails.of_eq (pts_rV (F := F) d L _).symm) $$ Hr
  sl_exec
  -- the indexed copy: a share of the drug head (its slice's elements), the row scratch, the index scratch whole and the
  -- cell at zero go in; the offsets are in range by the precondition
  ihave Hws := (pointsTo_split_subset (q := wq (jL L)) (f := m (wLoc d)) (S := Finset.univ) (Finset.subset_univ (wAllK).view.set)).1 $$ Hw'
  icases Hws with ⟨Hws, Hwr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S64x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S64x128_S256x128) (default : HIx 1)
      (rV).view.dmaCredit (hN _) (by decide) (inb_of_pre m d L hpre fs _ rfl)) $$ [Hws Hr'' Hs'' HsemB]
  · isplitl [Hws]; · iexact Hws
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hws, Hs'⟩, HsemB, HO⟩
  ihave Hw' := (pointsTo_split_subset (q := wq (jL L)) (f := m (wLoc d)) (S := Finset.univ) (Finset.subset_univ (wAllK).view.set)).2 $$ [Hws Hwr]; · isplitl [Hws] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hw' Ho']
  · isplitl [Hi']; · iapply (Entails.of_eq (pts_iRowK (F := F) d L _)); iexact Hi'
    isplitl [Hw']; · iexact Hw'
    -- the rows written out are, on the task's rows, the gathered rows
    iapply (Entails.of_eq ((pointsTo_congr (written_rows m d L hpre fs fr _ rfl rfl)).trans (pts_oRowK (F := F) d L _))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          iV (Memref.isWhole_whole _) wV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

end Cert.KbProof

end
-- ==== Proof.KbSplit.lean ====
/-
  How the SparseCore call's operands split among its sixteen tasks and its results gather from theirs: the drug indices
  and the result array by rows (sixteen blocks of 256), the drug head as sixteen read tokens beside a remainder that
  stays with the call until the tokens come back.
-/
import proofs.«211788_g47691316855323_cont_8to1_c_563_28_alg».proof.Proof.KbTileDefs

noncomputable section

namespace Cert.KbProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_arg1_scv : Memref Cert.Kernel.sig Kind.scVector Space.hbm Cert.Kernel.S4096 EltTy.i32)
local notation "wV" => (Memref.whole Cert.Kernel.main_arg6_scv : Memref Cert.Kernel.sig Kind.scVector Space.hbm Cert.Kernel.S64x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

variable (m : (ℓ : Loc nD τ sig) → Buf (Elt F) ℓ) [FloatOps F]

omit [FloatOps F] in
theorem iRowSet_eq (i : Fin 16) : iRowSet i = (irow i).set := by
  show ((View.whole (main_arg1_scv : Ref sig .scVector)).slice (irow i)).set = _
  rw [View.set_slice]; exact Finset.map_refl
omit [FloatOps F] in
theorem oRowSet_eq (i : Fin 16) : oRowSet i = (orow i).set := by
  show ((View.whole (main_v0_scv : Ref sig .scVector)).slice (orow i)).set = _
  rw [View.set_slice]; exact Finset.map_refl
omit [FloatOps F] in
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem irows_cover : (Finset.univ : Finset (Fin 16)).biUnion iRowSet = Finset.univ :=
  (Finset.biUnion_congr rfl fun i _ => iRowSet_eq i).trans (Rect.biUnion_part idiv)
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(iPts m d ∗ wPts m d ∗ oPts d (m (oLoc d))) ⊢ |={Set.univ}=> iprop(
      (bigSep Finset.univ fun i : Fin ((K (F := F)).nSub 0) =>
        iprop(iRowPts m d (Fin.cast nSub_zero i) ∗ wShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ wShPts m d (Fin.cast nSub_zero i) ∗ oRowPts d (Fin.cast nSub_zero i) (gathered m d)))
          -∗ iprop(iPts m d ∗ wPts m d ∗ oPts d (gathered m d))))
  rw [bigSep_tasks (F := F) (fun i => iprop(iRowPts m d i ∗ wShPts m d i ∗ oRowPts d i (m (oLoc d)))),
    bigSep_tasks (F := F) (fun i => iprop(iRowPts m d i ∗ wShPts m d i ∗ oRowPts d i (gathered m d))), bigSep_sep', bigSep_sep', bigSep_sep', bigSep_sep']
  unfold iPts oPts iRowPts oRowPts
  rw [iPts_rows, oPts_rows d (m (oLoc d)), oPts_rows d (gathered m d)]
  iintro ⟨Hi, Hw, Ho⟩
  ihave Hw' := (Transfers.pointsTo_toks_split (ℓ := wLoc d) (S := Finset.univ) (f := m (wLoc d)) fullShare 16) $$ Hw
  icases Hw' with ⟨Hrem, Htoks⟩
  imodintro
  isplitl [Hi Htoks Ho]
  · isplitl [Hi]; · iexact Hi
    isplitl [Htoks]; · iexact Htoks
    iexact Ho
  iintro ⟨Hi, Hx, Ho⟩
  isplitl [Hi]; · iexact Hi
  isplitl [Hx Hrem]
  · iapply (Transfers.pointsTo_toks_join (ℓ := wLoc d) (S := Finset.univ) (f := m (wLoc d)) fullShare 16)
    isplitl [Hrem]; · iexact Hrem
    iexact Hx
  iexact Ho

end Cert.KbProof

end
-- ==== Proof.KbMain.lean ====
/-
  The launch of the whole program: the launch element of the ghost state (the handshakes' rounds, the two pipelines'
  staging rounds, the transfer counters), @main on the TensorCore — the SparseCore call, then the host line and the two
  pipeline regions —, how the final memory reads the result, and the run.
-/
import proofs.«211788_g47691316855323_cont_8to1_c_563_28_alg».proof.Proof.KbSegs2
import proofs.«211788_g47691316855323_cont_8to1_c_563_28_alg».proof.Proof.KbTile
import proofs.«211788_g47691316855323_cont_8to1_c_563_28_alg».proof.Proof.KbSplit

set_option maxRecDepth 16384

noncomputable section

namespace Cert.KbProof

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What @main's proof starts from on each device: the two pipelines' rounds ghost state. -/
def G (d : Dev nD) : sProp 𝕄 := Pipeline.ghostOn (pcfgs (F := F)) adm EP Finset.univ d

omit [FloatOps F] in
theorem bigSep_emp' {I : Type} (s : Finset I) : (bigSep s fun _ => iprop(emp)) = (iprop(emp) : sProp 𝕄) := bigSep_emp_const s

omit [FloatOps F] in
theorem G_eq (c : Dev nD) :
    (bigSep Finset.univ fun p : Fin 2 => iprop(Pipeline.cellsGhost (Pipeline.pin (pcfgs (F := F)) adm) (EP (F := F)) p c
        ∗ Pipeline.toksInit (Pipeline.pin (pcfgs (F := F)) adm) (EP (F := F)) p c) : sProp 𝕄) = G c := rfl

omit [FloatOps F] in
theorem ghost_deal :
    iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => (Pipeline.toksInit (Pipeline.pin (pcfgs (F := F)) adm) (EP (F := F)) p c : sProp 𝕄)))
      ⊢ bigSep Finset.univ (G (F := F)) := by
  rw [← bigSep_sep']
  refine bigSep_mono fun c _ => ?_
  rw [← bigSep_sep']
  exact Entails.of_eq (G_eq c)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · iapply (ghost_deal (F := F))
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  try iempintro

/-! ## @main on the TensorCore -/

/-- The launch contents as a valuation. -/
abbrev Vm (d : Dev nD) : Valuation τ sig (Elt F) := fun b => m (d, b)

/-- The three buffers the SparseCore call takes. -/
def S3 : Finset (DevRef τ sig) := {Proc.devRef .tc main_arg1, Proc.devRef .tc main_arg6, Proc.devRef .tc main_v0}

omit [FloatOps F] in
theorem S3_sub : S3 ⊆ Pipeline.ucRefs τ sig := by decide

omit [FloatOps F] in
theorem held_S3 (d : Dev nD) (W : Valuation τ sig (Elt F)) :
    (StableHlo.held (SparseCore.T d) S3 W : sProp 𝕄)
      = iprop((iLoc d ↦{fullShare} W (Proc.devRef .tc main_arg1)) ∗ (wLoc d ↦{fullShare} W (Proc.devRef .tc main_arg6))
          ∗ oLoc d ↦{fullShare} W (Proc.devRef .tc main_v0)) := by
  unfold StableHlo.held S3
  rw [SparseCore.bigSep_insert' (by decide), SparseCore.bigSep_insert' (by decide), bigSep_singleton]

omit [FloatOps F] in
theorem hub (d : Dev nD) :
    (unscopedBufs d (fun b => m ((SparseCore.T d).loc b)) : sProp 𝕄) = StableHlo.held (SparseCore.T d) (Pipeline.ucRefs τ sig) (Vm m d) :=
  Pipeline.unscopedBufs_held d (Vm m d)

/-- Off the three buffers the gathered contents are the launch contents. -/
theorem held_rest_W0 (d : Dev nD) :
    (StableHlo.held (SparseCore.T d) (Pipeline.ucRefs τ sig \ S3) (Vm m d) : sProp 𝕄) = StableHlo.held (SparseCore.T d) (Pipeline.ucRefs τ sig \ S3) (W0 m d) :=
  StableHlo.held_congr (SparseCore.T d) fun b hb => by
    have hne : b ≠ Proc.devRef .tc main_v0 := fun e => (Finset.mem_sdiff.mp hb).2 (by rw [e]; decide)
    exact (Function.update_of_ne hne _ _).symm

theorem W0_at_arg1 (d : Dev nD) : W0 m d (Proc.devRef .tc main_arg1) = m (iLoc d) := Function.update_of_ne (by decide) _ _
theorem W0_at_arg6 (d : Dev nD) : W0 m d (Proc.devRef .tc main_arg6) = m (wLoc d) := Function.update_of_ne (by decide) _ _
theorem W0_at_v0 (d : Dev nD) : W0 m d (Proc.devRef .tc main_v0) = gathered m d := Function.update_self ..

theorem st0_eq (d : Dev nD) : (bigSep Finset.univ fun c : Fin ((K (F := F)).nCore 0) => (P m).st 0 d c) = iprop(iPts m d ∗ wPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ wPts m d ∗ oPts d (gathered m d)) :=
  bigSep_univ_of_subsingleton (0 : Fin 1)

/-- With one SparseCore call every recorded pair sits at or below level 8. -/
theorem wbelow_any (d : Dev nD) (W : Waits sig (HIx 1)) : (K (F := F)).WBelow (SparseCore.T d) W (8 * 1) := fun p _ => by
  rcases p with ⟨s, _ | q⟩
  · exact Nat.zero_le _
  · exact ((K (F := F)).lev_some_le _ q).trans (by have := q.isLt; omega)

/-- After the call the TensorCore owes nothing: its state opens into that and closes again around any such. -/
theorem tcSt_open (d : Dev nD) :
    ((K (F := F)).tcSt EH d 1 : sProp 𝕄) ⊢ iprop(Rst d ∗ (Rst d -∗ (K (F := F)).tcSt EH d 1)) := by
  unfold SparseCore.Cfg.tcSt Rst
  rw [(K (F := F)).Otc_end d (le_refl 1)]
  iintro ⟨⟨%W, -, HO⟩, Hr⟩
  isplitl [HO]; · iexists W; iexact HO
  iintro ⟨%W', HO'⟩
  isplitl [HO']
  · iexists W'; isplitr; · ipureintro; exact wbelow_any d W'
    iexact HO'
  iexact Hr

/-- @main: the SparseCore call, then the segments. -/
theorem main_eq (d : Dev nD) :
    main (F := F) d = ((K (F := F)).run d 0 >>= fun _ => SparseCore.liftProg (Pipeline.Seg.run (segs m))) := rfl

/-- What the TensorCore ends holding: every unscoped buffer at the final contents. -/
abbrev FIN (d : Dev nD) : sProp 𝕄 := unscopedBufs d (B3 m d)

theorem segs_nodup : (Pipeline.Seg.pipes (segs m)).Nodup := by
  simp only [segs, Pipeline.Seg.pipes_host, Pipeline.Seg.pipes_region, Pipeline.Seg.pipes_nil]; decide

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [hub m d, StableHlo.held_sub_split (SparseCore.T d) S3_sub, held_S3, main_eq m d, wp_bind]
  iintro ⟨#Hctx, Hst, ⟨Hb, ⟨⟨Hi, Hw, Ho⟩, Hrest⟩, -, -⟩, HG⟩
  ihave #Hlev := ((K (F := F)).ctx_levAts (EH := EH) (P := P m) κ) $$ Hctx
  iapply ((K (F := F)).wp_run (D (F := F)) 𝒱 (EH := EH) (P := P m) κ d 0) $$ [Hst Hi Hw Ho Hb Hrest HG]
  isplitr; · iexact Hctx
  isplitl [Hst]; · iexact Hst
  isplitl [Hi Hw Ho]
  · rw [st0_eq]
    isplitl [Hi]; · iexact Hi
    isplitl [Hw]; · iexact Hw
    iexact Ho
  iintro ⟨Hst, Hdn⟩
  ihave Hdn' := (Entails.of_eq (dn0_eq m d)) $$ Hdn
  icases Hdn' with ⟨Hi, Hw, Ho⟩
  -- the buffers again, the call's result at the gathered rows
  ihave Hheld := (show iprop((iLoc d ↦{fullShare} m (iLoc d)) ∗ (wLoc d ↦{fullShare} m (wLoc d)) ∗ (oLoc d ↦{fullShare} gathered m d)
        ∗ StableHlo.held (SparseCore.T d) (Pipeline.ucRefs τ sig \ S3) (Vm m d))
      ⊢ (StableHlo.held (SparseCore.T d) (Pipeline.ucRefs τ sig) (W0 m d) : sProp 𝕄) from by
    rw [StableHlo.held_sub_split (SparseCore.T d) S3_sub (W0 m d), held_S3, W0_at_arg1, W0_at_arg6, W0_at_v0, held_rest_W0]
    iintro ⟨Hi, Hw, Ho, Hr⟩
    isplitl [Hi Hw Ho]
    · isplitl [Hi]; · iexact Hi
      isplitl [Hw] <;> iassumption
    iexact Hr) $$ [Hi Hw Ho Hrest]
  · isplitl [Hi]; · iexact Hi
    isplitl [Hw]; · iexact Hw
    isplitl [Ho] <;> iassumption
  ihave Hst1 := (show ((K (F := F)).tcSt EH d ((0 : Fin 1).val + 1) : sProp 𝕄) ⊢ (K (F := F)).tcSt EH d 1 from Entails.refl _) $$ Hst
  ihave Hopen := (tcSt_open d) $$ Hst1
  icases Hopen with ⟨HR, Hclose⟩
  iapply ((K (F := F)).wp_liftProg (D (F := F)) 𝒱 (SparseCore.T d) Set.univ none _ _)
  iapply (Pipeline.wp_segs (pcfgs (F := F)) adm (pd m) none cellOf_inj (EP (F := F)) defs₀ 𝒱₀ (KL (F := F)) (Klv (F := F)) d
      (segs m) Finset.univ (Tseg0 m) (Tseg3 m) (segs_nodup m) (fun p _ => Finset.mem_univ p) (segs_chain m)) $$ [Hb Hheld HR Hclose HG]
  unfold Tseg0 Tseg3 G
  isplitl [Hclose]
  · iintro ⟨-, Hub, HR⟩
    isplitl [HR Hclose]; · iapply Hclose; iexact HR
    iexact Hub
  isplitl [Hb]; · iexact Hb
  isplitl [Hheld HR]
  · isplitl [Hheld]; · iexact Hheld
    iexact HR
  isplitr; · iexact Hlev
  iexact HG

/-! ## The final memory -/

def fq (d : Dev nD) (s' : Phys nD τ sig (Elt F)) : Prop :=
  ∀ b : Ref sig .tc, b.isScoped = false → s'.mem.mem ((SparseCore.T d).loc b) = B3 m d b

theorem hfin (d : Dev nD) (s' : Phys nD τ sig (Elt F)) : iprop(FIN m d ∗ SI s') ⊢ (⌜fq m d s'⌝ : sProp 𝕄) := by
  unfold FIN unscopedBufs
  iintro ⟨Ha, HSI⟩
  ihave Hr := (pointsTo_read_all (Finset.univ.filter fun b : Ref sig .tc => ¬ b.isScoped) (fun b => (SparseCore.T d).loc b) (B3 m d) s') $$ [Ha HSI]
  · isplitl [Ha] <;> iassumption
  icases Hr with ⟨%ha, -⟩
  ipureintro; exact fun b hb => ha b (Finset.mem_filter.mpr ⟨Finset.mem_univ b, by simp [hb]⟩)

/-! ## The run -/

/-- Every unscoped TensorCore buffer ends at the final contents. -/
def QC : PUnit × MemSt nD τ sig (Elt F) → Prop := fun r =>
  ∀ (c : Dev nD) (b : Ref sig .tc), b.isScoped = false → r.2.mem ((SparseCore.T c).loc b) = B3 m c b

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.KbProof

end
-- ==== Proof.KbArgs.lean ====
/-
  The program's buffers at its end that no region computes, as the launch contents. The host line writes eight
  intermediate arrays (the re-typed shared weights, the experts' weights transposed, flattened and re-typed, and the
  biases and the drug indices given their unit axes) and nothing else; the encoder's region writes its result array, the
  router's region the program's result. So the eight arguments end as they were launched, the gathered head rows stay,
  and each array the host line writes is the printed operations' term of the arguments it reads.
-/
import proofs.«211788_g47691316855323_cont_8to1_c_563_28_alg».proof.Proof.KbSegs
import Idealize.ShloMosaic.Lib.StableHlo.Run

set_option maxRecDepth 16384

noncomputable section

namespace Cert.KbProof

open Cert.Kernel Cert.Kernel.Gen
open Idealize.ShloMosaic Idealize.ShloMosaic.TcCoe
open Idealize.ShloMosaic.SparseCore.Cfg (HIx)
open Idealize.ShloMosaic.Pipeline (Dat Cfg Window)

section Generic

variable {F : FTy → Type} [FloatOps F]
variable (m : (ℓ : Loc nD τ sig) → Buf (Elt F) ℓ)

/-! ## What the host line writes, and what it leaves -/

theorem single_sub_W {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the host line writes. -/
abbrev hostW : List (Ref sig .tc) := [main_v1, main_v2, main_v3, main_v4, main_v5, main_v6, main_v7, main_v8]

theorem hostOps_writes : (hostOps : List (HloOp τ sig (Elt F))).Forall fun op =>
    op.writes ⊆ (hostW.map (Proc.devRef (τ := τ) .tc)).toFinset :=
  ⟨single_sub_W (by decide), single_sub_W (by decide), single_sub_W (by decide), single_sub_W (by decide),
    single_sub_W (by decide), single_sub_W (by decide), single_sub_W (by decide), single_sub_W (by decide)⟩

/-- A reference the host line does not write holds after it what it held before. -/
theorem B1_of_not_written (c : Dev nD) {r : Ref sig .tc} (hr : r ∉ hostW) : B1 m c r = W0 m c (Proc.devRef .tc r) :=
  StableHlo.after_of_writes_sub hostOps (W0 m c) hostOps_writes hr

/-- Before the host line every reference but the call's result holds the launch contents. -/
theorem W0_of_ne (c : Dev nD) {r : Ref sig .tc} (hr : r ≠ main_v0) :
    W0 m c (Proc.devRef .tc r) = m ((c : Thread nD τ).loc r) :=
  Function.update_of_ne (StableHlo.devRef_ne_of_ne hr) _ _

theorem W0_v0 (c : Dev nD) : W0 m c (Proc.devRef .tc main_v0) = gathered m c := Function.update_self ..

theorem B3_of_ne' (c : Dev nD) {b : Ref sig .tc} (h : b ≠ main_v10) : B3 m c b = B2 m c b := Function.update_of_ne h _ _
theorem B3_v10' (c : Dev nD) : B3 m c main_v10 = (dat2 (B2 m) c).arrAt 6 cfg2.N := Function.update_self ..

/-- A reference that neither the host line nor a region writes ends at the launch contents. -/
theorem B3_of_untouched (c : Dev nD) {r : Ref sig .tc} (h10 : r ≠ main_v10) (h9 : r ≠ main_v9) (hW : r ∉ hostW) (h0 : r ≠ main_v0) :
    B3 m c r = m ((c : Thread nD τ).loc r) :=
  (B3_of_ne' m c h10).trans ((B2_of_ne m c h9).trans ((B1_of_not_written m c hW).trans (W0_of_ne m c h0)))

/-! ## The arguments end unchanged -/

theorem B3_arg0 (c : Dev nD) : B3 m c main_arg0 = m ((c : Thread nD τ).loc main_arg0) :=
  B3_of_untouched m c (by decide) (by decide) (by decide) (by decide)
theorem B3_arg1 (c : Dev nD) : B3 m c main_arg1 = m ((c : Thread nD τ).loc main_arg1) :=
  B3_of_untouched m c (by decide) (by decide) (by decide) (by decide)
theorem B3_arg2 (c : Dev nD) : B3 m c main_arg2 = m ((c : Thread nD τ).loc main_arg2) :=
  B3_of_untouched m c (by decide) (by decide) (by decide) (by decide)
theorem B3_arg3 (c : Dev nD) : B3 m c main_arg3 = m ((c : Thread nD τ).loc main_arg3) :=
  B3_of_untouched m c (by decide) (by decide) (by decide) (by decide)
theorem B3_arg4 (c : Dev nD) : B3 m c main_arg4 = m ((c : Thread nD τ).loc main_arg4) :=
  B3_of_untouched m c (by decide) (by decide) (by decide) (by decide)
theorem B3_arg5 (c : Dev nD) : B3 m c main_arg5 = m ((c : Thread nD τ).loc main_arg5) :=
  B3_of_untouched m c (by decide) (by decide) (by decide) (by decide)
theorem B3_arg6 (c : Dev nD) : B3 m c main_arg6 = m ((c : Thread nD τ).loc main_arg6) :=
  B3_of_untouched m c (by decide) (by decide) (by decide) (by decide)
theorem B3_arg7 (c : Dev nD) : B3 m c main_arg7 = m ((c : Thread nD τ).loc main_arg7) :=
  B3_of_untouched m c (by decide) (by decide) (by decide) (by decide)

/-- The call's result ends at the gathered rows. -/
theorem B3_v0 (c : Dev nD) : B3 m c main_v0 = gathered m c :=
  (B3_of_ne' m c (by decide)).trans ((B2_of_ne m c (by decide)).trans ((B1_of_not_written m c (by decide)).trans (W0_v0 m c)))

/-! ## What the encoder's region finds: the host line's results as terms of the launch contents -/

theorem B1_arg0 (c : Dev nD) : B1 m c main_arg0 = m ((c : Thread nD τ).loc main_arg0) :=
  (B1_of_not_written m c (by decide)).trans (W0_of_ne m c (by decide))
theorem B1_v0 (c : Dev nD) : B1 m c main_v0 = gathered m c :=
  (B1_of_not_written m c (by decide)).trans (W0_v0 m c)

theorem B1_v1 (c : Dev nD) : B1 m c main_v1 = truncf .bf16 (m ((c : Thread nD τ).loc main_arg2)) bitsLt_bf16_f32 := by
  show StableHlo.after hostOps (W0 m c) (Proc.devRef .tc main_v1) = _
  after_results
  rw [W0_of_ne m c (by decide)]

theorem B1_v4 (c : Dev nD) : B1 m c main_v4
    = truncf .bf16 (shapeCast S256x2048 (transpose S256x16x128 [1, 0, 2] (m ((c : Thread nD τ).loc main_arg4))
        transposes_S16x256x128_S256x16x128_1_0_2) shapeCasts_S256x16x128_S256x2048) bitsLt_bf16_f32 := by
  show StableHlo.after hostOps (W0 m c) (Proc.devRef .tc main_v4) = _
  after_results
  rw [W0_of_ne m c (by decide)]
  rfl

theorem B1_v5 (c : Dev nD) : B1 m c main_v5 = shapeCast S1x2048 (m ((c : Thread nD τ).loc main_arg5)) shapeCasts_S16x128_S1x2048 := by
  show StableHlo.after hostOps (W0 m c) (Proc.devRef .tc main_v5) = _
  after_results
  rw [W0_of_ne m c (by decide)]
  rfl

theorem B1_v6 (c : Dev nD) : B1 m c main_v6 = shapeCast S4096x1 (m ((c : Thread nD τ).loc main_arg1)) shapeCasts_S4096_S4096x1 := by
  show StableHlo.after hostOps (W0 m c) (Proc.devRef .tc main_v6) = _
  after_results
  rw [W0_of_ne m c (by decide)]
  rfl

theorem B1_v7 (c : Dev nD) : B1 m c main_v7 = shapeCast S1x256 (m ((c : Thread nD τ).loc main_arg3)) shapeCasts_S256_S1x256 := by
  show StableHlo.after hostOps (W0 m c) (Proc.devRef .tc main_v7) = _
  after_results
  rw [W0_of_ne m c (by decide)]
  rfl

theorem B1_v8 (c : Dev nD) : B1 m c main_v8 = shapeCast S64x1 (m ((c : Thread nD τ).loc main_arg7)) shapeCasts_S64_S64x1 := by
  show StableHlo.after hostOps (W0 m c) (Proc.devRef .tc main_v8) = _
  after_results
  rw [W0_of_ne m c (by decide)]
  rfl

end Generic

end Cert.KbProof

end
-- ==== Proof.KiArgs.lean ====
/-
  The program's buffers at its end that no region computes, as the launch contents. The host line writes eight
  intermediate arrays (the re-typed shared weights, the experts' weights transposed, flattened and re-typed, and the
  biases and the drug indices given their unit axes) and nothing else; the encoder's region writes its result array, the
  router's region the program's result. So the eight arguments end as they were launched, the gathered head rows stay,
  and each array the host line writes is the printed operations' term of the arguments it reads.
-/
import proofs.«211788_g47691316855323_cont_8to1_c_563_28_alg».proof.Proof.KiSegs
import Idealize.ShloMosaic.Lib.StableHlo.Run

set_option maxRecDepth 16384

noncomputable section

namespace Cert.KiProof

open Cert.KernelIdeal Cert.KernelIdeal.Gen
open Idealize.ShloMosaic Idealize.ShloMosaic.TcCoe
open Idealize.ShloMosaic.SparseCore.Cfg (HIx)
open Idealize.ShloMosaic.Pipeline (Dat Cfg Window)

section Generic

variable {F : FTy → Type} [FloatOps F]
variable (m : (ℓ : Loc nD τ sig) → Buf (Elt F) ℓ)

/-! ## What the host line writes, and what it leaves -/

theorem single_sub_W {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the host line writes. -/
abbrev hostW : List (Ref sig .tc) := [main_v1, main_v2, main_v3, main_v4, main_v5, main_v6, main_v7, main_v8]

theorem hostOps_writes : (hostOps : List (HloOp τ sig (Elt F))).Forall fun op =>
    op.writes ⊆ (hostW.map (Proc.devRef (τ := τ) .tc)).toFinset :=
  ⟨single_sub_W (by decide), single_sub_W (by decide), single_sub_W (by decide), single_sub_W (by decide),
    single_sub_W (by decide), single_sub_W (by decide), single_sub_W (by decide), single_sub_W (by decide)⟩

/-- A reference the host line does not write holds after it what it held before. -/
theorem B1_of_not_written (c : Dev nD) {r : Ref sig .tc} (hr : r ∉ hostW) : B1 m c r = W0 m c (Proc.devRef .tc r) :=
  StableHlo.after_of_writes_sub hostOps (W0 m c) hostOps_writes hr

/-- Before the host line every reference but the call's result holds the launch contents. -/
theorem W0_of_ne (c : Dev nD) {r : Ref sig .tc} (hr : r ≠ main_v0) :
    W0 m c (Proc.devRef .tc r) = m ((c : Thread nD τ).loc r) :=
  Function.update_of_ne (StableHlo.devRef_ne_of_ne hr) _ _

theorem W0_v0 (c : Dev nD) : W0 m c (Proc.devRef .tc main_v0) = gathered m c := Function.update_self ..

theorem B3_of_ne' (c : Dev nD) {b : Ref sig .tc} (h : b ≠ main_v10) : B3 m c b = B2 m c b := Function.update_of_ne h _ _
theorem B3_v10' (c : Dev nD) : B3 m c main_v10 = (dat2 (B2 m) c).arrAt 6 cfg2.N := Function.update_self ..

/-- A reference that neither the host line nor a region writes ends at the launch contents. -/
theorem B3_of_untouched (c : Dev nD) {r : Ref sig .tc} (h10 : r ≠ main_v10) (h9 : r ≠ main_v9) (hW : r ∉ hostW) (h0 : r ≠ main_v0) :
    B3 m c r = m ((c : Thread nD τ).loc r) :=
  (B3_of_ne' m c h10).trans ((B2_of_ne m c h9).trans ((B1_of_not_written m c hW).trans (W0_of_ne m c h0)))

/-! ## The arguments end unchanged -/

theorem B3_arg0 (c : Dev nD) : B3 m c main_arg0 = m ((c : Thread nD τ).loc main_arg0) :=
  B3_of_untouched m c (by decide) (by decide) (by decide) (by decide)
theorem B3_arg1 (c : Dev nD) : B3 m c main_arg1 = m ((c : Thread nD τ).loc main_arg1) :=
  B3_of_untouched m c (by decide) (by decide) (by decide) (by decide)
theorem B3_arg2 (c : Dev nD) : B3 m c main_arg2 = m ((c : Thread nD τ).loc main_arg2) :=
  B3_of_untouched m c (by decide) (by decide) (by decide) (by decide)
theorem B3_arg3 (c : Dev nD) : B3 m c main_arg3 = m ((c : Thread nD τ).loc main_arg3) :=
  B3_of_untouched m c (by decide) (by decide) (by decide) (by decide)
theorem B3_arg4 (c : Dev nD) : B3 m c main_arg4 = m ((c : Thread nD τ).loc main_arg4) :=
  B3_of_untouched m c (by decide) (by decide) (by decide) (by decide)
theorem B3_arg5 (c : Dev nD) : B3 m c main_arg5 = m ((c : Thread nD τ).loc main_arg5) :=
  B3_of_untouched m c (by decide) (by decide) (by decide) (by decide)
theorem B3_arg6 (c : Dev nD) : B3 m c main_arg6 = m ((c : Thread nD τ).loc main_arg6) :=
  B3_of_untouched m c (by decide) (by decide) (by decide) (by decide)
theorem B3_arg7 (c : Dev nD) : B3 m c main_arg7 = m ((c : Thread nD τ).loc main_arg7) :=
  B3_of_untouched m c (by decide) (by decide) (by decide) (by decide)

/-- The call's result ends at the gathered rows. -/
theorem B3_v0 (c : Dev nD) : B3 m c main_v0 = gathered m c :=
  (B3_of_ne' m c (by decide)).trans ((B2_of_ne m c (by decide)).trans ((B1_of_not_written m c (by decide)).trans (W0_v0 m c)))

/-! ## What the encoder's region finds: the host line's results as terms of the launch contents -/

theorem B1_arg0 (c : Dev nD) : B1 m c main_arg0 = m ((c : Thread nD τ).loc main_arg0) :=
  (B1_of_not_written m c (by decide)).trans (W0_of_ne m c (by decide))
theorem B1_v0 (c : Dev nD) : B1 m c main_v0 = gathered m c :=
  (B1_of_not_written m c (by decide)).trans (W0_v0 m c)

theorem B1_v1 (c : Dev nD) : B1 m c main_v1 = truncf .bf16 (m ((c : Thread nD τ).loc main_arg2)) bitsLt_bf16_f32 := by
  show StableHlo.after hostOps (W0 m c) (Proc.devRef .tc main_v1) = _
  after_results
  rw [W0_of_ne m c (by decide)]

theorem B1_v4 (c : Dev nD) : B1 m c main_v4
    = truncf .bf16 (shapeCast S256x2048 (transpose S256x16x128 [1, 0, 2] (m ((c : Thread nD τ).loc main_arg4))
        transposes_S16x256x128_S256x16x128_1_0_2) shapeCasts_S256x16x128_S256x2048) bitsLt_bf16_f32 := by
  show StableHlo.after hostOps (W0 m c) (Proc.devRef .tc main_v4) = _
  after_results
  rw [W0_of_ne m c (by decide)]
  rfl

theorem B1_v5 (c : Dev nD) : B1 m c main_v5 = shapeCast S1x2048 (m ((c : Thread nD τ).loc main_arg5)) shapeCasts_S16x128_S1x2048 := by
  show StableHlo.after hostOps (W0 m c) (Proc.devRef .tc main_v5) = _
  after_results
  rw [W0_of_ne m c (by decide)]
  rfl

theorem B1_v6 (c : Dev nD) : B1 m c main_v6 = shapeCast S4096x1 (m ((c : Thread nD τ).loc main_arg1)) shapeCasts_S4096_S4096x1 := by
  show StableHlo.after hostOps (W0 m c) (Proc.devRef .tc main_v6) = _
  after_results
  rw [W0_of_ne m c (by decide)]
  rfl

theorem B1_v7 (c : Dev nD) : B1 m c main_v7 = shapeCast S1x256 (m ((c : Thread nD τ).loc main_arg3)) shapeCasts_S256_S1x256 := by
  show StableHlo.after hostOps (W0 m c) (Proc.devRef .tc main_v7) = _
  after_results
  rw [W0_of_ne m c (by decide)]
  rfl

theorem B1_v8 (c : Dev nD) : B1 m c main_v8 = shapeCast S64x1 (m ((c : Thread nD τ).loc main_arg7)) shapeCasts_S64_S64x1 := by
  show StableHlo.after hostOps (W0 m c) (Proc.devRef .tc main_v8) = _
  after_results
  rw [W0_of_ne m c (by decide)]
  rfl

end Generic

end Cert.KiProof

end
-- ==== Proof.ValMatmul.lean ====
/-
  A matrix product into a zero accumulator, read at an index of the result: at the extended reals the product of an
  m×k matrix by a k×n matrix at (a, b) is the sum over the contracted coordinate c of A(a, c) · B(c, b), whatever
  the formats of the operands. Stated for any record of dimension numbers that contracts axis 1 of the left operand
  with axis 0 of the right one and has no batch axis, so that it applies to each product of the two bodies.
-/
import Idealize.ShloMosaic.Lib.ValueLayout
import Idealize.ShloMosaic.PureOps.Ideal.Laws

noncomputable section

namespace Cert.KernelValue

open Idealize.ShloMosaic Idealize.ShloMosaic.ValueIdx

/-- The product of an m×k by a k×n matrix into the zero splat, at (a, b): the sum over c of A(a, c) · B(c, b). -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B
        (constant (F := Ideal) ⟨2, ![m, n]⟩ .f32 0x00000000#32) (ix2 a b)
      = ∑ c : Fin k, A (ix2 a c) * B (ix2 c b) := by
  show FloatOps.matmul _ none A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelValue

end
-- ==== Proof.ValEnc.lean ====
/-
  The shared encoder's stored block, read at an index. For a block of 1024 samples the body computes
  max (x · W_shared + b_shared) 0: at row p and hidden unit q that is the maximum with zero of the sum over the 2048
  input features j of x(p, j) · W(j, q), plus the bias b(0, q). The roundings to the narrower format on the way in
  and out are the identity on the extended reals, the product accumulates into a zero splat, and the bias row is
  broadcast over the rows.
-/
import proofs.«211788_g47691316855323_cont_8to1_c_563_28_alg».proof.Proof.Gen.KernelIdeal.Skeleton
import proofs.«211788_g47691316855323_cont_8to1_c_563_28_alg».proof.Proof.ValMatmul

noncomputable section

namespace Cert.KernelValue

open Idealize.ShloMosaic Idealize.ShloMosaic.ValueIdx Cert.KernelIdeal Cert.KernelIdeal.Gen

/-- The encoder's stored value at (p, q): max (Σ_j x(p, j) · W(j, q) + b(0, q)) 0. -/
theorem enc_pay (v0 : Vec Ideal S1024x2048 .f32) (v2 : Vec Ideal S2048x256 .bf16) (v5 : Vec Ideal S1x256 .f32)
    (p : Fin 1024) (q : Fin 256) :
    k1_pay1 (F := Ideal) v0 v2 v5 (ix2 p q)
      = max (∑ j : Fin 2048, v0 (ix2 p j) * v2 (ix2 j q) + v5 (ix2 (0 : Fin 1) q)) 0 := by
  unfold k1_pay1
  show max (matmul dot_S1024x2048_S2048x256_S1024x256_1_0_0_1_n_n none (truncf .bf16 v0 bitsLt_bf16_f32)
        (shapeCast S2048x256 v2 shapeCasts_S2048x256_S2048x256) (constant (F := Ideal) S1024x256 .f32 0x00000000#32) (ix2 p q)
      + broadcastTo S1024x256 (shapeCast S1x256 v5 shapeCasts_S1x256_S1x256) broadcasts_S1x256_S1024x256 (ix2 p q))
      (Ideal.ofBits .f32 0x00000000#32) = _
  rw [shapeCast_self, shapeCast_self, broadcastTo_1b_ab_apply, Ideal.ofBits_zero_f32]
  refine congrArg (fun t => max (t + v5 (ix2 (0 : Fin 1) q)) 0) ?_
  exact matmul_zero_apply dot_S1024x2048_S2048x256_S1024x256_1_0_0_1_n_n_wf (truncf .bf16 v0 bitsLt_bf16_f32) v2 p q

end Cert.KernelValue

end
-- ==== Proof.ValInt.lean ====
/-
  The integer pieces of the router's body, as functions of one 32-bit word.

  The flooring remainder and the floor division are the truncating remainder and quotient followed by a sign fix-up
  (add the divisor to the remainder, or subtract one from the quotient, when the signs of dividend and divisor differ
  and the remainder is not zero). On the words that occur here nothing is negative, so the fix-ups never fire: for a drug index w below 64
  the remainder modulo 16 is the word of w mod 16, and for a column c below 2048 the quotient by 128 is the word of
  c / 128. Both are checked by evaluating the finitely many cases. A comparison of two small words is the comparison
  of the numbers, and the one-hot entry "w = j", widened and converted to a float, is 1 or 0.
-/
import Idealize.ShloMosaic.Lib.ValueIdx

noncomputable section

namespace Cert.KernelValue

open Idealize.ShloMosaic Idealize.ShloMosaic.ValueIdx

/-- The remainder's divisor as the body writes it: 16, guarded against being 0. -/
def modulus : BitVec 32 := Scalar.select (Scalar.cmpi .eq 16#32 0#32) 1#32 16#32

/-- The body's remainder modulo 16 of a word: the truncating remainder, plus 16 when it is not zero and its sign
    differs from the divisor's. -/
def floorMod16 (w : BitVec 32) : BitVec 32 :=
  Scalar.select
    (IntOp.andi (IntOp.xori (IntOp.cmpi .slt (IntOp.remsi .vector w modulus) 0#32) (Scalar.cmpi .slt modulus 0#32))
      (IntOp.cmpi .ne (IntOp.remsi .vector w modulus) 0#32))
    (IntOp.addi (IntOp.remsi .vector w modulus) modulus)
    (IntOp.remsi .vector w modulus)

/-- On the 64 words below 64 it is the number's remainder modulo 16. -/
theorem floorMod16_ofNat : ∀ n : Fin 64, floorMod16 (BitVec.ofNat 32 n.val) = BitVec.ofNat 32 (n.val % 16) := by
  decide +kernel

/-- A word below 64 has the word of its value modulo 16 as its remainder. -/
theorem floorMod16_of_lt (w : BitVec 32) (h : w.toNat < 64) : floorMod16 w = BitVec.ofNat 32 (w.toNat % 16) := by
  have e : BitVec.ofNat 32 w.toNat = w := by simp
  have := floorMod16_ofNat ⟨w.toNat, h⟩
  rwa [e] at this

/-- The body's floor division of a word x by the word y (whose sign is read off d): the truncating quotient, minus
    one when the signs of x and d differ and the remainder of x by d is not zero. -/
def floorDiv (x d y : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x y) 1#32)
    (IntOp.divsi .vector x y)

/-- On the 2048 column numbers the floor division by 128 is the number's quotient. -/
theorem floorDiv_ofNat : ∀ c : Fin 2048,
    floorDiv (BitVec.ofNat 32 c.val) 128#32 128#32 = BitVec.ofNat 32 (c.val / 128) := by
  decide +kernel

/-- A select on the equality of two words of small numbers is the `if` on the numbers. -/
theorem select_cmpi_eq_ofNat {α : Type} (a b : Nat) (ha : a < 2 ^ 32) (hb : b < 2 ^ 32) (X Y : α) :
    Scalar.select (IntOp.cmpi .eq (BitVec.ofNat 32 a) (BitVec.ofNat 32 b)) X Y = if a = b then X else Y := by
  by_cases h : a = b
  · subst h
    rw [if_pos rfl]
    have : IntOp.cmpi .eq (BitVec.ofNat 32 a) (BitVec.ofNat 32 a) = 1#1 := by simp [IntOp.cmpi]
    rw [this, select_one]
  · rw [if_neg h]
    have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    have : IntOp.cmpi .eq (BitVec.ofNat 32 a) (BitVec.ofNat 32 b) = 0#1 := by
      show BitVec.ofBool (BitVec.ofNat 32 a == BitVec.ofNat 32 b) = 0#1
      rw [beq_false_of_ne hne]; rfl
    rw [this, select_zero]

/-- The one-hot entry: "the word w equals the word of j", widened to 32 bits and converted to a float, is 1 where
    w's value is j and 0 elsewhere. -/
theorem onehot_entry (w : BitVec 32) (j : Nat) (hj : j < 2 ^ 32) :
    (FloatOps.sitofp (F := Ideal) .f32 ((IntOp.cmpi .eq w (BitVec.ofNat 32 j)).setWidth 32) : EReal)
      = if w.toNat = j then 1 else 0 := by
  show ((((IntOp.cmpi .eq w (BitVec.ofNat 32 j)).setWidth 32).toInt : ℝ) : EReal) = _
  by_cases h : w.toNat = j
  · rw [if_pos h]
    have e : BitVec.ofNat 32 j = w := by rw [← h]; simp
    have : IntOp.cmpi .eq w (BitVec.ofNat 32 j) = 1#1 := by rw [e]; simp [IntOp.cmpi]
    rw [this]
    have : ((1#1 : BitVec 1).setWidth 32).toInt = 1 := by decide
    rw [this]; simp
  · rw [if_neg h]
    have hne : w ≠ BitVec.ofNat 32 j := by
      intro e
      apply h
      rw [e, BitVec.toNat_ofNat, Nat.mod_eq_of_lt hj]
    have : IntOp.cmpi .eq w (BitVec.ofNat 32 j) = 0#1 := by
      show BitVec.ofBool (w == BitVec.ofNat 32 j) = 0#1
      rw [beq_false_of_ne hne]; rfl
    rw [this]
    have : ((0#1 : BitVec 1).setWidth 32).toInt = 0 := by decide
    rw [this]; simp

end Cert.KernelValue

end
-- ==== Proof.ValShape.lean ====
/-
  Layout operations of the router's body read at an index given by coordinates: the casts between a column [a, 1]
  and a vector [a] (the same row-major position), a column broadcast along the rows' second axis, the sum of a matrix
  over its second axis as the sum over the column number, a tile of 16 copies of one [a, 128] block side by side
  (column c reads the block's column c mod 128), and a sum over 2048 columns that vanishes off one block of 128
  consecutive columns as the sum over that block.
-/
import Idealize.ShloMosaic.Lib.ValueLayout
import Idealize.ShloMosaic.PureOps.Ideal.Laws

noncomputable section

namespace Cert.KernelValue

open Idealize.ShloMosaic Idealize.ShloMosaic.ValueIdx

variable {α : Type}

/-- A column [a, 1] cast to a vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to a column [a, 1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] broadcast to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix over its second axis, at row r, is the sum over the column number. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext ax
  apply Fin.ext
  match ax with
  | ⟨0, _⟩ => rfl
  | ⟨1, _⟩ => rfl

/-- Sixteen copies of one [a, 128] block side by side, read at (r, c): the block at (r, c mod 128). -/
theorem tile16_apply {a : ℕ} (x : (⟨2, ![a, 128]⟩ : Shape).Idx → α)
    (h : Shape.Concatenates ((List.replicate 16 (⟨⟨2, ![a, 128]⟩, x⟩ : (s : Shape) × (s.Idx → α))).map (·.1))
      ⟨2, ![a, 2048]⟩ 1)
    (r : Fin a) (c : Fin 2048) :
    concatenate ⟨2, ![a, 2048]⟩ 1 (List.replicate 16 (⟨⟨2, ![a, 128]⟩, x⟩ : (s : Shape) × (s.Idx → α))) h (ix2 r c)
      = x (ix2 r (⟨c.val % 128, Nat.mod_lt _ (by norm_num)⟩ : Fin 128)) := by
  refine concatenate_replicate_apply (t := ⟨2, ![a, 2048]⟩) (s₁ := ⟨2, ![a, 128]⟩) (1 : Fin 2) 16 x h rfl (ix2 r c)
    (ix2 r (⟨c.val % 128, Nat.mod_lt _ (by norm_num)⟩ : Fin 128)) rfl fun b hb => ?_
  match b with
  | ⟨0, _⟩ => rfl
  | ⟨1, _⟩ => exact absurd rfl hb

/-- Column k of block p among sixteen blocks of 128 columns. -/
def blockCol (p : Fin 16) (k : Fin 128) : Fin 2048 := ⟨p.val * 128 + k.val, by have := p.isLt; have := k.isLt; omega⟩

/-- The column of lane k in the block of the pathway a drug word w selects (w's value modulo 16). -/
def col (w : BitVec 32) (k : Fin 128) : Fin 2048 :=
  ⟨(w.toNat % 16) * 128 + k.val, by have := Nat.mod_lt w.toNat (show 0 < 16 by norm_num); have := k.isLt; omega⟩

/-- It is column k of block (w mod 16). -/
theorem col_eq_blockCol (w : BitVec 32) (k : Fin 128) :
    col w k = blockCol ⟨w.toNat % 16, Nat.mod_lt _ (by norm_num)⟩ k := rfl

/-- A sum over the 2048 columns of a function that vanishes off block p is the sum over that block's 128 columns. -/
theorem sum_block {M : Type*} [AddCommMonoid M] (f : Fin 2048 → M) (p : Fin 16)
    (hf : ∀ c : Fin 2048, c.val / 128 ≠ p.val → f c = 0) :
    ∑ c : Fin 2048, f c = ∑ k : Fin 128, f (blockCol p k) := by
  symm
  refine Finset.sum_of_injOn (blockCol p) ?_ (fun _ _ => Finset.mem_coe.2 (Finset.mem_univ _)) ?_ (fun _ _ => rfl)
  · intro k _ k' _ e
    have := congrArg Fin.val e
    exact Fin.ext (by simp only [blockCol] at this; omega)
  · intro c _ hc
    refine hf c fun e => hc ?_
    refine ⟨⟨c.val % 128, Nat.mod_lt _ (by norm_num)⟩, Finset.mem_coe.2 (Finset.mem_univ _), Fin.ext ?_⟩
    show p.val * 128 + c.val % 128 = c.val
    have := Nat.div_add_mod c.val 128
    omega

end Cert.KernelValue

end
-- ==== Proof.ValRouteRow.lean ====
/-
  The router's stored row sums over generic operands. For a block of 512 samples the body multiplies the activations
  a (512 × 2048: all sixteen experts side by side) by a mask that keeps, in row r, the columns c whose block number
  c / 128 equals the row's pathway word, with the gathered drug-head row tiled sixteen times underneath; sums each row;
  and adds the one-hot bias column. Read at row r this is
      Σ_c a(r, c) · (if floorDiv(c) = pw(r) then wd(r, c mod 128) else 0)  +  bd(r),
  with the integer pieces still as the words the body computes.
-/
import proofs.«211788_g47691316855323_cont_8to1_c_563_28_alg».proof.Proof.Gen.KernelIdeal.Skeleton
import proofs.«211788_g47691316855323_cont_8to1_c_563_28_alg».proof.Proof.ValInt
import proofs.«211788_g47691316855323_cont_8to1_c_563_28_alg».proof.Proof.ValShape

noncomputable section

namespace Cert.KernelValue

open Idealize.ShloMosaic Idealize.ShloMosaic.ValueIdx Cert.KernelIdeal Cert.KernelIdeal.Gen

/-- The stored row sum at row r, over any activations, pathway words, bias column, column numbers and divisor. -/
theorem route_row (v10 : FVec Ideal S512x2048 .f32) (v28 : IVec S512x1 32) (v36 : FVec Ideal S512x1 .f32)
    (v37 : IVec S512x2048 32) (c128 : BitVec 32) (v38 : IVec S512x2048 32) (v62 : Vec Ideal S512x128 .f32)
    (r : Fin 512) :
    k2_pay1 (F := Ideal) v10 v28 v36 v37 c128 v38 v62 (ix1 r)
      = (∑ c : Fin 2048, v10 (ix2 r c) *
            Scalar.select (IntOp.cmpi .eq (floorDiv (v37 (ix2 r c)) c128 (v38 (ix2 r c))) (v28 (ix2 r (0 : Fin 1))))
              (v62 (ix2 r (⟨c.val % 128, Nat.mod_lt _ (by norm_num)⟩ : Fin 128))) (0 : EReal))
        + v36 (ix2 r (0 : Fin 1)) := by
  unfold k2_pay1
  refine (shapeCast_a1_a_apply _ shapeCasts_S512x1_S512 r).trans ?_
  refine (addf_apply _ _ _).trans ?_
  refine congrArg (fun t => t + v36 (ix2 r (0 : Fin 1))) ?_
  refine (shapeCast_a_a1_apply _ shapeCasts_S512_S512x1 r 0).trans ?_
  refine (rowSum_apply _ reduces_S512x2048_S512 (.inl rfl) rfl r).trans ?_
  refine Finset.sum_congr rfl fun c _ => ?_
  refine (mulf_apply _ _ _).trans ?_
  refine congrArg (fun t => v10 (ix2 r c) * t) ?_
  refine (select_apply _ _ _ _).trans ?_
  refine congr (congr (congrArg Scalar.select ?_) ?_) ?_
  · refine (congr (congrArg (IntOp.cmpi .eq) ?_) ?_ : IntOp.cmpi .eq _ _ = IntOp.cmpi .eq _ _)
    · rfl
    · exact broadcastTo_a1_ab_apply v28 broadcasts_S512x1_S512x2048 r c
  · refine (tile16_apply (shapeCast S512x128 v62 shapeCasts_S512x128_S512x128) _ r c).trans ?_
    exact congrFun (shapeCast_self v62 shapeCasts_S512x128_S512x128) _
  · exact Ideal.ofBits_zero_f32

end Cert.KernelValue

end
-- ==== Proof.ValRouteParts.lean ====
/-
  The router's operands, each read at an index of its block.
  • The activations a = max (h · W_pw + b_pw) 0, all sixteen experts side by side: at (r, c) the maximum with zero of
    the sum over the 256 hidden units d of h(r, d) · W(d, c), plus the bias b(0, c).
  • The pathway word of row r: the body's remainder modulo 16 of the row's drug word.
  • The bias column: the one-hot row "drug word = j" (j over the 64 rows of the drug head) times the bias column, which
    for a drug word below 64 is the bias of that row (1 · y = y and 0 · y = 0 on all of the extended reals).
  • The column-number operand: at (r, c) the word of c.
-/
import proofs.«211788_g47691316855323_cont_8to1_c_563_28_alg».proof.Proof.Gen.KernelIdeal.Skeleton
import proofs.«211788_g47691316855323_cont_8to1_c_563_28_alg».proof.Proof.ValMatmul
import proofs.«211788_g47691316855323_cont_8to1_c_563_28_alg».proof.Proof.ValInt
import proofs.«211788_g47691316855323_cont_8to1_c_563_28_alg».proof.Proof.ValShape

noncomputable section

namespace Cert.KernelValue

open Idealize.ShloMosaic Idealize.ShloMosaic.ValueIdx Cert.KernelIdeal Cert.KernelIdeal.Gen

/-- The activations at (r, c): max (Σ_d h(r, d) · W(d, c) + b(0, c)) 0. -/
theorem route_act (v0 : Vec Ideal S512x256 .bf16) (v2 : Vec Ideal S256x2048 .bf16) (v5 : Vec Ideal S1x2048 .f32)
    (r : Fin 512) (c : Fin 2048) :
    k2_pay2 (F := Ideal) v0 v2 v5 (ix2 r c)
      = max (∑ d : Fin 256, v0 (ix2 r d) * v2 (ix2 d c) + v5 (ix2 (0 : Fin 1) c)) 0 := by
  unfold k2_pay2
  show max (matmul dot_S512x256_S256x2048_S512x2048_1_0_0_1_n_n none (shapeCast S512x256 v0 shapeCasts_S512x256_S512x256)
        (shapeCast S256x2048 v2 shapeCasts_S256x2048_S256x2048) (constant (F := Ideal) S512x2048 .f32 0x00000000#32) (ix2 r c)
      + broadcastTo S512x2048 (shapeCast S1x2048 v5 shapeCasts_S1x2048_S1x2048) broadcasts_S1x2048_S512x2048 (ix2 r c))
      (Ideal.ofBits .f32 0x00000000#32) = _
  rw [shapeCast_self, shapeCast_self, shapeCast_self, broadcastTo_1b_ab_apply, Ideal.ofBits_zero_f32]
  refine congrArg (fun t => max (t + v5 (ix2 (0 : Fin 1) c)) 0) ?_
  exact matmul_zero_apply dot_S512x256_S256x2048_S512x2048_1_0_0_1_n_n_wf v0 v2 r c

/-- The pathway word of row r: the body's remainder modulo 16 of the row's drug word. -/
theorem route_pw (v11 : Vec Ideal S512x1 .i32) (r : Fin 512) :
    k2_pay4 (F := Ideal) v11 (ix2 r (0 : Fin 1)) = floorMod16 (v11 (ix2 r (0 : Fin 1))) := by
  unfold k2_pay4 k2_pay3
  show floorMod16 (shapeCast S512x1 v11 shapeCasts_S512x1_S512x1 (ix2 r (0 : Fin 1))) = _
  rw [shapeCast_self]

/-- The bias column at row r, for a drug word below 64: the bias of the row the word names. -/
theorem route_bias (v11 : Vec Ideal S512x1 .i32) (v34 : Vec Ideal S64x1 .f32) (r : Fin 512)
    (hr : (v11 (ix2 r (0 : Fin 1))).toNat < 64) :
    k2_pay5 (F := Ideal) v11 v34 (ix2 r (0 : Fin 1))
      = v34 (ix2 (⟨(v11 (ix2 r (0 : Fin 1))).toNat % 64, Nat.mod_lt _ (by norm_num)⟩ : Fin 64) (0 : Fin 1)) := by
  unfold k2_pay5 k2_pay3
  refine (matmul_zero_apply dot_S512x64_S64x1_S512x1_1_0_0_1_n_n_wf _ _ r 0).trans ?_
  refine (Finset.sum_congr rfl fun j _ => ?_ :
    _ = ∑ j : Fin 64, (if (v11 (ix2 r (0 : Fin 1))).toNat = j.val then (1 : EReal) else 0) * v34 (ix2 j (0 : Fin 1))).trans ?_
  · refine congr (congrArg HMul.hMul ?_) ?_
    · show FloatOps.sitofp (F := Ideal) .f32
          ((IntOp.cmpi .eq (broadcastTo S512x64 (shapeCast S512x1 v11 shapeCasts_S512x1_S512x1) broadcasts_S512x1_S512x64 (ix2 r j))
            (iota .tc S512x64 32 [1] iota_S512x64_d1_w32 (ix2 r j))).setWidth 32) = _
      rw [broadcastTo_a1_ab_apply, shapeCast_self, iota_single_apply]
      exact onehot_entry _ j.val (by have := j.isLt; omega)
    · exact congrFun (shapeCast_self v34 shapeCasts_S64x1_S64x1) _
  · rw [Finset.sum_eq_single (⟨(v11 (ix2 r (0 : Fin 1))).toNat, hr⟩ : Fin 64)]
    · rw [if_pos rfl, one_mul]
      have e : (⟨(v11 (ix2 r (0 : Fin 1))).toNat, hr⟩ : Fin 64)
          = ⟨(v11 (ix2 r (0 : Fin 1))).toNat % 64, Nat.mod_lt _ (by norm_num)⟩ := Fin.ext (Nat.mod_eq_of_lt hr).symm
      rw [e]
    · intro j _ hj
      rw [if_neg (fun e => hj (Fin.ext e.symm)), zero_mul]
    · intro h
      exact absurd (Finset.mem_univ _) h

/-- The column-number operand at (r, c): the word of c. -/
theorem route_iota (r : Fin 512) (c : Fin 2048) :
    iota .tc S512x2048 32 [1] iota_S512x2048_d1_w32 (ix2 r c) = BitVec.ofNat 32 c.val :=
  iota_single_apply _ _ _ _ _ _

end Cert.KernelValue

end
-- ==== Proof.ValRoute.lean ====
/-
  The router's stored row sum at row r, from the block's loads. With w the row's drug word (below 64), p = w mod 16
  its pathway and a, wd, bias as in the body:
      Σ_{c < 2048} a(r, c) · (if c / 128 = p then wd(r, c mod 128) else 0)  +  bias(w)
    = Σ_{k < 128} a(r, p · 128 + k) · wd(r, k)  +  bias(w).
  The terms off the pathway's block of 128 columns are a(r, c) · 0 = 0, which holds on all of the extended reals, so
  the sum over the 2048 columns is the sum over that block; no finiteness is needed.
-/
import proofs.«211788_g47691316855323_cont_8to1_c_563_28_alg».proof.Proof.ValRouteRow
import proofs.«211788_g47691316855323_cont_8to1_c_563_28_alg».proof.Proof.ValRouteParts

noncomputable section

namespace Cert.KernelValue

open Idealize.ShloMosaic Idealize.ShloMosaic.ValueIdx Cert.KernelIdeal Cert.KernelIdeal.Gen

/-- One masked term of the row sum: the activation times the gathered row's entry on the pathway's block, zero off it. -/
theorem route_term (v0 : Vec Ideal S512x256 .bf16) (v2 : Vec Ideal S256x2048 .bf16) (v5 : Vec Ideal S1x2048 .f32)
    (v11 : Vec Ideal S512x1 .i32) (v62 : Vec Ideal S512x128 .f32) (r : Fin 512)
    (hr : (v11 (ix2 r (0 : Fin 1))).toNat < 64) (c : Fin 2048) :
    k2_pay2 (F := Ideal) v0 v2 v5 (ix2 r c) *
        Scalar.select (IntOp.cmpi .eq
            (floorDiv (iota .tc S512x2048 32 [1] iota_S512x2048_d1_w32 (ix2 r c)) 128#32 (k2_pay6 (ix2 r c)))
            (k2_pay4 (F := Ideal) v11 (ix2 r (0 : Fin 1))))
          (v62 (ix2 r (⟨c.val % 128, Nat.mod_lt _ (by norm_num)⟩ : Fin 128))) (0 : EReal)
      = if c.val / 128 = (v11 (ix2 r (0 : Fin 1))).toNat % 16 then
          max (∑ d : Fin 256, v0 (ix2 r d) * v2 (ix2 d c) + v5 (ix2 (0 : Fin 1) c)) 0
            * v62 (ix2 r (⟨c.val % 128, Nat.mod_lt _ (by norm_num)⟩ : Fin 128))
        else 0 := by
  have h6 : k2_pay6 (ix2 r c) = 128#32 := rfl
  rw [route_iota, h6, floorDiv_ofNat c, route_pw, floorMod16_of_lt _ hr,
    select_cmpi_eq_ofNat _ _ (by have := c.isLt; omega) (by omega), route_act, mul_ite, mul_zero]

/-- The router's stored value at row r. -/
theorem route_pay (v0 : Vec Ideal S512x256 .bf16) (v2 : Vec Ideal S256x2048 .bf16) (v5 : Vec Ideal S1x2048 .f32)
    (v11 : Vec Ideal S512x1 .i32) (v34 : Vec Ideal S64x1 .f32) (v62 : Vec Ideal S512x128 .f32) (r : Fin 512)
    (hr : (v11 (ix2 r (0 : Fin 1))).toNat < 64) :
    k2_pay1 (F := Ideal) (k2_pay2 v0 v2 v5) (k2_pay4 v11) (k2_pay5 v11 v34)
        (iota .tc S512x2048 32 [1] iota_S512x2048_d1_w32) 128#32 k2_pay6 v62 (ix1 r)
      = ∑ k : Fin 128, max (∑ d : Fin 256, v0 (ix2 r d) * v2 (ix2 d (col (v11 (ix2 r 0)) k))
            + v5 (ix2 (0 : Fin 1) (col (v11 (ix2 r 0)) k))) 0 * v62 (ix2 r k)
          + v34 (ix2 (⟨(v11 (ix2 r 0)).toNat % 64, Nat.mod_lt _ (by norm_num)⟩ : Fin 64) (0 : Fin 1)) := by
  refine (route_row _ _ _ _ _ _ _ r).trans ?_
  rw [route_bias v11 v34 r hr]
  refine congrArg (fun t => t + v34 (ix2 (⟨(v11 (ix2 r 0)).toNat % 64, Nat.mod_lt _ (by norm_num)⟩ : Fin 64) (0 : Fin 1))) ?_
  rw [Finset.sum_congr rfl fun c _ => route_term v0 v2 v5 v11 v62 r hr c,
    sum_block _ (⟨(v11 (ix2 r (0 : Fin 1))).toNat % 16, Nat.mod_lt _ (by norm_num)⟩ : Fin 16) (fun c hc => if_neg hc)]
  refine Finset.sum_congr rfl fun k _ => ?_
  have hq : (blockCol (⟨(v11 (ix2 r (0 : Fin 1))).toNat % 16, Nat.mod_lt _ (by norm_num)⟩ : Fin 16) k).val / 128
      = (v11 (ix2 r (0 : Fin 1))).toNat % 16 := by
    show ((v11 (ix2 r (0 : Fin 1))).toNat % 16 * 128 + k.val) / 128 = _
    have := k.isLt; omega
  have hm : (⟨(blockCol (⟨(v11 (ix2 r (0 : Fin 1))).toNat % 16, Nat.mod_lt _ (by norm_num)⟩ : Fin 16) k).val % 128,
      Nat.mod_lt _ (by norm_num)⟩ : Fin 128) = k := by
    apply Fin.ext
    show ((v11 (ix2 r (0 : Fin 1))).toNat % 16 * 128 + k.val) % 128 = k.val
    have := k.isLt; omega
  rw [if_pos hq, hm]
  rfl

end Cert.KernelValue

end
-- ==== Proof.Spec.lean ====
/-
  The function both programs compute, on the extended reals, index by index.

  For a sample `b` with drug index `r = drug b` (a row of the drug head, `0 ≤ r < 64`) and pathway `p = r mod 16`:
    hid b d    = max (Σ_j x(b,j) · W_shared(j,d) + b_shared(d)) 0                    (the shared encoder, 256 wide)
    expert b k = max (Σ_d hid b d · W_pw(p,d,k) + b_pw(p,k)) 0                       (the sample's pathway expert, 128 wide)
    out b      = Σ_k expert b k · W_drug(r,k) + b_drug(r)                            (the sample's drug head)
  The reference gathers the expert's weights per sample; the kernel computes all sixteen experts of a sample at once
  (one product with the experts laid side by side, 2048 wide), keeps the columns of the sample's own pathway by a mask,
  and adds the head's bias through a one-hot product. Both are this function where every drug index names a row.
-/
import Idealize.ShloMosaic.PureOps.Ideal
import Idealize.ShloMosaic.Lib.ValueIdx

noncomputable section

namespace Cert.Spec

open Idealize.ShloMosaic Idealize.ShloMosaic.ValueIdx

/-- The arrays, as functions of an index. -/
abbrev ArrX := (⟨2, ![4096, 2048]⟩ : Shape).Idx → EReal
abbrev ArrDrug := (⟨1, ![4096]⟩ : Shape).Idx → BitVec 32
abbrev ArrWs := (⟨2, ![2048, 256]⟩ : Shape).Idx → EReal
abbrev ArrBs := (⟨1, ![256]⟩ : Shape).Idx → EReal
abbrev ArrWp := (⟨3, ![16, 256, 128]⟩ : Shape).Idx → EReal
abbrev ArrBp := (⟨2, ![16, 128]⟩ : Shape).Idx → EReal
abbrev ArrWd := (⟨2, ![64, 128]⟩ : Shape).Idx → EReal
abbrev ArrBd := (⟨1, ![64]⟩ : Shape).Idx → EReal
abbrev ArrOut := (⟨1, ![4096]⟩ : Shape).Idx → EReal

/-- Every drug index names a row of the drug head: as an unsigned word it is below 64. -/
def InRange (drug : ArrDrug) : Prop := ∀ i, (drug i).toNat < 64

/-- Sample `b`'s row of the drug head (the word itself where it is in range). -/
def row (drug : ArrDrug) (b : Fin 4096) : Fin 64 := ⟨(drug (ix1 b)).toNat % 64, Nat.mod_lt _ (by norm_num)⟩

/-- Sample `b`'s pathway: its drug index modulo the sixteen pathways. -/
def pw (drug : ArrDrug) (b : Fin 4096) : Fin 16 := ⟨(drug (ix1 b)).toNat % 16, Nat.mod_lt _ (by norm_num)⟩

/-- The shared encoder's activation. -/
def hid (x : ArrX) (Ws : ArrWs) (bs : ArrBs) (b : Fin 4096) (d : Fin 256) : EReal :=
  max (∑ j : Fin 2048, x (ix2 b j) * Ws (ix2 j d) + bs (ix1 d)) 0

/-- The activation of the sample's own pathway expert. -/
def expert (x : ArrX) (drug : ArrDrug) (Ws : ArrWs) (bs : ArrBs) (Wp : ArrWp) (bp : ArrBp) (b : Fin 4096) (k : Fin 128) : EReal :=
  max (∑ d : Fin 256, hid x Ws bs b d * Wp (ix3 (pw drug b) d k) + bp (ix2 (pw drug b) k)) 0

/-- The result: the sample's drug head applied to its expert's activation. -/
def out (x : ArrX) (drug : ArrDrug) (Ws : ArrWs) (bs : ArrBs) (Wp : ArrWp) (bp : ArrBp) (Wd : ArrWd) (bd : ArrBd) : ArrOut :=
  fun i => ∑ k : Fin 128, expert x drug Ws bs Wp bp (i 0) k * Wd (ix2 (row drug (i 0)) k) + bd (ix1 (row drug (i 0)))

end Cert.Spec

end
-- ==== Proof.ValOut.lean ====
/-
  The assembly of the pieces into the specification's result. For sample b with drug row r = row(b) and pathway
  p = pw(b), the router's row sum with the encoder's activations hid(b, ·), the experts' weights and biases read at
  block p, the gathered drug-head row W_drug(r, ·) and the bias b_drug(r) is
      Σ_k max (Σ_d hid(b, d) · W_pw(p, d, k) + b_pw(p, k)) 0 · W_drug(r, k) + b_drug(r),
  which is the specification's out(b) by definition.
-/
import proofs.«211788_g47691316855323_cont_8to1_c_563_28_alg».proof.Proof.Spec
import proofs.«211788_g47691316855323_cont_8to1_c_563_28_alg».proof.Proof.ValShape

noncomputable section

namespace Cert.KernelValue

open Idealize.ShloMosaic Idealize.ShloMosaic.ValueIdx

/-- The pieces, written out, are the specification's result at sample b (whatever the drug indices). -/
theorem out_unfold (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd) (b : Fin 4096) :
    (∑ k : Fin 128, max (∑ d : Fin 256, Cert.Spec.hid x Ws bs b d * Wp (ix3 (Cert.Spec.pw drug b) d k)
          + bp (ix2 (Cert.Spec.pw drug b) k)) 0 * Wd (ix2 (Cert.Spec.row drug b) k))
        + bd (ix1 (Cert.Spec.row drug b))
      = Cert.Spec.out x drug Ws bs Wp bp Wd bd (ix1 b) := rfl

/-- The same, in the form used where every drug index names a row of the drug head. -/
theorem out_of_pieces (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd)
    (_h : Cert.Spec.InRange drug) (b : Fin 4096) :
    (∑ k : Fin 128, max (∑ d : Fin 256, Cert.Spec.hid x Ws bs b d * Wp (ix3 (Cert.Spec.pw drug b) d k)
          + bp (ix2 (Cert.Spec.pw drug b) k)) 0 * Wd (ix2 (Cert.Spec.row drug b) k))
        + bd (ix1 (Cert.Spec.row drug b))
      = Cert.Spec.out x drug Ws bs Wp bp Wd bd (ix1 b) := out_unfold x drug Ws bs Wp bp Wd bd b

/-- The router's row sum as a block of any number of rows computes it — over the block's loads v0 (activations), v2 (the experts' weights
    side by side), v5 (their biases in one row), v11 (the drug column), v34 (the head's bias column), v62 (the gathered
    head rows) — is the specification's result at sample b, once each load is known, at the entries the row reads, to
    be the corresponding entry of the whole arrays. -/
theorem route_out (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd) (b : Fin 4096)
    {n : ℕ} (v0 : (⟨2, ![n, 256]⟩ : Shape).Idx → EReal) (v2 : (⟨2, ![256, 2048]⟩ : Shape).Idx → EReal)
    (v5 : (⟨2, ![1, 2048]⟩ : Shape).Idx → EReal) (v11 : (⟨2, ![n, 1]⟩ : Shape).Idx → BitVec 32)
    (v34 : (⟨2, ![64, 1]⟩ : Shape).Idx → EReal) (v62 : (⟨2, ![n, 128]⟩ : Shape).Idx → EReal) (r : Fin n)
    (h0 : ∀ d : Fin 256, v0 (ix2 r d) = Cert.Spec.hid x Ws bs b d)
    (h2 : ∀ (d : Fin 256) (p : Fin 16) (k : Fin 128), v2 (ix2 d (blockCol p k)) = Wp (ix3 p d k))
    (h5 : ∀ (p : Fin 16) (k : Fin 128), v5 (ix2 (0 : Fin 1) (blockCol p k)) = bp (ix2 p k))
    (h11 : v11 (ix2 r (0 : Fin 1)) = drug (ix1 b))
    (h34 : ∀ j : Fin 64, v34 (ix2 j (0 : Fin 1)) = bd (ix1 j))
    (h62 : ∀ k : Fin 128, v62 (ix2 r k) = Wd (ix2 (Cert.Spec.row drug b) k)) :
    (∑ k : Fin 128, max (∑ d : Fin 256, v0 (ix2 r d) * v2 (ix2 d (col (v11 (ix2 r 0)) k))
          + v5 (ix2 (0 : Fin 1) (col (v11 (ix2 r 0)) k))) 0 * v62 (ix2 r k))
        + v34 (ix2 (⟨(v11 (ix2 r 0)).toNat % 64, Nat.mod_lt _ (by norm_num)⟩ : Fin 64) (0 : Fin 1))
      = Cert.Spec.out x drug Ws bs Wp bp Wd bd (ix1 b) := by
  refine Eq.trans ?_ (out_unfold x drug Ws bs Wp bp Wd bd b)
  rw [h11, h34]
  refine congr (congrArg HAdd.hAdd (Finset.sum_congr rfl fun k _ => ?_)) rfl
  rw [h62 k]
  refine congrArg (fun t => max t 0 * Wd (ix2 (Cert.Spec.row drug b) k)) ?_
  have hc : col (drug (ix1 b)) k = blockCol (Cert.Spec.pw drug b) k := rfl
  rw [hc, h5]
  refine congrArg (fun t => t + bp (ix2 (Cert.Spec.pw drug b) k)) (Finset.sum_congr rfl fun d _ => ?_)
  rw [h0 d, h2 d]

end Cert.KernelValue

end
-- ==== Proof.ValAssemble.lean ====
/-
  The two bodies' stored values as the specification's functions. A block of the encoder, whose loads are rows of the
  input, the shared weights and the shared bias as a row, stores hid(b, q); a block of the router, whose loads are rows
  of the encoder's result, the experts' weights side by side, their biases in one row, the drug column, the head's bias
  column and the gathered head rows, stores out(b), for a drug index that names a row of the head.
-/
import proofs.«211788_g47691316855323_cont_8to1_c_563_28_alg».proof.Proof.ValEnc
import proofs.«211788_g47691316855323_cont_8to1_c_563_28_alg».proof.Proof.ValRoute
import proofs.«211788_g47691316855323_cont_8to1_c_563_28_alg».proof.Proof.ValOut

noncomputable section

namespace Cert.KernelValue

open Idealize.ShloMosaic Idealize.ShloMosaic.ValueIdx Cert.KernelIdeal Cert.KernelIdeal.Gen

/-- The encoder's stored value at (p, q) is hid(b, q), when row p of the block is row b of the input, the weights'
    column q is the shared weights' and the bias row holds the shared bias. -/
theorem enc_pay_hid (x : Cert.Spec.ArrX) (Ws : Cert.Spec.ArrWs) (bs : Cert.Spec.ArrBs) (b : Fin 4096)
    (v0 : Vec Ideal S1024x2048 .f32) (v2 : Vec Ideal S2048x256 .bf16) (v5 : Vec Ideal S1x256 .f32)
    (p : Fin 1024) (q : Fin 256)
    (h0 : ∀ j : Fin 2048, v0 (ix2 p j) = x (ix2 b j))
    (h2 : ∀ j : Fin 2048, v2 (ix2 j q) = Ws (ix2 j q))
    (h5 : v5 (ix2 (0 : Fin 1) q) = bs (ix1 q)) :
    k1_pay1 (F := Ideal) v0 v2 v5 (ix2 p q) = Cert.Spec.hid x Ws bs b q := by
  rw [enc_pay, h5]
  unfold Cert.Spec.hid
  refine congrArg (fun t => max (t + bs (ix1 q)) 0) (Finset.sum_congr rfl fun j _ => ?_)
  rw [h0 j, h2 j]

/-- The router's stored value at row r is out(b), when the block's loads are, at the entries row r reads, the
    corresponding entries of the whole arrays, and the drug indices name rows of the head. -/
theorem route_pay_out (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd)
    (hin : Cert.Spec.InRange drug) (b : Fin 4096)
    (v0 : Vec Ideal S512x256 .bf16) (v2 : Vec Ideal S256x2048 .bf16) (v5 : Vec Ideal S1x2048 .f32)
    (v11 : Vec Ideal S512x1 .i32) (v34 : Vec Ideal S64x1 .f32) (v62 : Vec Ideal S512x128 .f32) (r : Fin 512)
    (h0 : ∀ d : Fin 256, v0 (ix2 r d) = Cert.Spec.hid x Ws bs b d)
    (h2 : ∀ (d : Fin 256) (p : Fin 16) (k : Fin 128), v2 (ix2 d (blockCol p k)) = Wp (ix3 p d k))
    (h5 : ∀ (p : Fin 16) (k : Fin 128), v5 (ix2 (0 : Fin 1) (blockCol p k)) = bp (ix2 p k))
    (h11 : v11 (ix2 r (0 : Fin 1)) = drug (ix1 b))
    (h34 : ∀ j : Fin 64, v34 (ix2 j (0 : Fin 1)) = bd (ix1 j))
    (h62 : ∀ k : Fin 128, v62 (ix2 r k) = Wd (ix2 (Cert.Spec.row drug b) k)) :
    k2_pay1 (F := Ideal) (k2_pay2 v0 v2 v5) (k2_pay4 v11) (k2_pay5 v11 v34)
        (iota .tc S512x2048 32 [1] iota_S512x2048_d1_w32) 128#32 k2_pay6 v62 (ix1 r)
      = Cert.Spec.out x drug Ws bs Wp bp Wd bd (ix1 b) :=
  (route_pay v0 v2 v5 v11 v34 v62 r (by rw [h11]; exact hin _)).trans
    (route_out x drug Ws bs Wp bp Wd bd b v0 v2 v5 v11 v34 v62 r h0 h2 h5 h11 h34 h62)

end Cert.KernelValue

end
-- ==== Proof.KiValEnc.lean ====
/-
  The encoder's result array after its pipeline has run, as one function of the arrays the region finds. The grid has
  four points; point t stages rows 1024·t … 1024·t + 1023 of the input, the whole shared weights and the whole bias
  row, and writes back rows 1024·t … of the result. What it writes back is the body's store of those blocks, which at
  row p, hidden unit q is max (Σ_j x(1024·t + p, j) · W(j, q) + b(0, q)) 0: block t of one function of the whole arrays.
  The four blocks of 1024 rows tile the 4096 rows, row r lying in block r / 1024, so the array ends at that function.
-/
import proofs.«211788_g47691316855323_cont_8to1_c_563_28_alg».proof.Proof.KiDats
import proofs.«211788_g47691316855323_cont_8to1_c_563_28_alg».proof.Proof.ValAssemble
import Idealize.ShloMosaic.Lib.Pipeline.Value

set_option maxRecDepth 16384

noncomputable section

namespace Cert.KiProof

open Cert.KernelIdeal Cert.KernelIdeal.Gen Cert.KernelValue
open Idealize.ShloMosaic Idealize.ShloMosaic.TcCoe Idealize.ShloMosaic.ValueIdx
open Idealize.ShloMosaic.SparseCore.Cfg (HIx)
open Idealize.ShloMosaic.Pipeline (Dat Cfg Window)

theorem hz2 : (![0, 0] : Fin 2 → Nat) = fun _ => 0 := funext fun a => by fin_cases a <;> rfl

/-- The encoder body's output buffer at (p, q), from the three staged blocks. -/
theorem encOut_apply (x0 : Vec Ideal S1024x2048 .f32) (x1 : Vec Ideal S2048x256 .bf16) (x2 : Vec Ideal S1x256 .f32)
    (p : Fin 1024) (q : Fin 256) :
    encOut (F := Ideal) x0 x1 x2 (ix2 p q)
      = max (∑ j : Fin 2048, x0 (ix2 p j) * x1 (ix2 j q) + x2 (ix2 (0 : Fin 1) q)) 0 := by
  unfold encOut
  rw [View.canon_unit_zero hz2]
  simp only [View.ld_unit_zero (S := S1024x2048) hz2, View.ld_unit_zero (S := S2048x256) hz2, View.ld_unit_zero (S := S1x256) hz2]
  exact enc_pay x0 x1 x2 p q

/-- The encoder's result as a function of the whole input, shared weights and bias row. -/
def encArr (A : S4096x2048.Idx → EReal) (W : S2048x256.Idx → EReal) (B : S1x256.Idx → EReal) : S4096x256.Idx → EReal :=
  fun i => max (∑ j : Fin 2048, A (ix2 (i 0) j) * W (ix2 j (i 1)) + B (ix2 (0 : Fin 1) (i 1))) 0

/-- That function at an index. -/
theorem encArr_apply (A : S4096x2048.Idx → EReal) (W : S2048x256.Idx → EReal) (B : S1x256.Idx → EReal) (i : S4096x256.Idx) :
    encArr A W B i = max (∑ j : Fin 2048, A (ix2 (i 0) j) * W (ix2 j (i 1)) + B (ix2 (0 : Fin 1) (i 1))) 0 := rfl

/-- The body's output buffer on blocks that are rows k … of the input, the whole weights and the whole bias row is, at
    (p, q), that function at (k + p, q). -/
theorem encOut_eq_encArr (A : S4096x2048.Idx → EReal) (W : S2048x256.Idx → EReal) (B : S1x256.Idx → EReal)
    (x0 : S1024x2048.Idx → EReal) (x1 : S2048x256.Idx → EReal) (x2 : S1x256.Idx → EReal)
    (p : Fin 1024) (q : Fin 256) (k : Fin 4096)
    (h0 : ∀ j : Fin 2048, x0 (ix2 p j) = A (ix2 k j)) (h1 : x1 = W) (h2 : x2 = B) :
    encOut (F := Ideal) x0 x1 x2 (ix2 p q) = encArr A W B (ix2 k q) := by
  rw [encOut_apply, h1, h2, encArr_apply]
  refine congrArg (fun s => max (s + B (ix2 (0 : Fin 1) q)) 0) (Finset.sum_congr rfl fun j _ => ?_)
  exact congrArg (fun s => s * W (ix2 j q)) (h0 j)

variable (Vb : (c : Dev nD) → (b : Ref sig .tc) → Buf (Elt Ideal) ((c : Thread nD τ).loc b))

/-- The block indices over the grid: the input's and the result's blocks move down the rows with the point, the weights
    and the bias stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t is rows 1024·t … of the input. -/
theorem iblk1_0_apply (c : Dev nD) (t : Fin cfg1.N) (p : Fin 1024) (j : Fin 2048) (k : Fin 4096)
    (hk : k.val = t.val * 1024 + p.val) :
    (iblk1 (F := Ideal) Vb c 0 t : S1024x2048.Idx → EReal) (ix2 p j) = (Vb c main_arg0 : S4096x2048.Idx → EReal) (ix2 k j) := by
  obtain ⟨e0, e1, -⟩ := idx1 t
  unfold iblk1
  rw [View.read_apply]
  show (Vb c main_arg0 : S4096x2048.Idx → EReal) _ = _
  congr 1
  funext a
  apply Fin.ext
  match a with
  | ⟨0, _⟩ => show win1_0.index t (0 : Fin 2) * 1024 + 1 * p.val = k.val; rw [e0, hk]; omega
  | ⟨1, _⟩ => show win1_0.index t (1 : Fin 2) * 2048 + 1 * j.val = j.val; rw [e1]; omega

/-- The weights' block at every point is the whole array. -/
theorem iblk1_1_eq (c : Dev nD) (t : Fin cfg1.N) :
    (iblk1 (F := Ideal) Vb c 1 t : S2048x256.Idx → EReal) = (Vb c main_v1 : S2048x256.Idx → EReal) := by
  obtain ⟨-, -, e2, e3, -⟩ := idx1 t
  funext x
  unfold iblk1
  rw [View.read_apply]
  show (Vb c main_v1 : S2048x256.Idx → EReal) _ = _
  congr 1
  funext a
  apply Fin.ext
  match a with
  | ⟨0, _⟩ => show win1_1.index t (0 : Fin 2) * 2048 + 1 * (x 0).val = (x 0).val; rw [e2]; omega
  | ⟨1, _⟩ => show win1_1.index t (1 : Fin 2) * 256 + 1 * (x 1).val = (x 1).val; rw [e3]; omega

/-- The bias row's block at every point is the whole row. -/
theorem iblk1_2_eq (c : Dev nD) (t : Fin cfg1.N) :
    (iblk1 (F := Ideal) Vb c 2 t : S1x256.Idx → EReal) = (Vb c main_v7 : S1x256.Idx → EReal) := by
  obtain ⟨-, -, -, -, e4, e5, -⟩ := idx1 t
  funext x
  unfold iblk1
  rw [View.read_apply]
  show (Vb c main_v7 : S1x256.Idx → EReal) _ = _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 256 + 1 * (x 1).val = (x 1).val; rw [e5]; omega

/-- What point t writes back is block t of the one function of the whole arrays. -/
theorem enc_flushed (c : Dev nD) (t : Fin cfg1.N) :
    (dat1 (F := Ideal) Vb c).flushed 3 t
      = ((cfg1.win 3).blk t).view.read (Elt Ideal) (encArr (Vb c main_arg0) (Vb c main_v1) (Vb c main_v7)) := by
  show (cfg1.win 3).cut (grid1.coords t) ((dat1 Vb c).after 3 t) = _
  rw [after1_3]
  funext j
  have hp : (j 0).val < 1024 := (j 0).isLt
  have hq : (j 1).val < 256 := (j 1).isLt
  have hj : (cfg1.win 3).xinj (grid1.coords t) j = ix2 (⟨(j 0).val, hp⟩ : Fin 1024) (⟨(j 1).val, hq⟩ : Fin 256) := by
    funext a; apply Fin.ext
    match a with
    | ⟨0, _⟩ => rfl
    | ⟨1, _⟩ => rfl
  obtain ⟨-, -, -, -, -, -, e6, e7⟩ := idx1 t
  have hN : cfg1.N = 4 := N_1
  have ht : t.val < 4 := by have := t.isLt; omega
  have he : ((cfg1.win 3).blk t).view.emb j
      = ix2 (⟨t.val * 1024 + (j 0).val, by omega⟩ : Fin 4096) (⟨(j 1).val, hq⟩ : Fin 256) := by
    funext a; apply Fin.ext
    match a with
    | ⟨0, _⟩ => show win1_3.index t (0 : Fin 2) * 1024 + 1 * (j 0).val = t.val * 1024 + (j 0).val; rw [e6]; omega
    | ⟨1, _⟩ => show win1_3.index t (1 : Fin 2) * 256 + 1 * (j 1).val = (j 1).val; rw [e7]; omega
  show encOut (iblk1 Vb c 0 t) (iblk1 Vb c 1 t) (iblk1 Vb c 2 t) ((cfg1.win 3).xinj (grid1.coords t) j)
    = encArr (Vb c main_arg0) (Vb c main_v1) (Vb c main_v7) (((cfg1.win 3).blk t).view.emb j)
  rw [hj, he]
  exact encOut_eq_encArr (Vb c main_arg0) (Vb c main_v1) (Vb c main_v7) (iblk1 Vb c 0 t) (iblk1 Vb c 1 t) (iblk1 Vb c 2 t)
    ⟨(j 0).val, hp⟩ ⟨(j 1).val, hq⟩ ⟨t.val * 1024 + (j 0).val, by omega⟩
    (fun j' => iblk1_0_apply Vb c t ⟨(j 0).val, hp⟩ j' ⟨t.val * 1024 + (j 0).val, by omega⟩ rfl)
    (iblk1_1_eq Vb c t) (iblk1_2_eq Vb c t)

/-- An index of the result is in point t's block iff each coordinate is in the block's range on its axis. -/
theorem mem_blk1_3 (t : Fin cfg1.N) (i : S4096x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v9).slice (win1_3.rect t)).set ↔ _
  rw [View.set_slice_whole, Rect.mem_set_unit]
  exact Iff.rfl

/-- THE ENCODER'S RESULT ARRAY after the run. -/
theorem enc_final (c : Dev nD) :
    (dat1 (F := Ideal) Vb c).arrAt 3 cfg1.N = encArr (Vb c main_arg0) (Vb c main_v1) (Vb c main_v7) :=
  (dat1 (F := Ideal) Vb c).arrAt_eq_of_cover 3 _ (fun t _ => enc_flushed Vb c t) fun i => by
    have hi0 : ((i : S4096x256.Idx) 0).val < 4096 := ((i : S4096x256.Idx) 0).isLt
    have hi1 : ((i : S4096x256.Idx) 1).val < 256 := ((i : S4096x256.Idx) 1).isLt
    have hN : cfg1.N = 4 := N_1
    refine ⟨⟨((i : S4096x256.Idx) 0).val / 1024, by rw [hN]; omega⟩, flush1_3 _, ?_⟩
    obtain ⟨-, -, -, -, -, -, e6, e7⟩ := idx1 ⟨((i : S4096x256.Idx) 0).val / 1024, by rw [hN]; omega⟩
    rw [mem_blk1_3]
    intro a
    match a with
    | ⟨0, _⟩ =>
      show win1_3.index _ (0 : Fin 2) * 1024 ≤ ((i : S4096x256.Idx) 0).val
        ∧ ((i : S4096x256.Idx) 0).val < win1_3.index _ (0 : Fin 2) * 1024 + 1024
      rw [e6]; show ((i : S4096x256.Idx) 0).val / 1024 * 1024 ≤ _ ∧ _ < ((i : S4096x256.Idx) 0).val / 1024 * 1024 + 1024; omega
    | ⟨1, _⟩ =>
      show win1_3.index _ (1 : Fin 2) * 256 ≤ ((i : S4096x256.Idx) 1).val
        ∧ ((i : S4096x256.Idx) 1).val < win1_3.index _ (1 : Fin 2) * 256 + 256
      rw [e7]; omega

end Cert.KiProof

end
-- ==== Proof.KiValRoute.lean ====
/-
  The router's result array after its pipeline has run, as one function of the arrays the region finds. The grid has
  eight points; point t stages rows 512·t … 512·t + 511 of the encoder's result, of the drug column and of the gathered
  head rows, the whole side-by-side expert weights, their bias row and the head's bias column, and writes back entries
  512·t … of the result. What it writes back is the body's store of those blocks, which at row r is the masked row sum
  of the V2 form read at row 512·t + r of the whole arrays: block t of one function of them. The eight blocks of 512
  entries tile the 4096, entry b lying in block b / 512, so the array ends at that function — provided every drug word
  names a row of the head.
-/
import proofs.«211788_g47691316855323_cont_8to1_c_563_28_alg».proof.Proof.KiDats
import proofs.«211788_g47691316855323_cont_8to1_c_563_28_alg».proof.Proof.ValAssemble
import proofs.«211788_g47691316855323_cont_8to1_c_563_28_alg».proof.Proof.KiValEnc
import Idealize.ShloMosaic.Lib.Pipeline.Value

set_option maxRecDepth 16384

noncomputable section

namespace Cert.KiProof

open Cert.KernelIdeal Cert.KernelIdeal.Gen Cert.KernelValue
open Idealize.ShloMosaic Idealize.ShloMosaic.TcCoe Idealize.ShloMosaic.ValueIdx
open Idealize.ShloMosaic.SparseCore.Cfg (HIx)
open Idealize.ShloMosaic.Pipeline (Dat Cfg Window)

theorem hz1 : (![0] : Fin 1 → Nat) = fun _ => 0 := funext fun a => by fin_cases a; rfl

/-- The router body's output buffer at row r, from the six staged blocks, for a drug word below 64. -/
theorem routeOut_apply (x0 : Vec Ideal S512x256 .bf16) (x1 : Vec Ideal S512x1 .i32) (x2 : Vec Ideal S256x2048 .bf16)
    (x3 : Vec Ideal S1x2048 .f32) (x4 : Vec Ideal S512x128 .f32) (x5 : Vec Ideal S64x1 .f32) (r : Fin 512)
    (hr : (x1 (ix2 r (0 : Fin 1))).toNat < 64) :
    routeOut (F := Ideal) x0 x1 x2 x3 x4 x5 (ix1 r)
      = ∑ k : Fin 128, max (∑ d : Fin 256, x0 (ix2 r d) * x2 (ix2 d (col (x1 (ix2 r 0)) k))
            + x3 (ix2 (0 : Fin 1) (col (x1 (ix2 r 0)) k))) 0 * x4 (ix2 r k)
          + x5 (ix2 (⟨(x1 (ix2 r 0)).toNat % 64, Nat.mod_lt _ (by norm_num)⟩ : Fin 64) (0 : Fin 1)) := by
  unfold routeOut
  rw [View.canon_unit_zero hz1]
  simp only [View.ld_unit_zero (S := S512x256) hz2, View.ld_unit_zero (S := S512x1) hz2, View.ld_unit_zero (S := S256x2048) hz2,
    View.ld_unit_zero (S := S1x2048) hz2, View.ld_unit_zero (S := S512x128) hz2, View.ld_unit_zero (S := S64x1) hz2]
  exact route_pay x0 x2 x3 x1 x5 x4 r hr

/-- The router's result as a function of the whole arrays: the encoder's result H, the drug column D, the experts'
    weights W side by side and their bias row B, the gathered head rows G and the head's bias column Bd. -/
def routeArr (H : S4096x256.Idx → EReal) (D : S4096x1.Idx → BitVec 32) (W : S256x2048.Idx → EReal) (B : S1x2048.Idx → EReal)
    (G : S4096x128.Idx → EReal) (Bd : S64x1.Idx → EReal) : S4096.Idx → EReal :=
  fun i => ∑ k : Fin 128, max (∑ d : Fin 256, H (ix2 (i 0) d) * W (ix2 d (col (D (ix2 (i 0) (0 : Fin 1))) k))
        + B (ix2 (0 : Fin 1) (col (D (ix2 (i 0) (0 : Fin 1))) k))) 0 * G (ix2 (i 0) k)
      + Bd (ix2 (⟨(D (ix2 (i 0) (0 : Fin 1))).toNat % 64, Nat.mod_lt _ (by norm_num)⟩ : Fin 64) (0 : Fin 1))

/-- That function at an entry. -/
theorem routeArr_apply (H : S4096x256.Idx → EReal) (D : S4096x1.Idx → BitVec 32) (W : S256x2048.Idx → EReal)
    (B : S1x2048.Idx → EReal) (G : S4096x128.Idx → EReal) (Bd : S64x1.Idx → EReal) (b : Fin 4096) :
    routeArr H D W B G Bd (ix1 b)
      = ∑ k : Fin 128, max (∑ d : Fin 256, H (ix2 b d) * W (ix2 d (col (D (ix2 b (0 : Fin 1))) k))
            + B (ix2 (0 : Fin 1) (col (D (ix2 b (0 : Fin 1))) k))) 0 * G (ix2 b k)
          + Bd (ix2 (⟨(D (ix2 b (0 : Fin 1))).toNat % 64, Nat.mod_lt _ (by norm_num)⟩ : Fin 64) (0 : Fin 1)) := rfl

/-- The body's output buffer on blocks that are rows k … of the row-blocked arrays and the whole of the others is, at
    row r, that function at entry k + r. -/
theorem routeOut_eq_routeArr (H : S4096x256.Idx → EReal) (D : S4096x1.Idx → BitVec 32) (W : S256x2048.Idx → EReal)
    (B : S1x2048.Idx → EReal) (G : S4096x128.Idx → EReal) (Bd : S64x1.Idx → EReal)
    (x0 : S512x256.Idx → EReal) (x1 : S512x1.Idx → BitVec 32) (x2 : S256x2048.Idx → EReal) (x3 : S1x2048.Idx → EReal)
    (x4 : S512x128.Idx → EReal) (x5 : S64x1.Idx → EReal) (r : Fin 512) (k : Fin 4096)
    (hD : (D (ix2 k (0 : Fin 1))).toNat < 64)
    (h0 : ∀ d : Fin 256, x0 (ix2 r d) = H (ix2 k d)) (h1 : x1 (ix2 r (0 : Fin 1)) = D (ix2 k (0 : Fin 1)))
    (h2 : x2 = W) (h3 : x3 = B) (h4 : ∀ l : Fin 128, x4 (ix2 r l) = G (ix2 k l)) (h5 : x5 = Bd) :
    routeOut (F := Ideal) x0 x1 x2 x3 x4 x5 (ix1 r) = routeArr H D W B G Bd (ix1 k) := by
  rw [routeOut_apply x0 x1 x2 x3 x4 x5 r (by rw [h1]; exact hD), routeArr_apply, h1, h2, h3, h5]
  refine congrArg (fun s => s + Bd (ix2 (⟨(D (ix2 k (0 : Fin 1))).toNat % 64, Nat.mod_lt _ (by norm_num)⟩ : Fin 64) (0 : Fin 1)))
    (Finset.sum_congr rfl fun l _ => ?_)
  rw [h4 l]
  refine congrArg (fun s => max (s + B (ix2 (0 : Fin 1) (col (D (ix2 k (0 : Fin 1))) l))) 0 * G (ix2 k l))
    (Finset.sum_congr rfl fun d _ => ?_)
  rw [h0 d]

variable (Vc : (c : Dev nD) → (b : Ref sig .tc) → Buf (Elt Ideal) ((c : Thread nD τ).loc b))

/-- The block indices over the grid: the row-blocked windows move down the rows with the point, the others stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 1) = t.val :=
  (by decide +kernel : ∀ t : Fin grid2.N, _)

/-- The encoder's result's block at point t is its rows 512·t …. -/
theorem iblk2_0_apply (c : Dev nD) (t : Fin cfg2.N) (r : Fin 512) (d : Fin 256) (k : Fin 4096)
    (hk : k.val = t.val * 512 + r.val) :
    (iblk2 (F := Ideal) Vc c 0 t : S512x256.Idx → EReal) (ix2 r d) = (Vc c main_v9 : S4096x256.Idx → EReal) (ix2 k d) := by
  obtain ⟨e0, e1, -⟩ := idx2 t
  unfold iblk2
  rw [View.read_apply]
  show (Vc c main_v9 : S4096x256.Idx → EReal) _ = _
  congr 1
  funext a
  apply Fin.ext
  match a with
  | ⟨0, _⟩ => show win2_0.index t (0 : Fin 2) * 512 + 1 * r.val = k.val; rw [e0, hk]; omega
  | ⟨1, _⟩ => show win2_0.index t (1 : Fin 2) * 256 + 1 * d.val = d.val; rw [e1]; omega

/-- The drug column's block at point t is its rows 512·t …. -/
theorem iblk2_1_apply (c : Dev nD) (t : Fin cfg2.N) (r : Fin 512) (k : Fin 4096)
    (hk : k.val = t.val * 512 + r.val) :
    (iblk2 (F := Ideal) Vc c 1 t : S512x1.Idx → BitVec 32) (ix2 r (0 : Fin 1))
      = (Vc c main_v6 : S4096x1.Idx → BitVec 32) (ix2 k (0 : Fin 1)) := by
  obtain ⟨-, -, e2, e3, -⟩ := idx2 t
  unfold iblk2
  rw [View.read_apply]
  show (Vc c main_v6 : S4096x1.Idx → BitVec 32) _ = _
  congr 1
  funext a
  apply Fin.ext
  match a with
  | ⟨0, _⟩ => show win2_1.index t (0 : Fin 2) * 512 + 1 * r.val = k.val; rw [e2, hk]; omega
  | ⟨1, _⟩ => show win2_1.index t (1 : Fin 2) * 1 + 1 * 0 = 0; rw [e3]

/-- The experts' weights' block at every point is the whole array. -/
theorem iblk2_2_eq (c : Dev nD) (t : Fin cfg2.N) :
    (iblk2 (F := Ideal) Vc c 2 t : S256x2048.Idx → EReal) = (Vc c main_v4 : S256x2048.Idx → EReal) := by
  obtain ⟨-, -, -, -, e4, e5, -⟩ := idx2 t
  funext x
  unfold iblk2
  rw [View.read_apply]
  show (Vc c main_v4 : S256x2048.Idx → EReal) _ = _
  congr 1
  funext a
  apply Fin.ext
  match a with
  | ⟨0, _⟩ => show win2_2.index t (0 : Fin 2) * 256 + 1 * (x 0).val = (x 0).val; rw [e4]; omega
  | ⟨1, _⟩ => show win2_2.index t (1 : Fin 2) * 2048 + 1 * (x 1).val = (x 1).val; rw [e5]; omega

/-- The experts' bias row's block at every point is the whole row. -/
theorem iblk2_3_eq (c : Dev nD) (t : Fin cfg2.N) :
    (iblk2 (F := Ideal) Vc c 3 t : S1x2048.Idx → EReal) = (Vc c main_v5 : S1x2048.Idx → EReal) := by
  obtain ⟨-, -, -, -, -, -, e6, e7, -⟩ := idx2 t
  funext x
  unfold iblk2
  rw [View.read_apply]
  show (Vc c main_v5 : S1x2048.Idx → EReal) _ = _
  congr 1
  funext a
  apply Fin.ext
  match a with
  | ⟨0, _⟩ => show win2_3.index t (0 : Fin 2) * 1 + 1 * (x 0).val = (x 0).val; rw [e6]; omega
  | ⟨1, _⟩ => show win2_3.index t (1 : Fin 2) * 2048 + 1 * (x 1).val = (x 1).val; rw [e7]; omega

/-- The gathered head rows' block at point t is their rows 512·t …. -/
theorem iblk2_4_apply (c : Dev nD) (t : Fin cfg2.N) (r : Fin 512) (l : Fin 128) (k : Fin 4096)
    (hk : k.val = t.val * 512 + r.val) :
    (iblk2 (F := Ideal) Vc c 4 t : S512x128.Idx → EReal) (ix2 r l) = (Vc c main_v0 : S4096x128.Idx → EReal) (ix2 k l) := by
  obtain ⟨-, -, -, -, -, -, -, -, e8, e9, -⟩ := idx2 t
  unfold iblk2
  rw [View.read_apply]
  show (Vc c main_v0 : S4096x128.Idx → EReal) _ = _
  congr 1
  funext a
  apply Fin.ext
  match a with
  | ⟨0, _⟩ => show win2_4.index t (0 : Fin 2) * 512 + 1 * r.val = k.val; rw [e8, hk]; omega
  | ⟨1, _⟩ => show win2_4.index t (1 : Fin 2) * 128 + 1 * l.val = l.val; rw [e9]; omega

/-- The head's bias column's block at every point is the whole column. -/
theorem iblk2_5_eq (c : Dev nD) (t : Fin cfg2.N) :
    (iblk2 (F := Ideal) Vc c 5 t : S64x1.Idx → EReal) = (Vc c main_v8 : S64x1.Idx → EReal) := by
  obtain ⟨-, -, -, -, -, -, -, -, -, -, e10, e11, -⟩ := idx2 t
  funext x
  unfold iblk2
  rw [View.read_apply]
  show (Vc c main_v8 : S64x1.Idx → EReal) _ = _
  congr 1
  funext a
  apply Fin.ext
  match a with
  | ⟨0, _⟩ => show win2_5.index t (0 : Fin 2) * 64 + 1 * (x 0).val = (x 0).val; rw [e10]; omega
  | ⟨1, _⟩ => show win2_5.index t (1 : Fin 2) * 1 + 1 * (x 1).val = (x 1).val; rw [e11]; omega

/-- What point t writes back is block t of the one function of the whole arrays. -/
theorem route_flushed (c : Dev nD) (hin : ∀ b : Fin 4096, ((Vc c main_v6 : S4096x1.Idx → BitVec 32) (ix2 b (0 : Fin 1))).toNat < 64)
    (t : Fin cfg2.N) :
    (dat2 (F := Ideal) Vc c).flushed 6 t
      = ((cfg2.win 6).blk t).view.read (Elt Ideal)
          (routeArr (Vc c main_v9) (Vc c main_v6) (Vc c main_v4) (Vc c main_v5) (Vc c main_v0) (Vc c main_v8)) := by
  show (cfg2.win 6).cut (grid2.coords t) ((dat2 Vc c).after 6 t) = _
  rw [after2_6]
  funext j
  have hp : (j 0).val < 512 := (j 0).isLt
  have hj : (cfg2.win 6).xinj (grid2.coords t) j = ix1 (⟨(j 0).val, hp⟩ : Fin 512) := by
    funext a; apply Fin.ext
    match a with
    | ⟨0, _⟩ => rfl
  obtain ⟨-, -, -, -, -, -, -, -, -, -, -, -, e12⟩ := idx2 t
  have hN : cfg2.N = 8 := N_2
  have ht : t.val < 8 := by have := t.isLt; omega
  have he : ((cfg2.win 6).blk t).view.emb j = ix1 (⟨t.val * 512 + (j 0).val, by omega⟩ : Fin 4096) := by
    funext a; apply Fin.ext
    match a with
    | ⟨0, _⟩ => show win2_6.index t (0 : Fin 1) * 512 + 1 * (j 0).val = t.val * 512 + (j 0).val; rw [e12]; omega
  show routeOut (iblk2 Vc c 0 t) (iblk2 Vc c 1 t) (iblk2 Vc c 2 t) (iblk2 Vc c 3 t) (iblk2 Vc c 4 t) (iblk2 Vc c 5 t)
      ((cfg2.win 6).xinj (grid2.coords t) j)
    = routeArr (Vc c main_v9) (Vc c main_v6) (Vc c main_v4) (Vc c main_v5) (Vc c main_v0) (Vc c main_v8)
        (((cfg2.win 6).blk t).view.emb j)
  rw [hj, he]
  exact routeOut_eq_routeArr (Vc c main_v9) (Vc c main_v6) (Vc c main_v4) (Vc c main_v5) (Vc c main_v0) (Vc c main_v8)
    (iblk2 Vc c 0 t) (iblk2 Vc c 1 t) (iblk2 Vc c 2 t) (iblk2 Vc c 3 t) (iblk2 Vc c 4 t) (iblk2 Vc c 5 t)
    ⟨(j 0).val, hp⟩ ⟨t.val * 512 + (j 0).val, by omega⟩ (hin _)
    (fun d => iblk2_0_apply Vc c t ⟨(j 0).val, hp⟩ d ⟨t.val * 512 + (j 0).val, by omega⟩ rfl)
    (iblk2_1_apply Vc c t ⟨(j 0).val, hp⟩ ⟨t.val * 512 + (j 0).val, by omega⟩ rfl)
    (iblk2_2_eq Vc c t) (iblk2_3_eq Vc c t)
    (fun l => iblk2_4_apply Vc c t ⟨(j 0).val, hp⟩ l ⟨t.val * 512 + (j 0).val, by omega⟩ rfl)
    (iblk2_5_eq Vc c t)

/-- An entry of the result is in point t's block iff its number is in the block's range. -/
theorem mem_blk2_6 (t : Fin cfg2.N) (i : S4096.Idx) :
    i ∈ ((cfg2.win 6).blk t).view.set ↔ ∀ a : Fin 1, win2_6.index t a * S512.size a ≤ (i a).val
      ∧ (i a).val < win2_6.index t a * S512.size a + S512.size a := by
  show i ∈ ((View.whole main_v10).slice (win2_6.rect t)).set ↔ _
  rw [View.set_slice_whole, Rect.mem_set_unit]
  exact Iff.rfl

/-- THE ROUTER'S RESULT ARRAY after the run, where every drug word names a row of the head. -/
theorem route_final (c : Dev nD) (hin : ∀ b : Fin 4096, ((Vc c main_v6 : S4096x1.Idx → BitVec 32) (ix2 b (0 : Fin 1))).toNat < 64) :
    (dat2 (F := Ideal) Vc c).arrAt 6 cfg2.N
      = routeArr (Vc c main_v9) (Vc c main_v6) (Vc c main_v4) (Vc c main_v5) (Vc c main_v0) (Vc c main_v8) :=
  (dat2 (F := Ideal) Vc c).arrAt_eq_of_cover 6 _ (fun t _ => route_flushed Vc c hin t) fun i => by
    have hi0 : ((i : S4096.Idx) 0).val < 4096 := ((i : S4096.Idx) 0).isLt
    have hN : cfg2.N = 8 := N_2
    refine ⟨⟨((i : S4096.Idx) 0).val / 512, by rw [hN]; omega⟩, flush2_6 _, ?_⟩
    obtain ⟨-, -, -, -, -, -, -, -, -, -, -, -, e12⟩ := idx2 ⟨((i : S4096.Idx) 0).val / 512, by rw [hN]; omega⟩
    rw [mem_blk2_6]
    intro a
    match a with
    | ⟨0, _⟩ =>
      show win2_6.index _ (0 : Fin 1) * 512 ≤ ((i : S4096.Idx) 0).val
        ∧ ((i : S4096.Idx) 0).val < win2_6.index _ (0 : Fin 1) * 512 + 512
      rw [e12]; show ((i : S4096.Idx) 0).val / 512 * 512 ≤ _ ∧ _ < ((i : S4096.Idx) 0).val / 512 * 512 + 512; omega

end Cert.KiProof

end
-- ==== Proof.KiValOut.lean ====
/-
  The two result arrays composed: the router's function of the whole arrays, with the encoder's function in the place
  of its first operand, is the specification's result. Entry b of the router's function reads row b of each
  row-blocked array; with the encoder's rows hid(b, ·), the experts' weights and biases laid side by side, the drug
  column, the gathered head rows W_drug(row(b), ·) and the head's bias column, it is out(b) by the row's assembly.
-/
import proofs.«211788_g47691316855323_cont_8to1_c_563_28_alg».proof.Proof.KiDats
import proofs.«211788_g47691316855323_cont_8to1_c_563_28_alg».proof.Proof.ValAssemble
import proofs.«211788_g47691316855323_cont_8to1_c_563_28_alg».proof.Proof.KiValRoute
import Idealize.ShloMosaic.Lib.Pipeline.Value

set_option maxRecDepth 16384

noncomputable section

namespace Cert.KiProof

open Cert.KernelIdeal Cert.KernelIdeal.Gen Cert.KernelValue
open Idealize.ShloMosaic Idealize.ShloMosaic.TcCoe Idealize.ShloMosaic.ValueIdx
open Idealize.ShloMosaic.SparseCore.Cfg (HIx)
open Idealize.ShloMosaic.Pipeline (Dat Cfg Window)

/-- The router's function of the whole arrays is the specification's result, when each array is entrywise what the
    specification reads. -/
theorem routeArr_eq_out (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd)
    (H : S4096x256.Idx → EReal) (v6 : S4096x1.Idx → BitVec 32) (v4 : S256x2048.Idx → EReal) (v5 : S1x2048.Idx → EReal)
    (G : S4096x128.Idx → EReal) (v8 : S64x1.Idx → EReal)
    (hH : ∀ (b : Fin 4096) (d : Fin 256), H (ix2 b d) = Cert.Spec.hid x Ws bs b d)
    (h4 : ∀ (d : Fin 256) (p : Fin 16) (k : Fin 128), v4 (ix2 d (blockCol p k)) = Wp (ix3 p d k))
    (h5 : ∀ (p : Fin 16) (k : Fin 128), v5 (ix2 (0 : Fin 1) (blockCol p k)) = bp (ix2 p k))
    (h6 : ∀ b : Fin 4096, v6 (ix2 b (0 : Fin 1)) = drug (ix1 b))
    (h8 : ∀ j : Fin 64, v8 (ix2 j (0 : Fin 1)) = bd (ix1 j))
    (hG : ∀ (b : Fin 4096) (k : Fin 128), G (ix2 b k) = Wd (ix2 (Cert.Spec.row drug b) k)) :
    routeArr H v6 v4 v5 G v8 = Cert.Spec.out x drug Ws bs Wp bp Wd bd := by
  funext i
  obtain ⟨b, rfl⟩ : ∃ b : Fin 4096, i = ix1 b := ⟨i 0, eq_ix1 i⟩
  rw [routeArr_apply]
  exact route_out x drug Ws bs Wp bp Wd bd b H v4 v5 v6 v8 G b (hH b) h4 h5 (h6 b) h8 (hG b)

/-- The encoder's function of the input, the shared weights and the shared bias as a row is hid. -/
theorem encArr_eq_hid (x : Cert.Spec.ArrX) (Ws : Cert.Spec.ArrWs) (bs : Cert.Spec.ArrBs) (b : Fin 4096) (d : Fin 256) :
    encArr x Ws (fun i => bs (ix1 (i 1))) (ix2 b d) = Cert.Spec.hid x Ws bs b d := rfl

/-- THE COMPOSITION: the router's function, of the encoder's function of the input and of the laid-out parameters,
    is the specification's result. -/
theorem out_of_arrays (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd)
    (_hin : Cert.Spec.InRange drug)
    (v4 : S256x2048.Idx → EReal) (v5 : S1x2048.Idx → EReal) (v6 : S4096x1.Idx → BitVec 32) (v8 : S64x1.Idx → EReal)
    (h4 : ∀ (d : Fin 256) (p : Fin 16) (k : Fin 128), v4 (ix2 d (blockCol p k)) = Wp (ix3 p d k))
    (h5 : ∀ (p : Fin 16) (k : Fin 128), v5 (ix2 (0 : Fin 1) (blockCol p k)) = bp (ix2 p k))
    (h6 : ∀ b : Fin 4096, v6 (ix2 b (0 : Fin 1)) = drug (ix1 b))
    (h8 : ∀ j : Fin 64, v8 (ix2 j (0 : Fin 1)) = bd (ix1 j)) :
    routeArr (encArr x Ws (fun i => bs (ix1 (i 1)))) v6 v4 v5 (fun i => Wd (ix2 (Cert.Spec.row drug (i 0)) (i 1))) v8
      = Cert.Spec.out x drug Ws bs Wp bp Wd bd :=
  routeArr_eq_out x drug Ws bs Wp bp Wd bd _ v6 v4 v5 _ v8 (encArr_eq_hid x Ws bs) h4 h5 h6 h8 (fun _ _ => rfl)

/-- The drug column's words name rows of the head when the drug indices do. -/
theorem drug_col_lt (drug : Cert.Spec.ArrDrug) (hin : Cert.Spec.InRange drug) (v6 : S4096x1.Idx → BitVec 32)
    (h6 : ∀ b : Fin 4096, v6 (ix2 b (0 : Fin 1)) = drug (ix1 b)) (b : Fin 4096) :
    (v6 (ix2 b (0 : Fin 1))).toNat < 64 := by
  rw [h6 b]; exact hin _

end Cert.KiProof

end
-- ==== Proof.ValGlue.lean ====
/-
  The host operations before the two calls, read at an index. The experts' weights W_pw [16, 256, 128] are laid side
  by side: transposed to [256, 16, 128], flattened to [256, 2048] and converted to the narrower format, so that entry
  (d, p · 128 + k) is W_pw(p, d, k); their biases [16, 128] are flattened to one row [1, 2048], entry (0, p · 128 + k)
  being b_pw(p, k); the drug indices, the shared bias and the drug-head bias become a column, a row and a column. A
  flattening keeps the row-major position, a transposition permutes the coordinates, and a change of float format is
  the identity on the extended reals.
-/
import proofs.«211788_g47691316855323_cont_8to1_c_563_28_alg».proof.Proof.Gen.KernelIdeal.Skeleton
import proofs.«211788_g47691316855323_cont_8to1_c_563_28_alg».proof.Proof.ValShape

noncomputable section

namespace Cert.KernelValue

open Idealize.ShloMosaic Idealize.ShloMosaic.ValueIdx Cert.KernelIdeal Cert.KernelIdeal.Gen

/-- The experts' weights side by side: entry (d, p · 128 + k) of the converted, flattened, transposed array is
    W_pw(p, d, k). -/
theorem glue_wp (Wp : S16x256x128.Idx → EReal) (ht : S16x256x128.Transposes [1, 0, 2] S256x16x128)
    (hs : S256x16x128.ShapeCasts S256x2048) (hb : FTy.bits .bf16 < FTy.bits .f32)
    (d : Fin 256) (p : Fin 16) (k : Fin 128) :
    (truncf .bf16 (shapeCast S256x2048 (transpose S256x16x128 [1, 0, 2] Wp ht) hs : FVec Ideal S256x2048 .f32) hb
        : FVec Ideal S256x2048 .bf16) (ix2 d (blockCol p k))
      = Wp (ix3 p d k) := by
  refine (truncf_apply _ hb _).trans ?_
  refine (shapeCast_apply (transpose S256x16x128 [1, 0, 2] Wp ht) hs (ix2 d (blockCol p k)) (ix3 d p k) ?_).trans ?_
  · rw [Shape.rowMajor_val_three, Shape.rowMajor_val_two]
    show (d.val * 16 + p.val) * 128 + k.val = d.val * 2048 + (p.val * 128 + k.val)
    omega
  · exact transpose_apply _ Wp ht (ix3 d p k) (ix3 p d k) fun c =>
      match c with | ⟨0, _⟩ => rfl | ⟨1, _⟩ => rfl | ⟨2, _⟩ => rfl

/-- The experts' biases as one row: entry (0, p · 128 + k) is b_pw(p, k). -/
theorem glue_bp (bp : S16x128.Idx → EReal) (hs : S16x128.ShapeCasts S1x2048) (p : Fin 16) (k : Fin 128) :
    shapeCast S1x2048 bp hs (ix2 (0 : Fin 1) (blockCol p k)) = bp (ix2 p k) :=
  shapeCast_apply bp hs _ _ (by
    rw [Shape.rowMajor_val_two, Shape.rowMajor_val_two]
    show p.val * 128 + k.val = 0 * 2048 + (p.val * 128 + k.val)
    omega)

/-- The drug indices as a column: entry (b, 0) is drug(b). -/
theorem glue_drug (drug : S4096.Idx → BitVec 32) (hs : S4096.ShapeCasts S4096x1) (b : Fin 4096) :
    shapeCast S4096x1 drug hs (ix2 b (0 : Fin 1)) = drug (ix1 b) :=
  shapeCast_a_a1_apply drug hs b 0

/-- The shared bias as a row: entry (0, q) is b_shared(q). -/
theorem glue_bs (bs : S256.Idx → EReal) (hs : S256.ShapeCasts S1x256) (q : Fin 256) :
    shapeCast S1x256 bs hs (ix2 (0 : Fin 1) q) = bs (ix1 q) :=
  shapeCast_a_1a_apply bs hs 0 q

/-- The drug head's bias as a column: entry (j, 0) is b_drug(j). -/
theorem glue_bd (bd : S64.Idx → EReal) (hs : S64.ShapeCasts S64x1) (j : Fin 64) :
    shapeCast S64x1 bd hs (ix2 j (0 : Fin 1)) = bd (ix1 j) :=
  shapeCast_a_a1_apply bd hs j 0

/-- The shared weights converted to the narrower format are the same extended reals. -/
theorem glue_ws (Ws : S2048x256.Idx → EReal) (hb : FTy.bits .bf16 < FTy.bits .f32) (i : S2048x256.Idx) :
    (truncf .bf16 (Ws : FVec Ideal S2048x256 .f32) hb : FVec Ideal S2048x256 .bf16) i = Ws i := rfl

end Cert.KernelValue

end
-- ==== Proof.KiValMain.lean ====
/-
  The program's result as the specification's function of the launch contents. The program's result array is the
  router's function of what its region finds — the encoder's function of the input and the host line's arrays —
  which, entry by entry, is the specification's result: the host line's arrays read at an index are the arguments'
  entries (a flattening keeps the row-major position, a transposition permutes coordinates, a change of float format is
  the identity), and the gathered rows are the drug head's rows the drug indices name.
-/
import proofs.«211788_g47691316855323_cont_8to1_c_563_28_alg».proof.Proof.KiArgs
import proofs.«211788_g47691316855323_cont_8to1_c_563_28_alg».proof.Proof.KiValOut
import proofs.«211788_g47691316855323_cont_8to1_c_563_28_alg».proof.Proof.ValGlue

set_option maxRecDepth 16384

noncomputable section

namespace Cert.KiProof

open Cert.KernelIdeal Cert.KernelIdeal.Gen Cert.KernelValue
open Idealize.ShloMosaic Idealize.ShloMosaic.TcCoe Idealize.ShloMosaic.ValueIdx
open Idealize.ShloMosaic.SparseCore.Cfg (HIx)
open Idealize.ShloMosaic.Pipeline (Dat Cfg Window)

/-! ## The program's result -/

/-- THE RESULT ARRAY of the program, where every drug index names a row of the drug head, is the specification's
    function of the eight arguments. -/
theorem kernel_out (m : (ℓ : Loc nD τ sig) → Buf (Elt Ideal) ℓ) (c : Dev nD) (hpre : PreOK m) :
    B3 (F := Ideal) m c main_v10
      = Cert.Spec.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  have hdrug : Cert.Spec.InRange (m ((c : Thread nD τ).loc main_arg1)) := fun j => hpre c j
  have h6 : ∀ b : Fin 4096, (B1 m c main_v6 : S4096x1.Idx → BitVec 32) (ix2 b (0 : Fin 1))
      = (m ((c : Thread nD τ).loc main_arg1) : S4096.Idx → BitVec 32) (ix1 b) := fun b => by
    rw [B1_v6]; exact glue_drug _ _ b
  have hin : ∀ b : Fin 4096, ((B2 m c main_v6 : S4096x1.Idx → BitVec 32) (ix2 b (0 : Fin 1))).toNat < 64 := fun b => by
    rw [B2_of_ne m c (b := main_v6) (by decide), h6 b]; exact hdrug _
  refine (B3_v10' m c).trans ((route_final (B2 m) c hin).trans ?_)
  rw [B2_v9, B2_of_ne m c (b := main_v6) (by decide), B2_of_ne m c (b := main_v4) (by decide),
    B2_of_ne m c (b := main_v5) (by decide), B2_of_ne m c (b := main_v0) (by decide),
    B2_of_ne m c (b := main_v8) (by decide), enc_final (B1 m) c]
  refine routeArr_eq_out _ _ _ _ _ _ _ _ _ _ _ _ _ _ (fun b d => ?_) (fun d p k => ?_) (fun p k => ?_) h6 (fun j => ?_) (fun b k => ?_)
  · rw [B1_arg0, B1_v1, B1_v7, encArr_apply]
    unfold Cert.Spec.hid
    refine congrArg (fun s => max s 0) ?_
    exact congr (congrArg HAdd.hAdd (Finset.sum_congr rfl fun j _ => rfl)) (glue_bs _ _ d)
  · rw [B1_v4]; exact glue_wp _ _ _ _ d p k
  · rw [B1_v5]; exact glue_bp _ _ p k
  · rw [B1_v8]; exact glue_bd _ _ j
  · rw [B1_v0]; rfl

end Cert.KiProof

end
-- ==== Proof.PreRange.lean ====
/-
  The precondition's last conjunct read back: it says of every drug index `v`, compared as a signed word, `0 ≤ v ≤ 63`;
  so as an unsigned word it is below 64.
-/
import proofs.«211788_g47691316855323_cont_8to1_c_563_28_alg».proof.Pre_input_domain
import Idealize.ShloMosaic.Lib.ReduceAll
import Idealize.ShloMosaic.Lib.ValueIdx

namespace Cert.PreRange

open Idealize.ShloMosaic

/-- The scalar shape has one index. -/
instance : Subsingleton Cert.Pre_input_domain.S_.Idx := ⟨fun a b => funext fun d => d.elim0⟩

/-- A word that is at least 0 and at most 63 as a signed word is below 64 as an unsigned one. -/
theorem lt_of_range (v : BitVec 32) (e : IntOp.andi (IntOp.cmpi .sge v 0#32) (IntOp.cmpi .sle v 63#32) = 1#1) : v.toNat < 64 := by
  obtain ⟨h0, h1⟩ := IntOp.andi_eq_one.1 e
  have h0' := IntOp.cmpi_sge.1 h0
  have h1' := IntOp.cmpi_sle.1 h1
  simp only [BitVec.toInt_eq_toNat_cond, BitVec.toNat_ofNat, Nat.reducePow, Nat.reduceMod] at h0' h1'
  omega

/-- Under the precondition every drug index is below 64: the precondition is a conjunction whose last conjunct is the
    conjunction over all entries of `0 ≤ v` and `v ≤ 63`, signed. -/
theorem drug_lt_of_pre {F : FTy → Type} [FloatOps F] [Cert.Pre_input_domain.Facts]
    (a0 : FVec F Cert.Pre_input_domain.S4096x2048 .f32) (a1 : IVec Cert.Pre_input_domain.S4096 32) (a2 : FVec F Cert.Pre_input_domain.S2048x256 .f32) (a3 : FVec F Cert.Pre_input_domain.S256 .f32) (a4 : FVec F Cert.Pre_input_domain.S16x256x128 .f32) (a5 : FVec F Cert.Pre_input_domain.S16x128 .f32) (a6 : FVec F Cert.Pre_input_domain.S64x128 .f32) (a7 : FVec F Cert.Pre_input_domain.S64 .f32)
    (h : Cert.Pre_input_domain.fn (F := F) a0 a1 a2 a3 a4 a5 a6 a7 = fun _ => 1#1) : ∀ j, (a1 j).toNat < 64 := by
  intro j
  have e := congrFun h ValueIdx.ix0
  unfold Cert.Pre_input_domain.fn Cert.Pre_input_domain.fn_part1 Cert.Pre_input_domain.fn_part2 at e
  dsimp only at e
  have e2 := (IntOp.andi_eq_one.1 e).2
  have e3 := Host.reduce_andi_all _ _ _ _ _ e2 j
  exact lt_of_range _ e3

end Cert.PreRange
-- ==== Proof.RefOps.lean ====
/-
  The reference program as a straight line. Every function the module outlines (the remainder, the two rectifiers,
  the four row selections and the selects inside them) is run on its caller's operands into buffers of its own, so the
  whole of @main is one list of 139 array operations: each writes one buffer from at most three it reads. The list
  below is @main's text with every call replaced by its callee's operations, the callee's arguments replaced by the
  call's operands and its values by the call's buffer record. The run of a straight line is the fold of its
  operations' results over the launch contents.
-/
import proofs.«211788_g47691316855323_cont_8to1_c_563_28_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 139 operations, in order, the calls' bodies in place. -/
abbrev ops : List (HloOp τ sig (Elt F)) :=
  [
    StableHlo.nullary main_v0 (iotaInDim S64 32 0),
    StableHlo.nullary main_c (constantI S_ 32 16#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64 ![] bcast_S_S64),
    StableHlo.TRef.binary (.of main_v0) main_call0.v3 main_call0.v4 Host.remsi,
    StableHlo.TRef.nullary main_call0.c_1 (constantI S_ 32 0#32),
    StableHlo.TRef.unary main_call0.c_1 main_call0.v5 (broadcastInDim S64 ![] bcast_S_S64),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64 ![] bcast_S_S64),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64 ![] bcast_S_S64),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64 ![] bcast_S_S64),
    StableHlo.TRef.binary main_call0.v4 main_call0.v13 main_call0.v14 addi,
    StableHlo.TRef.ternary main_call0.v12 main_call0.v14 main_call0.v4 main_call0.v15 select,
    StableHlo.binary main_arg0 main_arg2 main_v2 ((fun l r => Host.dotGeneral dot_S4096x2048_S2048x256_S4096x256_1_0_0_1_n_n none l r) : (⟨S4096x2048, .f32⟩ : BufTy).Contents (Elt F) → (⟨S2048x256, .f32⟩ : BufTy).Contents (Elt F) → (⟨S4096x256, .f32⟩ : BufTy).Contents (Elt F)),
    StableHlo.unary main_arg3 main_v3 (broadcastInDim S1x256 ![1] bcast_S256_S1x256_1 : (⟨S256, .f32⟩ : BufTy).Contents (Elt F) → (⟨S1x256, .f32⟩ : BufTy).Contents (Elt F)),
    StableHlo.unary main_v3 main_v4 (broadcastInDim S4096x256 ![0, 1] bcast_S1x256_S4096x256_0_1 : (⟨S1x256, .f32⟩ : BufTy).Contents (Elt F) → (⟨S4096x256, .f32⟩ : BufTy).Contents (Elt F)),
    StableHlo.binary main_v2 main_v4 main_v5 (addf : (⟨S4096x256, .f32⟩ : BufTy).Contents (Elt F) → (⟨S4096x256, .f32⟩ : BufTy).Contents (Elt F) → (⟨S4096x256, .f32⟩ : BufTy).Contents (Elt F)),
    StableHlo.TRef.nullary main_call1.cst (constant S_ .f32 0x00000000#32),
    StableHlo.TRef.unary main_call1.cst main_call1.v0 (broadcastInDim S4096x256 ![] bcast_S_S4096x256),
    StableHlo.TRef.binary (.of main_v5) main_call1.v0 main_call1.v1 maximumf,
    StableHlo.nullary main_c_0 (constantI S_ 32 0#32),
    StableHlo.unary main_c_0 main_v7 (broadcastInDim S4096 ![] bcast_S_S4096 : (⟨S_, .i32⟩ : BufTy).Contents (Elt F) → (⟨S4096, .i32⟩ : BufTy).Contents (Elt F)),
    StableHlo.binary main_arg1 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_1 (constantI S_ 32 64#32),
    StableHlo.unary main_c_1 main_v9 (broadcastInDim S4096 ![] bcast_S_S4096 : (⟨S_, .i32⟩ : BufTy).Contents (Elt F) → (⟨S4096, .i32⟩ : BufTy).Contents (Elt F)),
    StableHlo.binary main_arg1 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.binary main_v1 main_v12 main_v13 ((fun x i => Host.gather gather_S64_S4096x1_S4096_n_0_n_n_0_1_1 x i) : (⟨S64, .i32⟩ : BufTy).Contents (Elt F) → (⟨S4096x1, .i32⟩ : BufTy).Contents (Elt F) → (⟨S4096, .i32⟩ : BufTy).Contents (Elt F)),
    StableHlo.TRef.nullary main_call2.c (constantI S_ 32 0#32),
    StableHlo.TRef.unary main_call2.c main_call2.v0 (broadcastInDim S4096 ![] bcast_S_S4096),
    StableHlo.TRef.binary (.of main_v13) main_call2.v0 main_call2.v1 (cmpi .slt),
    StableHlo.TRef.nullary main_call2.c_0 (constantI S_ 32 16#32),
    StableHlo.TRef.unary main_call2.c_0 main_call2.v2 (broadcastInDim S4096 ![] bcast_S_S4096),
    StableHlo.TRef.binary (.of main_v13) main_call2.v2 main_call2.v3 addi,
    StableHlo.TRef.ternary main_call2.v1 main_call2.v3 (.of main_v13) main_call2.call0.v0 select,
    StableHlo.TRef.unary main_call2.call0.v0 main_call2.v5 (broadcastInDim S4096x1 ![0] bcast_S4096_S4096x1_0),
    StableHlo.TRef.nullary main_call2.c_1 (constantI S1 32 15#32),
    StableHlo.TRef.nullary main_call2.c_2 (constantI S_ 32 0#32),
    StableHlo.TRef.unary main_call2.c_2 main_call2.v6 (broadcastInDim S4096x1 ![] bcast_S_S4096x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S4096x1 ![0, 1] bcast_S1x1_S4096x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x1_S4096_d1 h_S_),
    StableHlo.TRef.binary (.of main_arg4) main_call2.v5 main_call2.v13 (fun x i => Host.gather gather_S16x256x128_S4096x1_S4096x256x128_12_0_n_n_0_1_1256128 x i),
    StableHlo.TRef.unary main_call2.v12 main_call2.v14 (broadcastInDim S4096x256x128 ![0] bcast_S4096_S4096x256x128_0),
    StableHlo.TRef.nullary main_call2.cst (constant S_ .f32 0x7FC00000#32),
    StableHlo.TRef.unary main_call2.cst main_call2.v15 (broadcastInDim S4096x256x128 ![] bcast_S_S4096x256x128),
    StableHlo.TRef.ternary main_call2.v14 main_call2.v13 main_call2.v15 main_call2.v16 select,
    StableHlo.TRef.nullary main_call3.c (constantI S_ 32 0#32),
    StableHlo.TRef.unary main_call3.c main_call3.v0 (broadcastInDim S4096 ![] bcast_S_S4096),
    StableHlo.TRef.binary (.of main_v13) main_call3.v0 main_call3.v1 (cmpi .slt),
    StableHlo.TRef.nullary main_call3.c_0 (constantI S_ 32 16#32),
    StableHlo.TRef.unary main_call3.c_0 main_call3.v2 (broadcastInDim S4096 ![] bcast_S_S4096),
    StableHlo.TRef.binary (.of main_v13) main_call3.v2 main_call3.v3 addi,
    StableHlo.TRef.ternary main_call3.v1 main_call3.v3 (.of main_v13) main_call3.call0.v0 select,
    StableHlo.TRef.unary main_call3.call0.v0 main_call3.v5 (broadcastInDim S4096x1 ![0] bcast_S4096_S4096x1_0),
    StableHlo.TRef.nullary main_call3.c_1 (constantI S1 32 15#32),
    StableHlo.TRef.nullary main_call3.c_2 (constantI S_ 32 0#32),
    StableHlo.TRef.unary main_call3.c_2 main_call3.v6 (broadcastInDim S4096x1 ![] bcast_S_S4096x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S4096x1 ![0, 1] bcast_S1x1_S4096x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4096x1_S4096_d1 h_S_),
    StableHlo.TRef.binary (.of main_arg5) main_call3.v5 main_call3.v13 (fun x i => Host.gather gather_S16x128_S4096x1_S4096x128_1_0_n_n_0_1_1128 x i),
    StableHlo.TRef.unary main_call3.v12 main_call3.v14 (broadcastInDim S4096x128 ![0] bcast_S4096_S4096x128_0),
    StableHlo.TRef.nullary main_call3.cst (constant S_ .f32 0x7FC00000#32),
    StableHlo.TRef.unary main_call3.cst main_call3.v15 (broadcastInDim S4096x128 ![] bcast_S_S4096x128),
    StableHlo.TRef.ternary main_call3.v14 main_call3.v13 main_call3.v15 main_call3.v16 select,
    StableHlo.binary main_v6 main_v14 main_v16 ((fun l r => Host.dotGeneral dot_S4096x256_S4096x256x128_S4096x128_1_1_n_2_0_0 none l r) : (⟨S4096x256, .f32⟩ : BufTy).Contents (Elt F) → (⟨S4096x256x128, .f32⟩ : BufTy).Contents (Elt F) → (⟨S4096x128, .f32⟩ : BufTy).Contents (Elt F)),
    StableHlo.binary main_v16 main_v15 main_v17 (addf : (⟨S4096x128, .f32⟩ : BufTy).Contents (Elt F) → (⟨S4096x128, .f32⟩ : BufTy).Contents (Elt F) → (⟨S4096x128, .f32⟩ : BufTy).Contents (Elt F)),
    StableHlo.TRef.nullary main_call4.cst (constant S_ .f32 0x00000000#32),
    StableHlo.TRef.unary main_call4.cst main_call4.v0 (broadcastInDim S4096x128 ![] bcast_S_S4096x128),
    StableHlo.TRef.binary (.of main_v17) main_call4.v0 main_call4.v1 maximumf,
    StableHlo.TRef.nullary main_call5.c (constantI S_ 32 0#32),
    StableHlo.TRef.unary main_call5.c main_call5.v0 (broadcastInDim S4096 ![] bcast_S_S4096),
    StableHlo.TRef.binary (.of main_arg1) main_call5.v0 main_call5.v1 (cmpi .slt),
    StableHlo.TRef.nullary main_call5.c_0 (constantI S_ 32 64#32),
    StableHlo.TRef.unary main_call5.c_0 main_call5.v2 (broadcastInDim S4096 ![] bcast_S_S4096),
    StableHlo.TRef.binary (.of main_arg1) main_call5.v2 main_call5.v3 addi,
    StableHlo.TRef.ternary main_call5.v1 main_call5.v3 (.of main_arg1) main_call5.call0.v0 select,
    StableHlo.TRef.unary main_call5.call0.v0 main_call5.v5 (broadcastInDim S4096x1 ![0] bcast_S4096_S4096x1_0),
    StableHlo.TRef.nullary main_call5.c_1 (constantI S1 32 63#32),
    StableHlo.TRef.nullary main_call5.c_2 (constantI S_ 32 0#32),
    StableHlo.TRef.unary main_call5.c_2 main_call5.v6 (broadcastInDim S4096x1 ![] bcast_S_S4096x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S4096x1 ![0, 1] bcast_S1x1_S4096x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1_S4096_d1 h_S_),
    StableHlo.TRef.binary (.of main_arg6) main_call5.v5 main_call5.v13 (fun x i => Host.gather gather_S64x128_S4096x1_S4096x128_1_0_n_n_0_1_1128 x i),
    StableHlo.TRef.unary main_call5.v12 main_call5.v14 (broadcastInDim S4096x128 ![0] bcast_S4096_S4096x128_0),
    StableHlo.TRef.nullary main_call5.cst (constant S_ .f32 0x7FC00000#32),
    StableHlo.TRef.unary main_call5.cst main_call5.v15 (broadcastInDim S4096x128 ![] bcast_S_S4096x128),
    StableHlo.TRef.ternary main_call5.v14 main_call5.v13 main_call5.v15 main_call5.v16 select,
    StableHlo.TRef.nullary main_call6.c (constantI S_ 32 0#32),
    StableHlo.TRef.unary main_call6.c main_call6.v0 (broadcastInDim S4096 ![] bcast_S_S4096),
    StableHlo.TRef.binary (.of main_arg1) main_call6.v0 main_call6.v1 (cmpi .slt),
    StableHlo.TRef.nullary main_call6.c_0 (constantI S_ 32 64#32),
    StableHlo.TRef.unary main_call6.c_0 main_call6.v2 (broadcastInDim S4096 ![] bcast_S_S4096),
    StableHlo.TRef.binary (.of main_arg1) main_call6.v2 main_call6.v3 addi,
    StableHlo.TRef.ternary main_call6.v1 main_call6.v3 (.of main_arg1) main_call6.call0.v0 select,
    StableHlo.TRef.unary main_call6.call0.v0 main_call6.v5 (broadcastInDim S4096x1 ![0] bcast_S4096_S4096x1_0),
    StableHlo.TRef.nullary main_call6.c_1 (constantI S1 32 63#32),
    StableHlo.TRef.nullary main_call6.c_2 (constantI S_ 32 0#32),
    StableHlo.TRef.unary main_call6.c_2 main_call6.v6 (broadcastInDim S4096x1 ![] bcast_S_S4096x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S4096x1 ![0, 1] bcast_S1x1_S4096x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S4096x1_S4096_d1 h_S_),
    StableHlo.TRef.binary (.of main_arg7) main_call6.v5 main_call6.v13 (fun x i => Host.gather gather_S64_S4096x1_S4096_n_0_n_n_0_1_1 x i),
    StableHlo.TRef.nullary main_call6.cst (constant S_ .f32 0x7FC00000#32),
    StableHlo.TRef.unary main_call6.cst main_call6.v14 (broadcastInDim S4096 ![] bcast_S_S4096),
    StableHlo.TRef.ternary main_call6.v12 main_call6.v13 main_call6.v14 main_call6.v15 select,
    StableHlo.binary main_v18 main_v19 main_v21 (mulf : (⟨S4096x128, .f32⟩ : BufTy).Contents (Elt F) → (⟨S4096x128, .f32⟩ : BufTy).Contents (Elt F) → (⟨S4096x128, .f32⟩ : BufTy).Contents (Elt F)),
    StableHlo.nullary main_cst (constant S_ .f32 0x00000000#32),
    StableHlo.binary main_v21 main_cst main_v22 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.binary main_v22 main_v20 main_v23 (addf : (⟨S4096, .f32⟩ : BufTy).Contents (Elt F) → (⟨S4096, .f32⟩ : BufTy).Contents (Elt F) → (⟨S4096, .f32⟩ : BufTy).Contents (Elt F)) ]

set_option maxRecDepth 16384 in
set_option maxHeartbeats 4000000 in
/-- @main is that straight line: the functions unfolded at their calls, sequencing reassociated. -/
theorem main_eq (c : Dev nD) : main (F := F) c = seq ops := by
  simp only [main, fn_remainder.body, fn_where.body, fn_relu.body, fn_where_0.body, fn_take.body, fn_take_1.body,
    fn_relu_2.body, fn_where_4.body, fn_take_3.body, fn_take_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore buffers only. -/
theorem ops_sub : (ops : List (HloOp τ sig (Elt F))).Forall fun op => op.bufs ⊆ tcRefs τ sig :=
  ⟨
    nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., binary_bufs_sub .., nullary_bufs_sub .., binary_bufs_sub ..,
    binary_bufs_sub ..⟩

set_option maxRecDepth 16384 in
set_option maxHeartbeats 4000000 in
/-- From any memory with zero counters every weakly fair execution of @main terminates, and every TensorCore buffer
    ends at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefSegs.lean ====
/-
  The reference's straight line cut into nine consecutive pieces, one per call or per run of @main's own lines
  between two calls: (1) the routing table (the iota, the divisor, the remainder's body); (2) the shared encoder (product, bias, rectifier); (3) the routing table read at the wrapped drug indices; (4) the expert weights' rows; (5) the expert biases' rows; (6) the expert (batched product, bias, rectifier); (7) the head weights' rows; (8) the head biases; (9) the head (product, sum over the features, bias).
  The fold of a concatenation is the fold of the second list over the fold of the first, so the line's fold is the
  pieces' folds one inside the other, and each piece is read on its own over an arbitrary valuation.
-/
import proofs.«211788_g47691316855323_cont_8to1_c_563_28_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 to 23 of the line. -/
def seg1 : List (HloOp τ sig (Elt F)) :=
  [
    StableHlo.nullary main_v0 (iotaInDim S64 32 0),
    StableHlo.nullary main_c (constantI S_ 32 16#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64 ![] bcast_S_S64),
    StableHlo.TRef.binary (.of main_v0) main_call0.v3 main_call0.v4 Host.remsi,
    StableHlo.TRef.nullary main_call0.c_1 (constantI S_ 32 0#32),
    StableHlo.TRef.unary main_call0.c_1 main_call0.v5 (broadcastInDim S64 ![] bcast_S_S64),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64 ![] bcast_S_S64),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64 ![] bcast_S_S64),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64 ![] bcast_S_S64),
    StableHlo.TRef.binary main_call0.v4 main_call0.v13 main_call0.v14 addi,
    StableHlo.TRef.ternary main_call0.v12 main_call0.v14 main_call0.v4 main_call0.v15 select ]

/-- Operations 24 to 30 of the line. -/
def seg2 : List (HloOp τ sig (Elt F)) :=
  [
    StableHlo.binary main_arg0 main_arg2 main_v2 ((fun l r => Host.dotGeneral dot_S4096x2048_S2048x256_S4096x256_1_0_0_1_n_n none l r) : (⟨S4096x2048, .f32⟩ : BufTy).Contents (Elt F) → (⟨S2048x256, .f32⟩ : BufTy).Contents (Elt F) → (⟨S4096x256, .f32⟩ : BufTy).Contents (Elt F)),
    StableHlo.unary main_arg3 main_v3 (broadcastInDim S1x256 ![1] bcast_S256_S1x256_1 : (⟨S256, .f32⟩ : BufTy).Contents (Elt F) → (⟨S1x256, .f32⟩ : BufTy).Contents (Elt F)),
    StableHlo.unary main_v3 main_v4 (broadcastInDim S4096x256 ![0, 1] bcast_S1x256_S4096x256_0_1 : (⟨S1x256, .f32⟩ : BufTy).Contents (Elt F) → (⟨S4096x256, .f32⟩ : BufTy).Contents (Elt F)),
    StableHlo.binary main_v2 main_v4 main_v5 (addf : (⟨S4096x256, .f32⟩ : BufTy).Contents (Elt F) → (⟨S4096x256, .f32⟩ : BufTy).Contents (Elt F) → (⟨S4096x256, .f32⟩ : BufTy).Contents (Elt F)),
    StableHlo.TRef.nullary main_call1.cst (constant S_ .f32 0x00000000#32),
    StableHlo.TRef.unary main_call1.cst main_call1.v0 (broadcastInDim S4096x256 ![] bcast_S_S4096x256),
    StableHlo.TRef.binary (.of main_v5) main_call1.v0 main_call1.v1 maximumf ]

/-- Operations 31 to 39 of the line. -/
def seg3 : List (HloOp τ sig (Elt F)) :=
  [
    StableHlo.nullary main_c_0 (constantI S_ 32 0#32),
    StableHlo.unary main_c_0 main_v7 (broadcastInDim S4096 ![] bcast_S_S4096 : (⟨S_, .i32⟩ : BufTy).Contents (Elt F) → (⟨S4096, .i32⟩ : BufTy).Contents (Elt F)),
    StableHlo.binary main_arg1 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_1 (constantI S_ 32 64#32),
    StableHlo.unary main_c_1 main_v9 (broadcastInDim S4096 ![] bcast_S_S4096 : (⟨S_, .i32⟩ : BufTy).Contents (Elt F) → (⟨S4096, .i32⟩ : BufTy).Contents (Elt F)),
    StableHlo.binary main_arg1 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.binary main_v1 main_v12 main_v13 ((fun x i => Host.gather gather_S64_S4096x1_S4096_n_0_n_n_0_1_1 x i) : (⟨S64, .i32⟩ : BufTy).Contents (Elt F) → (⟨S4096x1, .i32⟩ : BufTy).Contents (Elt F) → (⟨S4096, .i32⟩ : BufTy).Contents (Elt F)) ]

/-- Operations 40 to 62 of the line. -/
def seg4 : List (HloOp τ sig (Elt F)) :=
  [
    StableHlo.TRef.nullary main_call2.c (constantI S_ 32 0#32),
    StableHlo.TRef.unary main_call2.c main_call2.v0 (broadcastInDim S4096 ![] bcast_S_S4096),
    StableHlo.TRef.binary (.of main_v13) main_call2.v0 main_call2.v1 (cmpi .slt),
    StableHlo.TRef.nullary main_call2.c_0 (constantI S_ 32 16#32),
    StableHlo.TRef.unary main_call2.c_0 main_call2.v2 (broadcastInDim S4096 ![] bcast_S_S4096),
    StableHlo.TRef.binary (.of main_v13) main_call2.v2 main_call2.v3 addi,
    StableHlo.TRef.ternary main_call2.v1 main_call2.v3 (.of main_v13) main_call2.call0.v0 select,
    StableHlo.TRef.unary main_call2.call0.v0 main_call2.v5 (broadcastInDim S4096x1 ![0] bcast_S4096_S4096x1_0),
    StableHlo.TRef.nullary main_call2.c_1 (constantI S1 32 15#32),
    StableHlo.TRef.nullary main_call2.c_2 (constantI S_ 32 0#32),
    StableHlo.TRef.unary main_call2.c_2 main_call2.v6 (broadcastInDim S4096x1 ![] bcast_S_S4096x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S4096x1 ![0, 1] bcast_S1x1_S4096x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x1_S4096_d1 h_S_),
    StableHlo.TRef.binary (.of main_arg4) main_call2.v5 main_call2.v13 (fun x i => Host.gather gather_S16x256x128_S4096x1_S4096x256x128_12_0_n_n_0_1_1256128 x i),
    StableHlo.TRef.unary main_call2.v12 main_call2.v14 (broadcastInDim S4096x256x128 ![0] bcast_S4096_S4096x256x128_0),
    StableHlo.TRef.nullary main_call2.cst (constant S_ .f32 0x7FC00000#32),
    StableHlo.TRef.unary main_call2.cst main_call2.v15 (broadcastInDim S4096x256x128 ![] bcast_S_S4096x256x128),
    StableHlo.TRef.ternary main_call2.v14 main_call2.v13 main_call2.v15 main_call2.v16 select ]

/-- Operations 63 to 85 of the line. -/
def seg5 : List (HloOp τ sig (Elt F)) :=
  [
    StableHlo.TRef.nullary main_call3.c (constantI S_ 32 0#32),
    StableHlo.TRef.unary main_call3.c main_call3.v0 (broadcastInDim S4096 ![] bcast_S_S4096),
    StableHlo.TRef.binary (.of main_v13) main_call3.v0 main_call3.v1 (cmpi .slt),
    StableHlo.TRef.nullary main_call3.c_0 (constantI S_ 32 16#32),
    StableHlo.TRef.unary main_call3.c_0 main_call3.v2 (broadcastInDim S4096 ![] bcast_S_S4096),
    StableHlo.TRef.binary (.of main_v13) main_call3.v2 main_call3.v3 addi,
    StableHlo.TRef.ternary main_call3.v1 main_call3.v3 (.of main_v13) main_call3.call0.v0 select,
    StableHlo.TRef.unary main_call3.call0.v0 main_call3.v5 (broadcastInDim S4096x1 ![0] bcast_S4096_S4096x1_0),
    StableHlo.TRef.nullary main_call3.c_1 (constantI S1 32 15#32),
    StableHlo.TRef.nullary main_call3.c_2 (constantI S_ 32 0#32),
    StableHlo.TRef.unary main_call3.c_2 main_call3.v6 (broadcastInDim S4096x1 ![] bcast_S_S4096x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S4096x1 ![0, 1] bcast_S1x1_S4096x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4096x1_S4096_d1 h_S_),
    StableHlo.TRef.binary (.of main_arg5) main_call3.v5 main_call3.v13 (fun x i => Host.gather gather_S16x128_S4096x1_S4096x128_1_0_n_n_0_1_1128 x i),
    StableHlo.TRef.unary main_call3.v12 main_call3.v14 (broadcastInDim S4096x128 ![0] bcast_S4096_S4096x128_0),
    StableHlo.TRef.nullary main_call3.cst (constant S_ .f32 0x7FC00000#32),
    StableHlo.TRef.unary main_call3.cst main_call3.v15 (broadcastInDim S4096x128 ![] bcast_S_S4096x128),
    StableHlo.TRef.ternary main_call3.v14 main_call3.v13 main_call3.v15 main_call3.v16 select ]

/-- Operations 86 to 90 of the line. -/
def seg6 : List (HloOp τ sig (Elt F)) :=
  [
    StableHlo.binary main_v6 main_v14 main_v16 ((fun l r => Host.dotGeneral dot_S4096x256_S4096x256x128_S4096x128_1_1_n_2_0_0 none l r) : (⟨S4096x256, .f32⟩ : BufTy).Contents (Elt F) → (⟨S4096x256x128, .f32⟩ : BufTy).Contents (Elt F) → (⟨S4096x128, .f32⟩ : BufTy).Contents (Elt F)),
    StableHlo.binary main_v16 main_v15 main_v17 (addf : (⟨S4096x128, .f32⟩ : BufTy).Contents (Elt F) → (⟨S4096x128, .f32⟩ : BufTy).Contents (Elt F) → (⟨S4096x128, .f32⟩ : BufTy).Contents (Elt F)),
    StableHlo.TRef.nullary main_call4.cst (constant S_ .f32 0x00000000#32),
    StableHlo.TRef.unary main_call4.cst main_call4.v0 (broadcastInDim S4096x128 ![] bcast_S_S4096x128),
    StableHlo.TRef.binary (.of main_v17) main_call4.v0 main_call4.v1 maximumf ]

/-- Operations 91 to 113 of the line. -/
def seg7 : List (HloOp τ sig (Elt F)) :=
  [
    StableHlo.TRef.nullary main_call5.c (constantI S_ 32 0#32),
    StableHlo.TRef.unary main_call5.c main_call5.v0 (broadcastInDim S4096 ![] bcast_S_S4096),
    StableHlo.TRef.binary (.of main_arg1) main_call5.v0 main_call5.v1 (cmpi .slt),
    StableHlo.TRef.nullary main_call5.c_0 (constantI S_ 32 64#32),
    StableHlo.TRef.unary main_call5.c_0 main_call5.v2 (broadcastInDim S4096 ![] bcast_S_S4096),
    StableHlo.TRef.binary (.of main_arg1) main_call5.v2 main_call5.v3 addi,
    StableHlo.TRef.ternary main_call5.v1 main_call5.v3 (.of main_arg1) main_call5.call0.v0 select,
    StableHlo.TRef.unary main_call5.call0.v0 main_call5.v5 (broadcastInDim S4096x1 ![0] bcast_S4096_S4096x1_0),
    StableHlo.TRef.nullary main_call5.c_1 (constantI S1 32 63#32),
    StableHlo.TRef.nullary main_call5.c_2 (constantI S_ 32 0#32),
    StableHlo.TRef.unary main_call5.c_2 main_call5.v6 (broadcastInDim S4096x1 ![] bcast_S_S4096x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S4096x1 ![0, 1] bcast_S1x1_S4096x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1_S4096_d1 h_S_),
    StableHlo.TRef.binary (.of main_arg6) main_call5.v5 main_call5.v13 (fun x i => Host.gather gather_S64x128_S4096x1_S4096x128_1_0_n_n_0_1_1128 x i),
    StableHlo.TRef.unary main_call5.v12 main_call5.v14 (broadcastInDim S4096x128 ![0] bcast_S4096_S4096x128_0),
    StableHlo.TRef.nullary main_call5.cst (constant S_ .f32 0x7FC00000#32),
    StableHlo.TRef.unary main_call5.cst main_call5.v15 (broadcastInDim S4096x128 ![] bcast_S_S4096x128),
    StableHlo.TRef.ternary main_call5.v14 main_call5.v13 main_call5.v15 main_call5.v16 select ]

/-- Operations 114 to 135 of the line. -/
def seg8 : List (HloOp τ sig (Elt F)) :=
  [
    StableHlo.TRef.nullary main_call6.c (constantI S_ 32 0#32),
    StableHlo.TRef.unary main_call6.c main_call6.v0 (broadcastInDim S4096 ![] bcast_S_S4096),
    StableHlo.TRef.binary (.of main_arg1) main_call6.v0 main_call6.v1 (cmpi .slt),
    StableHlo.TRef.nullary main_call6.c_0 (constantI S_ 32 64#32),
    StableHlo.TRef.unary main_call6.c_0 main_call6.v2 (broadcastInDim S4096 ![] bcast_S_S4096),
    StableHlo.TRef.binary (.of main_arg1) main_call6.v2 main_call6.v3 addi,
    StableHlo.TRef.ternary main_call6.v1 main_call6.v3 (.of main_arg1) main_call6.call0.v0 select,
    StableHlo.TRef.unary main_call6.call0.v0 main_call6.v5 (broadcastInDim S4096x1 ![0] bcast_S4096_S4096x1_0),
    StableHlo.TRef.nullary main_call6.c_1 (constantI S1 32 63#32),
    StableHlo.TRef.nullary main_call6.c_2 (constantI S_ 32 0#32),
    StableHlo.TRef.unary main_call6.c_2 main_call6.v6 (broadcastInDim S4096x1 ![] bcast_S_S4096x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S4096x1 ![0, 1] bcast_S1x1_S4096x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S4096x1_S4096_d1 h_S_),
    StableHlo.TRef.binary (.of main_arg7) main_call6.v5 main_call6.v13 (fun x i => Host.gather gather_S64_S4096x1_S4096_n_0_n_n_0_1_1 x i),
    StableHlo.TRef.nullary main_call6.cst (constant S_ .f32 0x7FC00000#32),
    StableHlo.TRef.unary main_call6.cst main_call6.v14 (broadcastInDim S4096 ![] bcast_S_S4096),
    StableHlo.TRef.ternary main_call6.v12 main_call6.v13 main_call6.v14 main_call6.v15 select ]

/-- Operations 136 to 139 of the line. -/
def seg9 : List (HloOp τ sig (Elt F)) :=
  [
    StableHlo.binary main_v18 main_v19 main_v21 (mulf : (⟨S4096x128, .f32⟩ : BufTy).Contents (Elt F) → (⟨S4096x128, .f32⟩ : BufTy).Contents (Elt F) → (⟨S4096x128, .f32⟩ : BufTy).Contents (Elt F)),
    StableHlo.nullary main_cst (constant S_ .f32 0x00000000#32),
    StableHlo.binary main_v21 main_cst main_v22 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.binary main_v22 main_v20 main_v23 (addf : (⟨S4096, .f32⟩ : BufTy).Contents (Elt F) → (⟨S4096, .f32⟩ : BufTy).Contents (Elt F) → (⟨S4096, .f32⟩ : BufTy).Contents (Elt F)) ]

set_option maxRecDepth 16384 in
/-- The line is its nine pieces in order. -/
theorem ops_split : (ops : List (HloOp τ sig (Elt F)))
    = seg1 ++ (seg2 ++ (seg3 ++ (seg4 ++ (seg5 ++ (seg6 ++ (seg7 ++ (seg8 ++ seg9))))))) := rfl

/-- The line's fold, piece inside piece. -/
theorem after_ops (V : Valuation τ sig (Elt F)) :
    after ops V = after seg9 (after seg8 (after seg7 (after seg6 (after seg5 (after seg4 (after seg3 (after seg2 (after seg1 V)))))))) := by
  rw [ops_split]; simp only [after_append]

end Cert.RefSide

end
-- ==== Proof.RefStages.lean ====
/-
  The reference's result as a function of its eight argument arrays, stage by stage, each stage the composition of
  the array operations of one call (or of @main's own lines between two calls), spelled as the program spells them.

  The routing table is `arange(64) mod 16` by the floor-remainder recipe: the truncated remainder, corrected by the
  divisor where it is nonzero and its sign differs from the divisor's. A row selection (`take`) first lets a negative
  index count from the end (`i + n` where `i < 0`), then gathers the rows, and replaces by a NaN every row whose index
  is outside `0 ≤ i ≤ n - 1`. The network is a dense layer with a rectifier, the sample's own expert (a batched product
  over the gathered weights) with a rectifier, and the sample's own head (a product reduced over the features).
-/
import proofs.«211788_g47691316855323_cont_8to1_c_563_28_alg».proof.Proof.Gen.ReferenceIdeal

noncomputable section

namespace Cert.RefSide

open Cert.ReferenceIdeal Cert.ReferenceIdeal.Gen Idealize.ShloMosaic

variable {F : FTy → Type} [FloatOps F]

/-! ### The routing table -/

/-- The divisor the remainder divides by: 16, or 1 were it 0. -/
def remDiv : IVec S_ 32 :=
  select (cmpi .eq (id (constantI S_ 32 16#32)) (constantI S_ 32 0#32)) (constantI S_ 32 1#32) (id (constantI S_ 32 16#32))

/-- `i rem 16` for `i = 0 … 63`: the remainder with the dividend's sign. -/
def remTrunc : IVec S64 32 :=
  Host.remsi (iotaInDim S64 32 0) (broadcastInDim S64 ![] bcast_S_S64 remDiv)

/-- `i mod 16` for `i = 0 … 63`: the truncated remainder, plus the divisor where it is nonzero and of the other sign. -/
def remTable : IVec S64 32 :=
  select
    (andi
      (cmpi .ne (cmpi .slt remTrunc (broadcastInDim S64 ![] bcast_S_S64 (constantI S_ 32 0#32)))
        (broadcastInDim S64 ![] bcast_S_S64 (cmpi .slt remDiv (constantI S_ 32 0#32))))
      (cmpi .ne remTrunc (broadcastInDim S64 ![] bcast_S_S64 (constantI S_ 32 0#32))))
    (addi remTrunc (broadcastInDim S64 ![] bcast_S_S64 remDiv))
    remTrunc

/-! ### Row selection -/

/-- A negative index counts from the end: `i + n` where `i < 0`, else `i`. -/
def wrapIdx (n : BitVec 32) (i : IVec S4096 32) : IVec S4096 32 :=
  select (cmpi .slt i (broadcastInDim S4096 ![] bcast_S_S4096 (constantI S_ 32 0#32)))
    (addi i (broadcastInDim S4096 ![] bcast_S_S4096 (constantI S_ 32 n))) i

/-- The indices as a column: one index vector (of length one) per sample. -/
def col (i : IVec S4096 32) : IVec S4096x1 32 :=
  broadcastInDim S4096x1 ![0] bcast_S4096_S4096x1_0 i

/-- Where the index names a row: `0 ≤ i` and `i ≤ hi`, over the (one) component of each index vector. -/
def rowOk (hi : BitVec 32) (c : IVec S4096x1 32) : IVec S4096 1 :=
  Host.reduce IntOp.andi
    (andi (cmpi .sge c (broadcastInDim S4096x1 ![] bcast_S_S4096x1 (constantI S_ 32 0#32)))
      (cmpi .sle c (broadcastInDim S4096x1 ![0, 1] bcast_S1x1_S4096x1_0_1
        (broadcastInDim S1x1 ![1] bcast_S1_S1x1_1 (constantI S1 32 hi)))))
    (constantI S_ 1 1#1) reducesTo_S4096x1_S4096_d1 h_S_

/-- The routing table read at the drug indices: each sample's pathway. -/
def pwIdx (drug : IVec S4096 32) : IVec S4096 32 :=
  Host.gather gather_S64_S4096x1_S4096_n_0_n_n_0_1_1 remTable (col (wrapIdx 64#32 drug))

/-- Each sample's expert weights: rows of the sixteen `256 × 128` matrices. -/
def takeWp (W : FVec F S16x256x128 .f32) (i : IVec S4096 32) : FVec F S4096x256x128 .f32 :=
  select (broadcastInDim S4096x256x128 ![0] bcast_S4096_S4096x256x128_0 (rowOk 15#32 (col (wrapIdx 16#32 i))))
    (Host.gather gather_S16x256x128_S4096x1_S4096x256x128_12_0_n_n_0_1_1256128 W (col (wrapIdx 16#32 i)))
    (broadcastInDim S4096x256x128 ![] bcast_S_S4096x256x128 (constant S_ .f32 0x7FC00000#32))

/-- Each sample's expert bias. -/
def takeBp (W : FVec F S16x128 .f32) (i : IVec S4096 32) : FVec F S4096x128 .f32 :=
  select (broadcastInDim S4096x128 ![0] bcast_S4096_S4096x128_0 (rowOk 15#32 (col (wrapIdx 16#32 i))))
    (Host.gather gather_S16x128_S4096x1_S4096x128_1_0_n_n_0_1_1128 W (col (wrapIdx 16#32 i)))
    (broadcastInDim S4096x128 ![] bcast_S_S4096x128 (constant S_ .f32 0x7FC00000#32))

/-- Each sample's head weights. -/
def takeWd (W : FVec F S64x128 .f32) (i : IVec S4096 32) : FVec F S4096x128 .f32 :=
  select (broadcastInDim S4096x128 ![0] bcast_S4096_S4096x128_0 (rowOk 63#32 (col (wrapIdx 64#32 i))))
    (Host.gather gather_S64x128_S4096x1_S4096x128_1_0_n_n_0_1_1128 W (col (wrapIdx 64#32 i)))
    (broadcastInDim S4096x128 ![] bcast_S_S4096x128 (constant S_ .f32 0x7FC00000#32))

/-- Each sample's head bias. -/
def takeBd (W : FVec F S64 .f32) (i : IVec S4096 32) : FVec F S4096 .f32 :=
  select (rowOk 63#32 (col (wrapIdx 64#32 i)))
    (Host.gather gather_S64_S4096x1_S4096_n_0_n_n_0_1_1 W (col (wrapIdx 64#32 i)))
    (broadcastInDim S4096 ![] bcast_S_S4096 (constant S_ .f32 0x7FC00000#32))

/-! ### The network -/

/-- The rectifier on the shared encoder's width. -/
def relu256 (a : FVec F S4096x256 .f32) : FVec F S4096x256 .f32 :=
  maximumf a (broadcastInDim S4096x256 ![] bcast_S_S4096x256 (constant S_ .f32 0x00000000#32))

/-- The rectifier on an expert's width. -/
def relu128 (a : FVec F S4096x128 .f32) : FVec F S4096x128 .f32 :=
  maximumf a (broadcastInDim S4096x128 ![] bcast_S_S4096x128 (constant S_ .f32 0x00000000#32))

/-- The shared encoder: `relu (x · W_shared + b_shared)`. -/
def hidden (x : FVec F S4096x2048 .f32) (Ws : FVec F S2048x256 .f32) (bs : FVec F S256 .f32) : FVec F S4096x256 .f32 :=
  relu256 (addf (Host.dotGeneral dot_S4096x2048_S2048x256_S4096x256_1_0_0_1_n_n none x Ws)
    (broadcastInDim S4096x256 ![0, 1] bcast_S1x256_S4096x256_0_1 (broadcastInDim S1x256 ![1] bcast_S256_S1x256_1 bs)))

/-- Each sample's own expert: `relu (h_b · W_pw[p_b] + b_pw[p_b])`. -/
def expertAct (x : FVec F S4096x2048 .f32) (drug : IVec S4096 32) (Ws : FVec F S2048x256 .f32) (bs : FVec F S256 .f32)
    (Wp : FVec F S16x256x128 .f32) (bp : FVec F S16x128 .f32) : FVec F S4096x128 .f32 :=
  relu128 (addf (Host.dotGeneral dot_S4096x256_S4096x256x128_S4096x128_1_1_n_2_0_0 none (hidden x Ws bs) (takeWp Wp (pwIdx drug)))
    (takeBp bp (pwIdx drug)))

/-- The reference's result: each sample's own head on its expert's activation. -/
def refOut (x : FVec F S4096x2048 .f32) (drug : IVec S4096 32) (Ws : FVec F S2048x256 .f32) (bs : FVec F S256 .f32)
    (Wp : FVec F S16x256x128 .f32) (bp : FVec F S16x128 .f32) (Wd : FVec F S64x128 .f32) (bd : FVec F S64 .f32) :
    FVec F S4096 .f32 :=
  addf (Host.reduceAdd (mulf (expertAct x drug Ws bs Wp bp) (takeWd Wd drug)) (constant S_ .f32 0x00000000#32)
    reducesTo_S4096x128_S4096_d1 h_S_) (takeBd bd drug)

end Cert.RefSide

end
-- ==== Proof.RefSegA.lean ====
/-
  Pieces 1 to 3 of the reference's line over an arbitrary valuation: the buffer of the value each computes ends at the
  stage's function of the buffers it reads (each operand the result of the operation defining it, back to the piece's
  inputs), and the buffers later pieces still read, which no operation of the piece writes, keep their contents.
-/
import proofs.«211788_g47691316855323_cont_8to1_c_563_28_alg».proof.Proof.RefSegs
import proofs.«211788_g47691316855323_cont_8to1_c_563_28_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ### Piece 1: the routing table -/

set_option maxRecDepth 16384 in
set_option maxHeartbeats 2000000 in
/-- What piece 1 leaves at the buffer of the value it computes. -/
theorem seg1_out (W : Valuation τ sig (Elt F)) :
    after seg1 W (main_v1 : DevRef τ sig) = remTable := by
  unfold seg1
  after_results_simp <;> rfl

set_option maxRecDepth 16384 in
theorem seg1_arg0 (W : Valuation τ sig (Elt F)) :
    after seg1 W (main_arg0 : DevRef τ sig) = W (main_arg0 : DevRef τ sig) := by
  unfold seg1
  after_results_simp

set_option maxRecDepth 16384 in
theorem seg1_arg1 (W : Valuation τ sig (Elt F)) :
    after seg1 W (main_arg1 : DevRef τ sig) = W (main_arg1 : DevRef τ sig) := by
  unfold seg1
  after_results_simp

set_option maxRecDepth 16384 in
theorem seg1_arg2 (W : Valuation τ sig (Elt F)) :
    after seg1 W (main_arg2 : DevRef τ sig) = W (main_arg2 : DevRef τ sig) := by
  unfold seg1
  after_results_simp

set_option maxRecDepth 16384 in
theorem seg1_arg3 (W : Valuation τ sig (Elt F)) :
    after seg1 W (main_arg3 : DevRef τ sig) = W (main_arg3 : DevRef τ sig) := by
  unfold seg1
  after_results_simp

set_option maxRecDepth 16384 in
theorem seg1_arg4 (W : Valuation τ sig (Elt F)) :
    after seg1 W (main_arg4 : DevRef τ sig) = W (main_arg4 : DevRef τ sig) := by
  unfold seg1
  after_results_simp

set_option maxRecDepth 16384 in
theorem seg1_arg5 (W : Valuation τ sig (Elt F)) :
    after seg1 W (main_arg5 : DevRef τ sig) = W (main_arg5 : DevRef τ sig) := by
  unfold seg1
  after_results_simp

set_option maxRecDepth 16384 in
theorem seg1_arg6 (W : Valuation τ sig (Elt F)) :
    after seg1 W (main_arg6 : DevRef τ sig) = W (main_arg6 : DevRef τ sig) := by
  unfold seg1
  after_results_simp

set_option maxRecDepth 16384 in
theorem seg1_arg7 (W : Valuation τ sig (Elt F)) :
    after seg1 W (main_arg7 : DevRef τ sig) = W (main_arg7 : DevRef τ sig) := by
  unfold seg1
  after_results_simp

/-! ### Piece 2: the shared encoder's activation -/

set_option maxRecDepth 16384 in
set_option maxHeartbeats 2000000 in
/-- What piece 2 leaves at the buffer of the value it computes. -/
theorem seg2_out (W : Valuation τ sig (Elt F)) :
    after seg2 W (main_v6 : DevRef τ sig) = hidden (F := F) (W (main_arg0 : DevRef τ sig)) (W (main_arg2 : DevRef τ sig)) (W (main_arg3 : DevRef τ sig)) := by
  unfold seg2
  after_results_simp <;> rfl

set_option maxRecDepth 16384 in
theorem seg2_v1 (W : Valuation τ sig (Elt F)) :
    after seg2 W (main_v1 : DevRef τ sig) = W (main_v1 : DevRef τ sig) := by
  unfold seg2
  after_results_simp

set_option maxRecDepth 16384 in
theorem seg2_arg1 (W : Valuation τ sig (Elt F)) :
    after seg2 W (main_arg1 : DevRef τ sig) = W (main_arg1 : DevRef τ sig) := by
  unfold seg2
  after_results_simp

set_option maxRecDepth 16384 in
theorem seg2_arg4 (W : Valuation τ sig (Elt F)) :
    after seg2 W (main_arg4 : DevRef τ sig) = W (main_arg4 : DevRef τ sig) := by
  unfold seg2
  after_results_simp

set_option maxRecDepth 16384 in
theorem seg2_arg5 (W : Valuation τ sig (Elt F)) :
    after seg2 W (main_arg5 : DevRef τ sig) = W (main_arg5 : DevRef τ sig) := by
  unfold seg2
  after_results_simp

set_option maxRecDepth 16384 in
theorem seg2_arg6 (W : Valuation τ sig (Elt F)) :
    after seg2 W (main_arg6 : DevRef τ sig) = W (main_arg6 : DevRef τ sig) := by
  unfold seg2
  after_results_simp

set_option maxRecDepth 16384 in
theorem seg2_arg7 (W : Valuation τ sig (Elt F)) :
    after seg2 W (main_arg7 : DevRef τ sig) = W (main_arg7 : DevRef τ sig) := by
  unfold seg2
  after_results_simp

/-! ### Piece 3: each sample's pathway -/

set_option maxRecDepth 16384 in
set_option maxHeartbeats 2000000 in
/-- What piece 3 leaves at the buffer of the value it computes. -/
theorem seg3_out (W : Valuation τ sig (Elt F)) :
    after seg3 W (main_v13 : DevRef τ sig) = Host.gather gather_S64_S4096x1_S4096_n_0_n_n_0_1_1 (W (main_v1 : DevRef τ sig)) (col (wrapIdx 64#32 (W (main_arg1 : DevRef τ sig)))) := by
  unfold seg3
  after_results_simp <;> rfl

set_option maxRecDepth 16384 in
theorem seg3_arg4 (W : Valuation τ sig (Elt F)) :
    after seg3 W (main_arg4 : DevRef τ sig) = W (main_arg4 : DevRef τ sig) := by
  unfold seg3
  after_results_simp

set_option maxRecDepth 16384 in
theorem seg3_arg5 (W : Valuation τ sig (Elt F)) :
    after seg3 W (main_arg5 : DevRef τ sig) = W (main_arg5 : DevRef τ sig) := by
  unfold seg3
  after_results_simp

set_option maxRecDepth 16384 in
theorem seg3_v6 (W : Valuation τ sig (Elt F)) :
    after seg3 W (main_v6 : DevRef τ sig) = W (main_v6 : DevRef τ sig) := by
  unfold seg3
  after_results_simp

set_option maxRecDepth 16384 in
theorem seg3_arg6 (W : Valuation τ sig (Elt F)) :
    after seg3 W (main_arg6 : DevRef τ sig) = W (main_arg6 : DevRef τ sig) := by
  unfold seg3
  after_results_simp

set_option maxRecDepth 16384 in
theorem seg3_arg1 (W : Valuation τ sig (Elt F)) :
    after seg3 W (main_arg1 : DevRef τ sig) = W (main_arg1 : DevRef τ sig) := by
  unfold seg3
  after_results_simp

set_option maxRecDepth 16384 in
theorem seg3_arg7 (W : Valuation τ sig (Elt F)) :
    after seg3 W (main_arg7 : DevRef τ sig) = W (main_arg7 : DevRef τ sig) := by
  unfold seg3
  after_results_simp

end Cert.RefSide

end
-- ==== Proof.RefSegB.lean ====
/-
  Pieces 4 and 5 of the reference's line (the two row selections at the pathway indices) over an arbitrary valuation:
  the result buffer ends at the stage's function of the table and the indices, the buffers later pieces still read keep
  their contents.
-/
import proofs.«211788_g47691316855323_cont_8to1_c_563_28_alg».proof.Proof.RefSegs
import proofs.«211788_g47691316855323_cont_8to1_c_563_28_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ### Piece 4: each sample's expert weights -/

set_option maxRecDepth 16384 in
set_option maxHeartbeats 2000000 in
/-- What piece 4 leaves at the buffer of the value it computes. -/
theorem seg4_out (W : Valuation τ sig (Elt F)) :
    after seg4 W (main_v14 : DevRef τ sig) = takeWp (F := F) (W (main_arg4 : DevRef τ sig)) (W (main_v13 : DevRef τ sig)) := by
  unfold seg4
  after_results_simp <;> rfl

set_option maxRecDepth 16384 in
theorem seg4_arg5 (W : Valuation τ sig (Elt F)) :
    after seg4 W (main_arg5 : DevRef τ sig) = W (main_arg5 : DevRef τ sig) := by
  unfold seg4
  after_results_simp

set_option maxRecDepth 16384 in
theorem seg4_v13 (W : Valuation τ sig (Elt F)) :
    after seg4 W (main_v13 : DevRef τ sig) = W (main_v13 : DevRef τ sig) := by
  unfold seg4
  after_results_simp

set_option maxRecDepth 16384 in
theorem seg4_v6 (W : Valuation τ sig (Elt F)) :
    after seg4 W (main_v6 : DevRef τ sig) = W (main_v6 : DevRef τ sig) := by
  unfold seg4
  after_results_simp

set_option maxRecDepth 16384 in
theorem seg4_arg6 (W : Valuation τ sig (Elt F)) :
    after seg4 W (main_arg6 : DevRef τ sig) = W (main_arg6 : DevRef τ sig) := by
  unfold seg4
  after_results_simp

set_option maxRecDepth 16384 in
theorem seg4_arg1 (W : Valuation τ sig (Elt F)) :
    after seg4 W (main_arg1 : DevRef τ sig) = W (main_arg1 : DevRef τ sig) := by
  unfold seg4
  after_results_simp

set_option maxRecDepth 16384 in
theorem seg4_arg7 (W : Valuation τ sig (Elt F)) :
    after seg4 W (main_arg7 : DevRef τ sig) = W (main_arg7 : DevRef τ sig) := by
  unfold seg4
  after_results_simp

/-! ### Piece 5: each sample's expert bias -/

set_option maxRecDepth 16384 in
set_option maxHeartbeats 2000000 in
/-- What piece 5 leaves at the buffer of the value it computes. -/
theorem seg5_out (W : Valuation τ sig (Elt F)) :
    after seg5 W (main_v15 : DevRef τ sig) = takeBp (F := F) (W (main_arg5 : DevRef τ sig)) (W (main_v13 : DevRef τ sig)) := by
  unfold seg5
  after_results_simp <;> rfl

set_option maxRecDepth 16384 in
theorem seg5_v6 (W : Valuation τ sig (Elt F)) :
    after seg5 W (main_v6 : DevRef τ sig) = W (main_v6 : DevRef τ sig) := by
  unfold seg5
  after_results_simp

set_option maxRecDepth 16384 in
theorem seg5_v14 (W : Valuation τ sig (Elt F)) :
    after seg5 W (main_v14 : DevRef τ sig) = W (main_v14 : DevRef τ sig) := by
  unfold seg5
  after_results_simp

set_option maxRecDepth 16384 in
theorem seg5_arg6 (W : Valuation τ sig (Elt F)) :
    after seg5 W (main_arg6 : DevRef τ sig) = W (main_arg6 : DevRef τ sig) := by
  unfold seg5
  after_results_simp

set_option maxRecDepth 16384 in
theorem seg5_arg1 (W : Valuation τ sig (Elt F)) :
    after seg5 W (main_arg1 : DevRef τ sig) = W (main_arg1 : DevRef τ sig) := by
  unfold seg5
  after_results_simp

set_option maxRecDepth 16384 in
theorem seg5_arg7 (W : Valuation τ sig (Elt F)) :
    after seg5 W (main_arg7 : DevRef τ sig) = W (main_arg7 : DevRef τ sig) := by
  unfold seg5
  after_results_simp

end Cert.RefSide

end
-- ==== Proof.RefSegC.lean ====
/-
  Pieces 6 to 9 of the reference's line (the expert, the two row selections at the drug indices, the head) over an
  arbitrary valuation: the result buffer ends at the stage's function of the buffers read, the buffers later pieces
  still read keep their contents.
-/
import proofs.«211788_g47691316855323_cont_8to1_c_563_28_alg».proof.Proof.RefSegs
import proofs.«211788_g47691316855323_cont_8to1_c_563_28_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ### Piece 6: each sample's expert activation -/

set_option maxRecDepth 16384 in
set_option maxHeartbeats 2000000 in
/-- What piece 6 leaves at the buffer of the value it computes. -/
theorem seg6_out (W : Valuation τ sig (Elt F)) :
    after seg6 W (main_v18 : DevRef τ sig) = relu128 (F := F) (addf (Host.dotGeneral dot_S4096x256_S4096x256x128_S4096x128_1_1_n_2_0_0 none (W (main_v6 : DevRef τ sig)) (W (main_v14 : DevRef τ sig))) (W (main_v15 : DevRef τ sig))) := by
  unfold seg6
  after_results_simp <;> rfl

set_option maxRecDepth 16384 in
theorem seg6_arg6 (W : Valuation τ sig (Elt F)) :
    after seg6 W (main_arg6 : DevRef τ sig) = W (main_arg6 : DevRef τ sig) := by
  unfold seg6
  after_results_simp

set_option maxRecDepth 16384 in
theorem seg6_arg1 (W : Valuation τ sig (Elt F)) :
    after seg6 W (main_arg1 : DevRef τ sig) = W (main_arg1 : DevRef τ sig) := by
  unfold seg6
  after_results_simp

set_option maxRecDepth 16384 in
theorem seg6_arg7 (W : Valuation τ sig (Elt F)) :
    after seg6 W (main_arg7 : DevRef τ sig) = W (main_arg7 : DevRef τ sig) := by
  unfold seg6
  after_results_simp

/-! ### Piece 7: each sample's head weights -/

set_option maxRecDepth 16384 in
set_option maxHeartbeats 2000000 in
/-- What piece 7 leaves at the buffer of the value it computes. -/
theorem seg7_out (W : Valuation τ sig (Elt F)) :
    after seg7 W (main_v19 : DevRef τ sig) = takeWd (F := F) (W (main_arg6 : DevRef τ sig)) (W (main_arg1 : DevRef τ sig)) := by
  unfold seg7
  after_results_simp <;> rfl

set_option maxRecDepth 16384 in
theorem seg7_v18 (W : Valuation τ sig (Elt F)) :
    after seg7 W (main_v18 : DevRef τ sig) = W (main_v18 : DevRef τ sig) := by
  unfold seg7
  after_results_simp

set_option maxRecDepth 16384 in
theorem seg7_arg7 (W : Valuation τ sig (Elt F)) :
    after seg7 W (main_arg7 : DevRef τ sig) = W (main_arg7 : DevRef τ sig) := by
  unfold seg7
  after_results_simp

set_option maxRecDepth 16384 in
theorem seg7_arg1 (W : Valuation τ sig (Elt F)) :
    after seg7 W (main_arg1 : DevRef τ sig) = W (main_arg1 : DevRef τ sig) := by
  unfold seg7
  after_results_simp

/-! ### Piece 8: each sample's head bias -/

set_option maxRecDepth 16384 in
set_option maxHeartbeats 2000000 in
/-- What piece 8 leaves at the buffer of the value it computes. -/
theorem seg8_out (W : Valuation τ sig (Elt F)) :
    after seg8 W (main_v20 : DevRef τ sig) = takeBd (F := F) (W (main_arg7 : DevRef τ sig)) (W (main_arg1 : DevRef τ sig)) := by
  unfold seg8
  after_results_simp <;> rfl

set_option maxRecDepth 16384 in
theorem seg8_v18 (W : Valuation τ sig (Elt F)) :
    after seg8 W (main_v18 : DevRef τ sig) = W (main_v18 : DevRef τ sig) := by
  unfold seg8
  after_results_simp

set_option maxRecDepth 16384 in
theorem seg8_v19 (W : Valuation τ sig (Elt F)) :
    after seg8 W (main_v19 : DevRef τ sig) = W (main_v19 : DevRef τ sig) := by
  unfold seg8
  after_results_simp

/-! ### Piece 9: the result -/

set_option maxRecDepth 16384 in
set_option maxHeartbeats 2000000 in
/-- What piece 9 leaves at the buffer of the value it computes. -/
theorem seg9_out (W : Valuation τ sig (Elt F)) :
    after seg9 W (main_v23 : DevRef τ sig) = addf (Host.reduceAdd (mulf (W (main_v18 : DevRef τ sig)) (W (main_v19 : DevRef τ sig))) (constant (F := F) S_ .f32 0x00000000#32) reducesTo_S4096x128_S4096_d1 h_S_) (W (main_v20 : DevRef τ sig)) := by
  unfold seg9
  after_results_simp <;> rfl

end Cert.RefSide

end
-- ==== Proof.RefRunOut.lean ====
/-
  The fold of the reference's 139 operations, read at the result's buffer, is the staged function of the arguments'
  contents. The fold is the nine pieces' folds one inside the other; from the last piece inwards, each piece's result
  buffer is the piece's stage applied to what the piece before left in the buffers it reads, and a buffer a piece does
  not write is what the piece before left there. What remains reads only the arguments' launch contents, and is the
  stages composed: the result function.
-/
import proofs.«211788_g47691316855323_cont_8to1_c_563_28_alg».proof.Proof.RefSegA
import proofs.«211788_g47691316855323_cont_8to1_c_563_28_alg».proof.Proof.RefSegB
import proofs.«211788_g47691316855323_cont_8to1_c_563_28_alg».proof.Proof.RefSegC

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- At the result's buffer the fold is `refOut` of the eight arguments' contents. -/
theorem after_out (V : Valuation τ sig (Elt F)) :
    after ops V (main_v23 : DevRef τ sig)
      = refOut (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [after_ops]
  rw [seg9_out, seg8_out, seg8_v18, seg8_v19, seg7_out, seg7_v18, seg7_arg7, seg7_arg1, seg6_out, seg6_arg6, seg6_arg1, seg6_arg7, seg5_out, seg5_v6, seg5_v14, seg5_arg6, seg5_arg1, seg5_arg7, seg4_out, seg4_arg5, seg4_v13, seg4_v6, seg4_arg6, seg4_arg1, seg4_arg7, seg3_out, seg3_arg4, seg3_arg5, seg3_v6, seg3_arg6, seg3_arg1, seg3_arg7, seg2_out, seg2_v1, seg2_arg1, seg2_arg4, seg2_arg5, seg2_arg6, seg2_arg7, seg1_out, seg1_arg0, seg1_arg1, seg1_arg2, seg1_arg3, seg1_arg4, seg1_arg5, seg1_arg6, seg1_arg7]
  rfl

end Cert.RefSide

end
-- ==== Proof.RefRunArgs.lean ====
/-
  No operation of the reference's straight line writes an argument's buffer: each of the 139 writes the buffer of
  the value it defines, and those are 139 buffers other than the eight arguments'. So the fold of the operations'
  results leaves each argument's contents as they were.
-/
import proofs.«211788_g47691316855323_cont_8to1_c_563_28_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem after_arg0 (V : Valuation τ sig (Elt F)) :
    after ops V (main_arg0 : DevRef τ sig) = V (main_arg0 : DevRef τ sig) := by
  after_results_simp

set_option maxRecDepth 16384 in
set_option maxHeartbeats 4000000 in
theorem after_arg1 (V : Valuation τ sig (Elt F)) :
    after ops V (main_arg1 : DevRef τ sig) = V (main_arg1 : DevRef τ sig) := by
  after_results_simp

set_option maxRecDepth 16384 in
set_option maxHeartbeats 4000000 in
theorem after_arg2 (V : Valuation τ sig (Elt F)) :
    after ops V (main_arg2 : DevRef τ sig) = V (main_arg2 : DevRef τ sig) := by
  after_results_simp

set_option maxRecDepth 16384 in
set_option maxHeartbeats 4000000 in
theorem after_arg3 (V : Valuation τ sig (Elt F)) :
    after ops V (main_arg3 : DevRef τ sig) = V (main_arg3 : DevRef τ sig) := by
  after_results_simp

set_option maxRecDepth 16384 in
set_option maxHeartbeats 4000000 in
theorem after_arg4 (V : Valuation τ sig (Elt F)) :
    after ops V (main_arg4 : DevRef τ sig) = V (main_arg4 : DevRef τ sig) := by
  after_results_simp

set_option maxRecDepth 16384 in
set_option maxHeartbeats 4000000 in
theorem after_arg5 (V : Valuation τ sig (Elt F)) :
    after ops V (main_arg5 : DevRef τ sig) = V (main_arg5 : DevRef τ sig) := by
  after_results_simp

set_option maxRecDepth 16384 in
set_option maxHeartbeats 4000000 in
theorem after_arg6 (V : Valuation τ sig (Elt F)) :
    after ops V (main_arg6 : DevRef τ sig) = V (main_arg6 : DevRef τ sig) := by
  after_results_simp

set_option maxRecDepth 16384 in
set_option maxHeartbeats 4000000 in
theorem after_arg7 (V : Valuation τ sig (Elt F)) :
    after ops V (main_arg7 : DevRef τ sig) = V (main_arg7 : DevRef τ sig) := by
  after_results_simp

end Cert.RefSide

end
-- ==== Proof.RefRun.lean ====
/-
  The reference's run at the ideal instance. From any memory with zero counters every weakly fair execution of @main
  terminates; the result's buffer ends at the staged function `refOut` of the eight arguments' launch contents, and
  the arguments' buffers end as they were: the run of a straight line is the fold of its operations over the launch
  contents, the fold at the result's buffer is `refOut`, and no operation writes an argument.
-/
import proofs.«211788_g47691316855323_cont_8to1_c_563_28_alg».proof.Proof.RefRunOut
import proofs.«211788_g47691316855323_cont_8to1_c_563_28_alg».proof.Proof.RefRunArgs
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

/-- On every device, from any memory with zero counters: every weakly fair execution of @main terminates with the
    result at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = refOut (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v23).trans (after_out (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c))⟩)
    (run_fold m ρ)

end Cert.RefSide

end
-- ==== Proof.RefIdx.lean ====
/-
  The reference's integer stages read at an index.

  The routing table at `i < 64` is `i mod 16`: the divisor 16 is not 0, so it is kept; the truncated remainder of the
  nonnegative `i` by 16 is `i mod 16`, nonnegative, as the divisor is, so no correction applies. All 64 entries are
  closed words, compared by evaluation.

  A word below `2^31` is nonnegative as a signed integer, and two such words compare signed as they compare unsigned.
  So for an index word below `2^31`: it is not negative, the wrap leaves it; below or at a bound `hi < 2^31` it passes
  both tests of the row mask, and the mask's conjunction over the one component of its index vector is 1.
-/
import proofs.«211788_g47691316855323_cont_8to1_c_563_28_alg».proof.Proof.RefStages
import Idealize.ShloMosaic.Lib.IdealHost
import Idealize.ShloMosaic.Lib.Pipeline.Value
import Idealize.ShloMosaic.Lib.ReduceAll

noncomputable section

namespace Cert.RefSide

open Cert.ReferenceIdeal Cert.ReferenceIdeal.Gen Idealize.ShloMosaic Idealize.ShloMosaic.ValueIdx

/-! ### The routing table -/

set_option maxRecDepth 100000 in
/-- The routing table at `i` is `i mod 16`. -/
theorem remTable_apply : ∀ i : Fin 64, remTable (ix1 i) = BitVec.ofNat 32 (i.val % 16) := by decide

/-! ### Signed comparisons of small words -/

/-- A word below `2^31` is its unsigned value as a signed integer. -/
theorem toInt_of_lt (x : BitVec 32) (h : x.toNat < 2 ^ 31) : x.toInt = (x.toNat : Int) := by
  rw [BitVec.toInt_eq_toNat_cond]; split <;> omega

theorem cmpi_slt_zero (x : BitVec 32) (h : x.toNat < 2 ^ 31) : IntOp.cmpi .slt x 0#32 = 0#1 := by
  have hx := toInt_of_lt x h
  have : x.slt 0#32 = false := by
    rw [BitVec.slt]; simp only [decide_eq_false_iff_not, not_lt]; rw [hx]; simp
  show BitVec.ofBool (x.slt 0#32) = 0#1
  rw [this]; rfl

theorem cmpi_sge_zero (x : BitVec 32) (h : x.toNat < 2 ^ 31) : IntOp.cmpi .sge x 0#32 = 1#1 := by
  have hx := toInt_of_lt x h
  have : (0#32 : BitVec 32).sle x = true := by
    rw [BitVec.sle]; simp only [decide_eq_true_eq]; rw [hx]; simp
  show BitVec.ofBool ((0#32 : BitVec 32).sle x) = 1#1
  rw [this]; rfl

theorem cmpi_sle_of_le (x y : BitVec 32) (hx : x.toNat < 2 ^ 31) (hy : y.toNat < 2 ^ 31) (h : x.toNat ≤ y.toNat) :
    IntOp.cmpi .sle x y = 1#1 := by
  have : x.sle y = true := by
    rw [BitVec.sle]; simp only [decide_eq_true_eq]; rw [toInt_of_lt x hx, toInt_of_lt y hy]; exact_mod_cast h
  show BitVec.ofBool (x.sle y) = 1#1
  rw [this]; rfl

/-! ### The index wrap, the column, the row mask -/

/-- An index that is not negative is left by the wrap. -/
theorem wrapIdx_apply (n : BitVec 32) (i : IVec S4096 32) (b : Fin 4096) (h : (i (ix1 b)).toNat < 2 ^ 31) :
    wrapIdx n i (ix1 b) = i (ix1 b) := by
  unfold wrapIdx
  rw [select_apply]
  have hc : cmpi .slt i (broadcastInDim S4096 ![] bcast_S_S4096 (constantI S_ 32 0#32)) (ix1 b) = 0#1 := by
    show IntOp.cmpi .slt (i (ix1 b)) (broadcastInDim S4096 ![] bcast_S_S4096 (constantI S_ 32 0#32) (ix1 b)) = 0#1
    rw [broadcastInDim_scalar_apply]
    exact cmpi_slt_zero _ h
  rw [hc, select_zero]

/-- The column of indices at row `b` is the index of sample `b`. -/
theorem col_apply (i : IVec S4096 32) (b : Fin 4096) (q : Fin 1) : col i (ix2 b q) = i (ix1 b) := by
  unfold col
  refine broadcastInDim_apply _ _ _ _ (ix1 b) ?_
  intro a
  match a with
  | ⟨0, _⟩ => rfl

/-- A fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Where every index of the column is between 0 and `hi`, the row mask is 1. -/
theorem rowOk_apply (hi : BitVec 32) (c : IVec S4096x1 32) (hhi : hi.toNat < 2 ^ 31)
    (hc : ∀ j, (c j).toNat ≤ hi.toNat) (b : Fin 4096) : rowOk hi c (ix1 b) = 1#1 := by
  unfold rowOk
  rw [Host.reduce_eq_foldl]
  show List.foldl (fun r i => IntOp.andi r _) 1#1 _ = 1#1
  refine foldl_andi_one _ _ fun j _ => ?_
  have hj : (c j).toNat < 2 ^ 31 := lt_of_le_of_lt (hc j) hhi
  show IntOp.andi (IntOp.cmpi .sge (c j) (broadcastInDim S4096x1 ![] bcast_S_S4096x1 (constantI S_ 32 0#32) j))
      (IntOp.cmpi .sle (c j) (broadcastInDim S4096x1 ![0, 1] bcast_S1x1_S4096x1_0_1
        (broadcastInDim S1x1 ![1] bcast_S1_S1x1_1 (constantI S1 32 hi)) j)) = 1#1
  rw [broadcastInDim_scalar_apply]
  have e2 : broadcastInDim S4096x1 ![0, 1] bcast_S1x1_S4096x1_0_1
      (broadcastInDim S1x1 ![1] bcast_S1_S1x1_1 (constantI S1 32 hi)) j = hi := rfl
  rw [e2]
  show IntOp.andi (IntOp.cmpi .sge (c j) 0#32) (IntOp.cmpi .sle (c j) hi) = 1#1
  rw [cmpi_sge_zero _ hj, cmpi_sle_of_le _ _ hj hhi (hc j)]
  decide

end Cert.RefSide

end
-- ==== Proof.RefGather.lean ====
/-
  A row gather read at an index. Each of the reference's four gathers takes one start index per sample (the index
  vector has one component, naming axis 0 of the table), collapses that axis, and keeps the table's other axes as offset
  axes. So the element at sample `b` and offsets `(d, k)` is the table's at row `r` and `(d, k)`, where `r` is the
  sample's index read as a signed integer and clamped to the table's rows: on axis 0 the operand index is the clamped
  start (no batching axis, no offset on a collapsed axis); on an offset axis the start is 0 and the offset is the
  result's coordinate.
-/
import proofs.«211788_g47691316855323_cont_8to1_c_563_28_alg».proof.Proof.RefIdx

noncomputable section

namespace Cert.RefSide

open Cert.ReferenceIdeal Cert.ReferenceIdeal.Gen Idealize.ShloMosaic Idealize.ShloMosaic.ValueIdx

variable {α : Type}

/-- The table of 64 entries at the sample's clamped index. -/
theorem gather64_apply (x : S64.Idx → α) (c : IVec S4096x1 32) (b : Fin 4096) :
    Host.gather gather_S64_S4096x1_S4096_n_0_n_n_0_1_1 x c (ix1 b)
      = x (ix1 ⟨min (c (ix2 b 0)).toInt.toNat 63, by omega⟩) := by
  unfold Host.gather
  refine congrArg x (funext fun a => Fin.ext ?_)
  match a with
  | ⟨0, _⟩ =>
    show gather_S64_S4096x1_S4096_n_0_n_n_0_1_1.start (ix1 b) c 0
        + gather_S64_S4096x1_S4096_n_0_n_n_0_1_1.batchCoord (ix1 b) 0
        + gather_S64_S4096x1_S4096_n_0_n_n_0_1_1.offCoord (ix1 b) 0 = _
    rw [GatherDims.batchCoord_eq_zero _ _ _ (by unfold gather_S64_S4096x1_S4096_n_0_n_n_0_1_1; exact List.not_mem_nil),
      GatherDims.offCoord_eq_zero _ _ _ (fun h => ((GatherDims.mem_sKept _ _).mp h).1
        (by unfold gather_S64_S4096x1_S4096_n_0_n_n_0_1_1; exact List.mem_singleton.mpr rfl))]
    simp only [Nat.add_zero]
    unfold GatherDims.start
    rw [dif_pos (show (0 : Fin 1) ∈ gather_S64_S4096x1_S4096_n_0_n_n_0_1_1.startIndexMap from
      by unfold gather_S64_S4096x1_S4096_n_0_n_n_0_1_1; exact List.mem_singleton.mpr rfl)]
    have hsi : gather_S64_S4096x1_S4096_n_0_n_n_0_1_1.siIdx (ix1 b)
        ⟨List.idxOf (0 : Fin 1) gather_S64_S4096x1_S4096_n_0_n_n_0_1_1.startIndexMap,
          List.idxOf_lt_length_iff.2 (by unfold gather_S64_S4096x1_S4096_n_0_n_n_0_1_1; exact List.mem_singleton.mpr rfl)⟩
        = ix2 b 0 := by
      funext q; refine Fin.ext ?_
      match q with
      | ⟨0, _⟩ => rfl
      | ⟨1, _⟩ => rfl
    rw [hsi]
    rfl

/-- The sixteen matrices at the sample's clamped index. -/
theorem gatherWp_apply (x : S16x256x128.Idx → α) (c : IVec S4096x1 32) (b : Fin 4096) (d : Fin 256) (k : Fin 128) :
    Host.gather gather_S16x256x128_S4096x1_S4096x256x128_12_0_n_n_0_1_1256128 x c (ix3 b d k)
      = x (ix3 ⟨min (c (ix2 b 0)).toInt.toNat 15, by omega⟩ d k) := by
  unfold Host.gather
  refine congrArg x (funext fun a => Fin.ext ?_)
  match a with
  | ⟨0, _⟩ =>
    show gather_S16x256x128_S4096x1_S4096x256x128_12_0_n_n_0_1_1256128.start (ix3 b d k) c 0
        + gather_S16x256x128_S4096x1_S4096x256x128_12_0_n_n_0_1_1256128.batchCoord (ix3 b d k) 0
        + gather_S16x256x128_S4096x1_S4096x256x128_12_0_n_n_0_1_1256128.offCoord (ix3 b d k) 0 = _
    rw [GatherDims.batchCoord_eq_zero _ _ _ (by unfold gather_S16x256x128_S4096x1_S4096x256x128_12_0_n_n_0_1_1256128; exact List.not_mem_nil),
      GatherDims.offCoord_eq_zero _ _ _ (fun h => ((GatherDims.mem_sKept _ _).mp h).1
        (by unfold gather_S16x256x128_S4096x1_S4096x256x128_12_0_n_n_0_1_1256128; exact List.mem_singleton.mpr rfl))]
    simp only [Nat.add_zero]
    unfold GatherDims.start
    rw [dif_pos (show (0 : Fin 3) ∈ gather_S16x256x128_S4096x1_S4096x256x128_12_0_n_n_0_1_1256128.startIndexMap from
      by unfold gather_S16x256x128_S4096x1_S4096x256x128_12_0_n_n_0_1_1256128; exact List.mem_singleton.mpr rfl)]
    have hsi : gather_S16x256x128_S4096x1_S4096x256x128_12_0_n_n_0_1_1256128.siIdx (ix3 b d k)
        ⟨List.idxOf (0 : Fin 3) gather_S16x256x128_S4096x1_S4096x256x128_12_0_n_n_0_1_1256128.startIndexMap,
          List.idxOf_lt_length_iff.2 (by unfold gather_S16x256x128_S4096x1_S4096x256x128_12_0_n_n_0_1_1256128; exact List.mem_singleton.mpr rfl)⟩
        = ix2 b 0 := by
      funext q; refine Fin.ext ?_
      match q with
      | ⟨0, _⟩ => rfl
      | ⟨1, _⟩ => rfl
    rw [hsi]
    rfl
  | ⟨1, _⟩ =>
    show gather_S16x256x128_S4096x1_S4096x256x128_12_0_n_n_0_1_1256128.start (ix3 b d k) c 1 + gather_S16x256x128_S4096x1_S4096x256x128_12_0_n_n_0_1_1256128.batchCoord (ix3 b d k) 1 + gather_S16x256x128_S4096x1_S4096x256x128_12_0_n_n_0_1_1256128.offCoord (ix3 b d k) 1 = d.val
    have h1 : gather_S16x256x128_S4096x1_S4096x256x128_12_0_n_n_0_1_1256128.start (ix3 b d k) c 1 = 0 := by unfold GatherDims.start; rw [dif_neg (by decide)]
    have h2 : gather_S16x256x128_S4096x1_S4096x256x128_12_0_n_n_0_1_1256128.batchCoord (ix3 b d k) 1 = 0 := by unfold GatherDims.batchCoord; rw [dif_neg (by decide)]
    have h3 : gather_S16x256x128_S4096x1_S4096x256x128_12_0_n_n_0_1_1256128.offCoord (ix3 b d k) 1 = d.val := by
      unfold GatherDims.offCoord; rw [dif_pos (by decide)]; rfl
    rw [h1, h2, h3, Nat.zero_add]
  | ⟨2, _⟩ =>
    show gather_S16x256x128_S4096x1_S4096x256x128_12_0_n_n_0_1_1256128.start (ix3 b d k) c 2 + gather_S16x256x128_S4096x1_S4096x256x128_12_0_n_n_0_1_1256128.batchCoord (ix3 b d k) 2 + gather_S16x256x128_S4096x1_S4096x256x128_12_0_n_n_0_1_1256128.offCoord (ix3 b d k) 2 = k.val
    have h1 : gather_S16x256x128_S4096x1_S4096x256x128_12_0_n_n_0_1_1256128.start (ix3 b d k) c 2 = 0 := by unfold GatherDims.start; rw [dif_neg (by decide)]
    have h2 : gather_S16x256x128_S4096x1_S4096x256x128_12_0_n_n_0_1_1256128.batchCoord (ix3 b d k) 2 = 0 := by unfold GatherDims.batchCoord; rw [dif_neg (by decide)]
    have h3 : gather_S16x256x128_S4096x1_S4096x256x128_12_0_n_n_0_1_1256128.offCoord (ix3 b d k) 2 = k.val := by
      unfold GatherDims.offCoord; rw [dif_pos (by decide)]; rfl
    rw [h1, h2, h3, Nat.zero_add]

/-- The sixteen bias rows at the sample's clamped index. -/
theorem gatherBp_apply (x : S16x128.Idx → α) (c : IVec S4096x1 32) (b : Fin 4096) (k : Fin 128) :
    Host.gather gather_S16x128_S4096x1_S4096x128_1_0_n_n_0_1_1128 x c (ix2 b k)
      = x (ix2 ⟨min (c (ix2 b 0)).toInt.toNat 15, by omega⟩ k) := by
  unfold Host.gather
  refine congrArg x (funext fun a => Fin.ext ?_)
  match a with
  | ⟨0, _⟩ =>
    show gather_S16x128_S4096x1_S4096x128_1_0_n_n_0_1_1128.start (ix2 b k) c 0
        + gather_S16x128_S4096x1_S4096x128_1_0_n_n_0_1_1128.batchCoord (ix2 b k) 0
        + gather_S16x128_S4096x1_S4096x128_1_0_n_n_0_1_1128.offCoord (ix2 b k) 0 = _
    rw [GatherDims.batchCoord_eq_zero _ _ _ (by unfold gather_S16x128_S4096x1_S4096x128_1_0_n_n_0_1_1128; exact List.not_mem_nil),
      GatherDims.offCoord_eq_zero _ _ _ (fun h => ((GatherDims.mem_sKept _ _).mp h).1
        (by unfold gather_S16x128_S4096x1_S4096x128_1_0_n_n_0_1_1128; exact List.mem_singleton.mpr rfl))]
    simp only [Nat.add_zero]
    unfold GatherDims.start
    rw [dif_pos (show (0 : Fin 2) ∈ gather_S16x128_S4096x1_S4096x128_1_0_n_n_0_1_1128.startIndexMap from
      by unfold gather_S16x128_S4096x1_S4096x128_1_0_n_n_0_1_1128; exact List.mem_singleton.mpr rfl)]
    have hsi : gather_S16x128_S4096x1_S4096x128_1_0_n_n_0_1_1128.siIdx (ix2 b k)
        ⟨List.idxOf (0 : Fin 2) gather_S16x128_S4096x1_S4096x128_1_0_n_n_0_1_1128.startIndexMap,
          List.idxOf_lt_length_iff.2 (by unfold gather_S16x128_S4096x1_S4096x128_1_0_n_n_0_1_1128; exact List.mem_singleton.mpr rfl)⟩
        = ix2 b 0 := by
      funext q; refine Fin.ext ?_
      match q with
      | ⟨0, _⟩ => rfl
      | ⟨1, _⟩ => rfl
    rw [hsi]
    rfl
  | ⟨1, _⟩ =>
    show gather_S16x128_S4096x1_S4096x128_1_0_n_n_0_1_1128.start (ix2 b k) c 1 + gather_S16x128_S4096x1_S4096x128_1_0_n_n_0_1_1128.batchCoord (ix2 b k) 1 + gather_S16x128_S4096x1_S4096x128_1_0_n_n_0_1_1128.offCoord (ix2 b k) 1 = k.val
    have h1 : gather_S16x128_S4096x1_S4096x128_1_0_n_n_0_1_1128.start (ix2 b k) c 1 = 0 := by unfold GatherDims.start; rw [dif_neg (by decide)]
    have h2 : gather_S16x128_S4096x1_S4096x128_1_0_n_n_0_1_1128.batchCoord (ix2 b k) 1 = 0 := by unfold GatherDims.batchCoord; rw [dif_neg (by decide)]
    have h3 : gather_S16x128_S4096x1_S4096x128_1_0_n_n_0_1_1128.offCoord (ix2 b k) 1 = k.val := by
      unfold GatherDims.offCoord; rw [dif_pos (by decide)]; rfl
    rw [h1, h2, h3, Nat.zero_add]

/-- The 64 head rows at the sample's clamped index. -/
theorem gatherWd_apply (x : S64x128.Idx → α) (c : IVec S4096x1 32) (b : Fin 4096) (k : Fin 128) :
    Host.gather gather_S64x128_S4096x1_S4096x128_1_0_n_n_0_1_1128 x c (ix2 b k)
      = x (ix2 ⟨min (c (ix2 b 0)).toInt.toNat 63, by omega⟩ k) := by
  unfold Host.gather
  refine congrArg x (funext fun a => Fin.ext ?_)
  match a with
  | ⟨0, _⟩ =>
    show gather_S64x128_S4096x1_S4096x128_1_0_n_n_0_1_1128.start (ix2 b k) c 0
        + gather_S64x128_S4096x1_S4096x128_1_0_n_n_0_1_1128.batchCoord (ix2 b k) 0
        + gather_S64x128_S4096x1_S4096x128_1_0_n_n_0_1_1128.offCoord (ix2 b k) 0 = _
    rw [GatherDims.batchCoord_eq_zero _ _ _ (by unfold gather_S64x128_S4096x1_S4096x128_1_0_n_n_0_1_1128; exact List.not_mem_nil),
      GatherDims.offCoord_eq_zero _ _ _ (fun h => ((GatherDims.mem_sKept _ _).mp h).1
        (by unfold gather_S64x128_S4096x1_S4096x128_1_0_n_n_0_1_1128; exact List.mem_singleton.mpr rfl))]
    simp only [Nat.add_zero]
    unfold GatherDims.start
    rw [dif_pos (show (0 : Fin 2) ∈ gather_S64x128_S4096x1_S4096x128_1_0_n_n_0_1_1128.startIndexMap from
      by unfold gather_S64x128_S4096x1_S4096x128_1_0_n_n_0_1_1128; exact List.mem_singleton.mpr rfl)]
    have hsi : gather_S64x128_S4096x1_S4096x128_1_0_n_n_0_1_1128.siIdx (ix2 b k)
        ⟨List.idxOf (0 : Fin 2) gather_S64x128_S4096x1_S4096x128_1_0_n_n_0_1_1128.startIndexMap,
          List.idxOf_lt_length_iff.2 (by unfold gather_S64x128_S4096x1_S4096x128_1_0_n_n_0_1_1128; exact List.mem_singleton.mpr rfl)⟩
        = ix2 b 0 := by
      funext q; refine Fin.ext ?_
      match q with
      | ⟨0, _⟩ => rfl
      | ⟨1, _⟩ => rfl
    rw [hsi]
    rfl
  | ⟨1, _⟩ =>
    show gather_S64x128_S4096x1_S4096x128_1_0_n_n_0_1_1128.start (ix2 b k) c 1 + gather_S64x128_S4096x1_S4096x128_1_0_n_n_0_1_1128.batchCoord (ix2 b k) 1 + gather_S64x128_S4096x1_S4096x128_1_0_n_n_0_1_1128.offCoord (ix2 b k) 1 = k.val
    have h1 : gather_S64x128_S4096x1_S4096x128_1_0_n_n_0_1_1128.start (ix2 b k) c 1 = 0 := by unfold GatherDims.start; rw [dif_neg (by decide)]
    have h2 : gather_S64x128_S4096x1_S4096x128_1_0_n_n_0_1_1128.batchCoord (ix2 b k) 1 = 0 := by unfold GatherDims.batchCoord; rw [dif_neg (by decide)]
    have h3 : gather_S64x128_S4096x1_S4096x128_1_0_n_n_0_1_1128.offCoord (ix2 b k) 1 = k.val := by
      unfold GatherDims.offCoord; rw [dif_pos (by decide)]; rfl
    rw [h1, h2, h3, Nat.zero_add]

end Cert.RefSide

end
-- ==== Proof.RefTake.lean ====
/-
  The reference's row selections read at an index where every index names a row. Such an index is not negative, so
  the wrap leaves it; it passes both tests of the row mask, so the select keeps the gathered row and not the NaN fill;
  and clamping it to the table's rows leaves it. So the selection at sample `b` is the table's row `i_b`. The routing
  table read at a drug index below 64 is that index modulo 16.
-/
import proofs.«211788_g47691316855323_cont_8to1_c_563_28_alg».proof.Proof.RefGather

noncomputable section

namespace Cert.RefSide

open Cert.ReferenceIdeal Cert.ReferenceIdeal.Gen Idealize.ShloMosaic Idealize.ShloMosaic.ValueIdx

/-- A word at most `n < 2^31`, read signed and clamped to `n`, is the word. -/
theorem clamp_of_le (x : BitVec 32) (n : Nat) (h : x.toNat ≤ n) (hn : n < 2 ^ 31) : min x.toInt.toNat n = x.toNat := by
  rw [toInt_of_lt x (by omega), Int.toNat_natCast]
  omega

/-- The column of the wrapped indices at row `b` is the index of sample `b`, where no index is negative. -/
theorem colWrap_apply (n : BitVec 32) (i : IVec S4096 32) (hi : ∀ b, (i (ix1 b)).toNat < 2 ^ 31) (b : Fin 4096) (q : Fin 1) :
    col (wrapIdx n i) (ix2 b q) = i (ix1 b) := by
  rw [col_apply, wrapIdx_apply _ _ _ (hi b)]

/-- Each sample's pathway is its drug index modulo 16. -/
theorem pwIdx_apply (drug : IVec S4096 32) (hd : ∀ b, (drug (ix1 b)).toNat < 64) (b : Fin 4096) :
    pwIdx drug (ix1 b) = BitVec.ofNat 32 ((drug (ix1 b)).toNat % 16) := by
  have hlt : ∀ b, (drug (ix1 b)).toNat < 2 ^ 31 := fun b' => lt_trans (hd b') (by norm_num)
  unfold pwIdx
  rw [gather64_apply]
  refine (congrArg (fun r => remTable (ix1 r)) (Fin.ext ?_)).trans (remTable_apply ⟨(drug (ix1 b)).toNat, hd b⟩)
  show min (col (wrapIdx 64#32 drug) (ix2 b 0)).toInt.toNat 63 = (drug (ix1 b)).toNat
  rw [colWrap_apply _ _ hlt]
  exact clamp_of_le _ 63 (by have := hd b; omega) (by norm_num)

/-- So each sample's pathway is below 16. -/
theorem pwIdx_lt (drug : IVec S4096 32) (hd : ∀ b, (drug (ix1 b)).toNat < 64) (b : Fin 4096) :
    (pwIdx drug (ix1 b)).toNat < 16 := by
  rw [pwIdx_apply drug hd b, BitVec.toNat_ofNat]
  have : (drug (ix1 b)).toNat % 16 < 16 := Nat.mod_lt _ (by norm_num)
  omega

/-- … and is the drug index modulo 16 as a number. -/
theorem pwIdx_toNat (drug : IVec S4096 32) (hd : ∀ b, (drug (ix1 b)).toNat < 64) (b : Fin 4096) :
    (pwIdx drug (ix1 b)).toNat = (drug (ix1 b)).toNat % 16 := by
  rw [pwIdx_apply drug hd b, BitVec.toNat_ofNat]
  have : (drug (ix1 b)).toNat % 16 < 16 := Nat.mod_lt _ (by norm_num)
  omega

/-- The expert weights' selection at an in-range index is the table's row. -/
theorem takeWp_apply (W : FVec Ideal S16x256x128 .f32) (i : IVec S4096 32) (hi : ∀ b, (i (ix1 b)).toNat < 16)
    (b : Fin 4096) (d : Fin 256) (k : Fin 128) :
    takeWp W i (ix3 b d k) = W (ix3 ⟨(i (ix1 b)).toNat, hi b⟩ d k) := by
  have hlt : ∀ b, (i (ix1 b)).toNat < 2 ^ 31 := fun b' => lt_trans (hi b') (by norm_num)
  unfold takeWp
  rw [select_apply]
  have hm : broadcastInDim S4096x256x128 ![0] bcast_S4096_S4096x256x128_0 (rowOk 15#32 (col (wrapIdx 16#32 i))) (ix3 b d k) = 1#1 := by
    rw [broadcastInDim_apply _ _ _ _ (ix1 b) (by intro a; match a with | ⟨0, _⟩ => rfl)]
    refine rowOk_apply 15#32 _ (by decide) (fun j => ?_) b
    obtain ⟨j0, j1, rfl⟩ : ∃ (j0 : Fin 4096) (j1 : Fin 1), j = ix2 j0 j1 := ⟨j 0, j 1, eq_ix2 j⟩
    rw [colWrap_apply _ _ hlt]
    have := hi j0
    show _ ≤ 15
    omega
  rw [hm, select_one, gatherWp_apply]
  refine congrArg (fun r => W (ix3 r d k)) (Fin.ext ?_)
  show min (col (wrapIdx 16#32 i) (ix2 b 0)).toInt.toNat 15 = (i (ix1 b)).toNat
  rw [colWrap_apply _ _ hlt]
  exact clamp_of_le _ 15 (by have := hi b; omega) (by norm_num)

/-- The expert biases' selection at an in-range index is the table's row. -/
theorem takeBp_apply (W : FVec Ideal S16x128 .f32) (i : IVec S4096 32) (hi : ∀ b, (i (ix1 b)).toNat < 16)
    (b : Fin 4096) (k : Fin 128) :
    takeBp W i (ix2 b k) = W (ix2 ⟨(i (ix1 b)).toNat, hi b⟩ k) := by
  have hlt : ∀ b, (i (ix1 b)).toNat < 2 ^ 31 := fun b' => lt_trans (hi b') (by norm_num)
  unfold takeBp
  rw [select_apply]
  have hm : broadcastInDim S4096x128 ![0] bcast_S4096_S4096x128_0 (rowOk 15#32 (col (wrapIdx 16#32 i))) (ix2 b k) = 1#1 := by
    rw [broadcastInDim_apply _ _ _ _ (ix1 b) (by intro a; match a with | ⟨0, _⟩ => rfl)]
    refine rowOk_apply 15#32 _ (by decide) (fun j => ?_) b
    obtain ⟨j0, j1, rfl⟩ : ∃ (j0 : Fin 4096) (j1 : Fin 1), j = ix2 j0 j1 := ⟨j 0, j 1, eq_ix2 j⟩
    rw [colWrap_apply _ _ hlt]
    have := hi j0
    show _ ≤ 15
    omega
  rw [hm, select_one, gatherBp_apply]
  refine congrArg (fun r => W (ix2 r k)) (Fin.ext ?_)
  show min (col (wrapIdx 16#32 i) (ix2 b 0)).toInt.toNat 15 = (i (ix1 b)).toNat
  rw [colWrap_apply _ _ hlt]
  exact clamp_of_le _ 15 (by have := hi b; omega) (by norm_num)

/-- The head weights' selection at an in-range index is the table's row. -/
theorem takeWd_apply (W : FVec Ideal S64x128 .f32) (i : IVec S4096 32) (hi : ∀ b, (i (ix1 b)).toNat < 64)
    (b : Fin 4096) (k : Fin 128) :
    takeWd W i (ix2 b k) = W (ix2 ⟨(i (ix1 b)).toNat, hi b⟩ k) := by
  have hlt : ∀ b, (i (ix1 b)).toNat < 2 ^ 31 := fun b' => lt_trans (hi b') (by norm_num)
  unfold takeWd
  rw [select_apply]
  have hm : broadcastInDim S4096x128 ![0] bcast_S4096_S4096x128_0 (rowOk 63#32 (col (wrapIdx 64#32 i))) (ix2 b k) = 1#1 := by
    rw [broadcastInDim_apply _ _ _ _ (ix1 b) (by intro a; match a with | ⟨0, _⟩ => rfl)]
    refine rowOk_apply 63#32 _ (by decide) (fun j => ?_) b
    obtain ⟨j0, j1, rfl⟩ : ∃ (j0 : Fin 4096) (j1 : Fin 1), j = ix2 j0 j1 := ⟨j 0, j 1, eq_ix2 j⟩
    rw [colWrap_apply _ _ hlt]
    have := hi j0
    show _ ≤ 63
    omega
  rw [hm, select_one, gatherWd_apply]
  refine congrArg (fun r => W (ix2 r k)) (Fin.ext ?_)
  show min (col (wrapIdx 64#32 i) (ix2 b 0)).toInt.toNat 63 = (i (ix1 b)).toNat
  rw [colWrap_apply _ _ hlt]
  exact clamp_of_le _ 63 (by have := hi b; omega) (by norm_num)

/-- The head biases' selection at an in-range index is the table's row. -/
theorem takeBd_apply (W : FVec Ideal S64 .f32) (i : IVec S4096 32) (hi : ∀ b, (i (ix1 b)).toNat < 64)
    (b : Fin 4096) :
    takeBd W i (ix1 b) = W (ix1 ⟨(i (ix1 b)).toNat, hi b⟩) := by
  have hlt : ∀ b, (i (ix1 b)).toNat < 2 ^ 31 := fun b' => lt_trans (hi b') (by norm_num)
  unfold takeBd
  rw [select_apply]
  have hm : rowOk 63#32 (col (wrapIdx 64#32 i)) (ix1 b) = 1#1 := by
    refine rowOk_apply 63#32 _ (by decide) (fun j => ?_) b
    obtain ⟨j0, j1, rfl⟩ : ∃ (j0 : Fin 4096) (j1 : Fin 1), j = ix2 j0 j1 := ⟨j 0, j 1, eq_ix2 j⟩
    rw [colWrap_apply _ _ hlt]
    have := hi j0
    show _ ≤ 63
    omega
  rw [hm, select_one, gather64_apply]
  refine congrArg (fun r => W (ix1 r)) (Fin.ext ?_)
  show min (col (wrapIdx 64#32 i) (ix2 b 0)).toInt.toNat 63 = (i (ix1 b)).toNat
  rw [colWrap_apply _ _ hlt]
  exact clamp_of_le _ 63 (by have := hi b; omega) (by norm_num)

end Cert.RefSide

end
-- ==== Proof.RefDot.lean ====
/-
  The reference's two products read at an index, at the ideal values. A `dot_general` read at an output index is the
  sum, over the contraction index, of the products of the operands at the indices the dimension numbers assign; with one
  contracted axis the contraction index is that axis's coordinate. The shared encoder's product contracts the input's
  columns against the weight's rows. The expert's product is batched over the samples: sample `b`'s activation row
  against sample `b`'s own gathered matrix, contracting the activation's columns against the matrix's rows.
-/
import proofs.«211788_g47691316855323_cont_8to1_c_563_28_alg».proof.Proof.RefStages
import Idealize.ShloMosaic.Lib.StackMember

noncomputable section

namespace Cert.RefSide

open Cert.ReferenceIdeal Cert.ReferenceIdeal.Gen Idealize.ShloMosaic Idealize.ShloMosaic.ValueIdx

/-- The shared encoder's product at `(b, d)`. -/
theorem dot1_apply (x : FVec Ideal S4096x2048 .f32) (Ws : FVec Ideal S2048x256 .f32) (b : Fin 4096) (d : Fin 256) :
    Host.dotGeneral dot_S4096x2048_S2048x256_S4096x256_1_0_0_1_n_n none x Ws (ix2 b d) = ∑ j : Fin 2048, x (ix2 b j) * Ws (ix2 j d) := by
  have e : dot_S4096x2048_S2048x256_S4096x256_1_0_0_1_n_n = DotDims.plain 4096 2048 256 := rfl
  rw [e]
  exact StackMember.dotGeneral_plain_apply none x Ws b d

/-- The expert's batched product at `(b, k)`. -/
theorem dot2_apply (h : FVec Ideal S4096x256 .f32) (W : FVec Ideal S4096x256x128 .f32) (b : Fin 4096) (k : Fin 128) :
    Host.dotGeneral dot_S4096x256_S4096x256x128_S4096x128_1_1_n_2_0_0 none h W (ix2 b k) = ∑ d : Fin 256, h (ix2 b d) * W (ix3 b d k) := by
  show FloatOps.dotGeneral _ none _ h W (ix2 b k) = _
  rw [Ideal.dotGeneral_apply, ← Equiv.sum_comp (contrEquiv1 dot_S4096x256_S4096x256x128_S4096x128_1_1_n_2_0_0 256 rfl rfl).symm]
  refine Finset.sum_congr rfl fun c _ => ?_
  have c3 := contrEquiv1_symm_val dot_S4096x256_S4096x256x128_S4096x128_1_1_n_2_0_0 256 rfl rfl c
  have l3 : dot_S4096x256_S4096x256x128_S4096x128_1_1_n_2_0_0.lhsIdx (ix2 b k) ((contrEquiv1 _ 256 rfl rfl).symm c) = ix2 b c := by
    funext ax; apply Fin.ext
    match ax with
    | ⟨0, _⟩ => simp [DotDims.lhsIdx, dot_S4096x256_S4096x256x128_S4096x128_1_1_n_2_0_0]; rfl
    | ⟨1, _⟩ => simp [DotDims.lhsIdx, dot_S4096x256_S4096x256x128_S4096x128_1_1_n_2_0_0]; exact c3
  have r3 : dot_S4096x256_S4096x256x128_S4096x128_1_1_n_2_0_0.rhsIdx (ix2 b k) ((contrEquiv1 _ 256 rfl rfl).symm c) = ix3 b c k := by
    funext ax; apply Fin.ext
    match ax with
    | ⟨0, _⟩ => simp [DotDims.rhsIdx, dot_S4096x256_S4096x256x128_S4096x128_1_1_n_2_0_0]; rfl
    | ⟨1, _⟩ => simp [DotDims.rhsIdx, dot_S4096x256_S4096x256x128_S4096x128_1_1_n_2_0_0]; exact c3
    | ⟨2, _⟩ => simp [DotDims.rhsIdx, dot_S4096x256_S4096x256x128_S4096x128_1_1_n_2_0_0]; rfl
  rw [l3, r3]

end Cert.RefSide

end
-- ==== Proof.RefNet.lean ====
/-
  The reference's network stages read at an index, at the ideal values, where every drug index names a row.
  A rectifier is the maximum with 0 (the f32 zero pattern is the extended real 0). The shared bias, broadcast first to one
  row and then down the rows, reads the bias at the column. So the shared encoder's stage at `(b, d)` is the
  specification's `hid`; and with the expert's weights and bias selected at the sample's pathway `i_b mod 16`, the
  expert's stage at `(b, k)` is the specification's `expert`.
-/
import proofs.«211788_g47691316855323_cont_8to1_c_563_28_alg».proof.Proof.RefTake
import proofs.«211788_g47691316855323_cont_8to1_c_563_28_alg».proof.Proof.RefDot
import proofs.«211788_g47691316855323_cont_8to1_c_563_28_alg».proof.Proof.Spec

noncomputable section

namespace Cert.RefSide

open Cert.ReferenceIdeal Cert.ReferenceIdeal.Gen Idealize.ShloMosaic Idealize.ShloMosaic.ValueIdx

theorem relu256_apply (a : FVec Ideal S4096x256 .f32) (j : S4096x256.Idx) : relu256 a j = max (a j) 0 := by
  unfold relu256
  rw [maximumf_apply, broadcastInDim_scalar_apply, constant_apply, Ideal.ofBits_zero_f32]

theorem relu128_apply (a : FVec Ideal S4096x128 .f32) (j : S4096x128.Idx) : relu128 a j = max (a j) 0 := by
  unfold relu128
  rw [maximumf_apply, broadcastInDim_scalar_apply, constant_apply, Ideal.ofBits_zero_f32]

/-- The shared bias broadcast to a row and then down the rows reads the bias at the column. -/
theorem bias_apply (bs : FVec Ideal S256 .f32) (b : Fin 4096) (d : Fin 256) :
    broadcastInDim S4096x256 ![0, 1] bcast_S1x256_S4096x256_0_1 (broadcastInDim S1x256 ![1] bcast_S256_S1x256_1 bs) (ix2 b d)
      = bs (ix1 d) := by
  rw [broadcastInDim_apply _ _ _ _ (ix2 (0 : Fin 1) d) (by intro a; match a with | ⟨0, _⟩ => rfl | ⟨1, _⟩ => rfl)]
  rw [broadcastInDim_apply _ _ _ _ (ix1 d) (by intro a; match a with | ⟨0, _⟩ => rfl)]

/-- The shared encoder's stage is the specification's. -/
theorem hidden_apply (x : FVec Ideal S4096x2048 .f32) (Ws : FVec Ideal S2048x256 .f32) (bs : FVec Ideal S256 .f32)
    (b : Fin 4096) (d : Fin 256) : hidden x Ws bs (ix2 b d) = Cert.Spec.hid x Ws bs b d := by
  unfold hidden Cert.Spec.hid
  rw [relu256_apply, addf_apply, dot1_apply, bias_apply]

/-- The expert's stage is the specification's, where every drug index names a row. -/
theorem expertAct_apply (x : FVec Ideal S4096x2048 .f32) (drug : IVec S4096 32) (Ws : FVec Ideal S2048x256 .f32)
    (bs : FVec Ideal S256 .f32) (Wp : FVec Ideal S16x256x128 .f32) (bp : FVec Ideal S16x128 .f32)
    (hd : Cert.Spec.InRange drug) (b : Fin 4096) (k : Fin 128) :
    expertAct x drug Ws bs Wp bp (ix2 b k) = Cert.Spec.expert x drug Ws bs Wp bp b k := by
  have hd' : ∀ b, (drug (ix1 b)).toNat < 64 := fun b => hd (ix1 b)
  have e : (⟨(pwIdx drug (ix1 b)).toNat, pwIdx_lt drug hd' b⟩ : Fin 16) = Cert.Spec.pw drug b :=
    Fin.ext (pwIdx_toNat drug hd' b)
  unfold expertAct Cert.Spec.expert
  rw [relu128_apply, addf_apply, dot2_apply, takeBp_apply _ _ (pwIdx_lt drug hd') b k, e]
  have hsum : (∑ d : Fin 256, hidden x Ws bs (ix2 b d) * takeWp Wp (pwIdx drug) (ix3 b d k))
      = ∑ d : Fin 256, Cert.Spec.hid x Ws bs b d * Wp (ix3 (Cert.Spec.pw drug b) d k) :=
    Finset.sum_congr rfl fun d _ => by
      rw [hidden_apply, takeWp_apply _ _ (pwIdx_lt drug hd') b d k, e]
  rw [hsum]

end Cert.RefSide

end
-- ==== Proof.RefValue.lean ====
/-
  The reference's result is the specification's, where every drug index names a row. At sample `b` the result is the
  sum over the features of the expert's activation times the head's weights, from the initial value 0, plus the head's
  bias; the host's sum over one axis is the sum over that axis's coordinates; the head's weights and bias are selected at
  the drug index itself, which below 64 is its own remainder by 64.
-/
import proofs.«211788_g47691316855323_cont_8to1_c_563_28_alg».proof.Proof.RefNet

noncomputable section

namespace Cert.RefSide

open Cert.ReferenceIdeal Cert.ReferenceIdeal.Gen Idealize.ShloMosaic Idealize.ShloMosaic.ValueIdx

/-- Summing out the feature axis of a `4096 × 128` array leaves the samples' axis. -/
theorem reduces_feat : S4096x128.Reduces [1] S4096 := by decide

/-- The sample's index with a feature inserted. -/
theorem lift_feat (b : Fin 4096) (k : Fin 128) : reduces_feat.lift (ix1 b) k = ix2 b k := by
  funext a; apply Fin.ext
  match a with
  | ⟨0, _⟩ => rfl
  | ⟨1, _⟩ => rfl

/-- The reference's result is the specification's function of its arguments. -/
theorem refOut_eq (x : Cert.Spec.ArrX) (drug : Cert.Spec.ArrDrug) (Ws : Cert.Spec.ArrWs) (bs : Cert.Spec.ArrBs)
    (Wp : Cert.Spec.ArrWp) (bp : Cert.Spec.ArrBp) (Wd : Cert.Spec.ArrWd) (bd : Cert.Spec.ArrBd)
    (h : Cert.Spec.InRange drug) :
    refOut (F := Ideal) x drug Ws bs Wp bp Wd bd = Cert.Spec.out x drug Ws bs Wp bp Wd bd := by
  have hd' : ∀ b, (drug (ix1 b)).toNat < 64 := fun b => h (ix1 b)
  funext i
  obtain ⟨b, rfl⟩ : ∃ b : Fin 4096, i = ix1 b := ⟨i 0, eq_ix1 i⟩
  have er : (⟨(drug (ix1 b)).toNat, hd' b⟩ : Fin 64) = Cert.Spec.row drug b :=
    Fin.ext (Nat.mod_eq_of_lt (hd' b)).symm
  have hsum : (∑ k : Fin 128, mulf (expertAct (F := Ideal) x drug Ws bs Wp bp) (takeWd Wd drug) (reduces_feat.lift (ix1 b) k))
      = ∑ k : Fin 128, Cert.Spec.expert x drug Ws bs Wp bp b k * Wd (ix2 (Cert.Spec.row drug b) k) :=
    Finset.sum_congr rfl fun k _ => by
      rw [lift_feat, mulf_apply, expertAct_apply _ _ _ _ _ _ h, takeWd_apply _ _ hd' b k, er]
  show addf (Host.reduceAdd (mulf (expertAct (F := Ideal) x drug Ws bs Wp bp) (takeWd Wd drug))
      (constant S_ .f32 0x00000000#32) reducesTo_S4096x128_S4096_d1 h_S_) (takeBd bd drug) (ix1 b)
    = (∑ k : Fin 128, Cert.Spec.expert x drug Ws bs Wp bp b k * Wd (ix2 (Cert.Spec.row drug b) k))
      + bd (ix1 (Cert.Spec.row drug b))
  rw [addf_apply, hostReduceAdd_apply, Ideal.hostReduceAdd_single _ reduces_feat, constant_apply, Ideal.ofBits_zero_f32,
    zero_add, takeBd_apply _ _ hd' b, er]
  exact congrArg (· + bd (ix1 (Cert.Spec.row drug b))) hsum

end Cert.RefSide

end
-- ==== Proof.lean ====
/-
  The five claims about the drug-response kernel.

  The kernel: a SparseCore call gathers, for each of the 4096 samples, the row of the drug head its drug index names; the
  host re-lays the weights (the sixteen pathway experts side by side, 2048 columns); a first TensorCore pipeline computes
  the shared encoder's activation in blocks of 1024 samples; a second, in blocks of 512, computes all sixteen experts'
  activations of each sample at once, keeps the columns of the sample's own pathway (its drug index modulo 16) by a mask,
  multiplies by the gathered row and sums, and adds the head's bias through a one-hot product. The reference gathers the
  sample's expert's weights instead and applies only that expert. On the extended reals both are the function
  `Cert.Spec.out` wherever every drug index names a row of the drug head, which the precondition states.

  Frames: the kernel program's run (the SparseCore launch theorem over the sixteen subcores' task, the host line and the
  two pipeline regions on the TensorCore) ends with every unscoped buffer at named contents, the arguments' their launch
  contents; the reference's run likewise. The idealization rewrote nothing, so `preserves` is trivial.
-/
import proofs.«211788_g47691316855323_cont_8to1_c_563_28_alg».proof.Defs
import proofs.«211788_g47691316855323_cont_8to1_c_563_28_alg».proof.Proof.KiMain
import proofs.«211788_g47691316855323_cont_8to1_c_563_28_alg».proof.Proof.KbMain
import proofs.«211788_g47691316855323_cont_8to1_c_563_28_alg».proof.Proof.KbArgs
import proofs.«211788_g47691316855323_cont_8to1_c_563_28_alg».proof.Proof.KiValMain
import proofs.«211788_g47691316855323_cont_8to1_c_563_28_alg».proof.Proof.PreRange
import proofs.«211788_g47691316855323_cont_8to1_c_563_28_alg».proof.Proof.RefRun
import proofs.«211788_g47691316855323_cont_8to1_c_563_28_alg».proof.Proof.RefValue
import proofs.«211788_g47691316855323_cont_8to1_c_563_28_alg».proof.Proof.Gen.ReferenceIdeal
import proofs.«211788_g47691316855323_cont_8to1_c_563_28_alg».proof.Proof.Gen.Pre_input_domain
import Idealize.ShloMosaic.Adequacy
import Idealize.ShloMosaic.Init

noncomputable section

namespace Cert.Proof

open Idealize.ShloMosaic Idealize.SL.Sem

/-- The precondition says every drug index names a row of the drug head. -/
theorem okB (m : (ℓ : Loc Cert.Kernel.nD Cert.Kernel.τ Cert.Kernel.sig) → Buf (Elt Bits) ℓ)
    (h : Cert.Pre_Kernel (hPre_input_domain := Cert.Pre_input_domain.Gen.facts) m) : Cert.KbProof.PreOK m :=
  fun d j => Cert.PreRange.drug_lt_of_pre (F := Bits) _ _ _ _ _ _ _ _ (h d) j
theorem okI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KiProof.PreOK m :=
  fun d j => Cert.PreRange.drug_lt_of_pre (F := Ideal) _ _ _ _ _ _ _ _ (h d) j

theorem frame_k : Cert.frame_Kernel (hKernel := Cert.Kernel.Gen.facts) (hPre_input_domain := Cert.Pre_input_domain.Gen.facts) := fun m g hpre =>
  (θ_run (Cert.Kernel.defs (F := Bits)) _ _).mono (fun r h c =>
    ⟨(h c Cert.Kernel.main_arg0 rfl).trans (Cert.KbProof.B3_arg0 m c),
      (h c Cert.Kernel.main_arg1 rfl).trans (Cert.KbProof.B3_arg1 m c),
      (h c Cert.Kernel.main_arg2 rfl).trans (Cert.KbProof.B3_arg2 m c),
      (h c Cert.Kernel.main_arg3 rfl).trans (Cert.KbProof.B3_arg3 m c),
      (h c Cert.Kernel.main_arg4 rfl).trans (Cert.KbProof.B3_arg4 m c),
      (h c Cert.Kernel.main_arg5 rfl).trans (Cert.KbProof.B3_arg5 m c),
      (h c Cert.Kernel.main_arg6 rfl).trans (Cert.KbProof.B3_arg6 m c),
      (h c Cert.Kernel.main_arg7 rfl).trans (Cert.KbProof.B3_arg7 m c)⟩)
    (Cert.KbProof.run_main m g (okB m hpre))

theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono (fun r h c =>
    ⟨(h c Cert.KernelIdeal.main_arg0 rfl).trans (Cert.KiProof.B3_arg0 m c),
      (h c Cert.KernelIdeal.main_arg1 rfl).trans (Cert.KiProof.B3_arg1 m c),
      (h c Cert.KernelIdeal.main_arg2 rfl).trans (Cert.KiProof.B3_arg2 m c),
      (h c Cert.KernelIdeal.main_arg3 rfl).trans (Cert.KiProof.B3_arg3 m c),
      (h c Cert.KernelIdeal.main_arg4 rfl).trans (Cert.KiProof.B3_arg4 m c),
      (h c Cert.KernelIdeal.main_arg5 rfl).trans (Cert.KiProof.B3_arg5 m c),
      (h c Cert.KernelIdeal.main_arg6 rfl).trans (Cert.KiProof.B3_arg6 m c),
      (h c Cert.KernelIdeal.main_arg7 rfl).trans (Cert.KiProof.B3_arg7 m c)⟩)
    (Cert.KiProof.run_main m g (okI m hpre))

theorem frame_ri : Cert.frame_ReferenceIdeal (hReferenceIdeal := Cert.ReferenceIdeal.Gen.facts) (hPre_input_domain := Cert.Pre_input_domain.Gen.facts) := fun m g _ =>
  (θ_run (Cert.ReferenceIdeal.defs (F := Ideal)) _ _).mono (fun _ h c => (h c).2) (Cert.RefSide.run m g)

/-- At the ideal instance the kernel program's result and the reference's are both `Cert.Spec.out` of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c Cert.KernelIdeal.main_v10 rfl).trans (Cert.KiProof.kernel_out m c (okI m hpre)),
        (h c Cert.KernelIdeal.main_arg0 rfl).trans (Cert.KiProof.B3_arg0 m c),
        (h c Cert.KernelIdeal.main_arg1 rfl).trans (Cert.KiProof.B3_arg1 m c),
        (h c Cert.KernelIdeal.main_arg2 rfl).trans (Cert.KiProof.B3_arg2 m c),
        (h c Cert.KernelIdeal.main_arg3 rfl).trans (Cert.KiProof.B3_arg3 m c),
        (h c Cert.KernelIdeal.main_arg4 rfl).trans (Cert.KiProof.B3_arg4 m c),
        (h c Cert.KernelIdeal.main_arg5 rfl).trans (Cert.KiProof.B3_arg5 m c),
        (h c Cert.KernelIdeal.main_arg6 rfl).trans (Cert.KiProof.B3_arg6 m c),
        (h c Cert.KernelIdeal.main_arg7 rfl).trans (Cert.KiProof.B3_arg7 m c)⟩)
      (Cert.KiProof.run_main m g (okI m hpre))
  · refine (θ_run (Cert.ReferenceIdeal.defs (F := Ideal)) _ _).mono (fun r h c => ⟨(h c).1.trans ?_, (h c).2⟩) (Cert.RefSide.run m' g')
    obtain ⟨h0, h1, h2, h3, h4, h5, h6, h7⟩ := hagree c
    rw [h0, h1, h2, h3, h4, h5, h6, h7]
    exact Cert.RefSide.refOut_eq _ _ _ _ _ _ _ _ (okI m hpre c)

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
